-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x500000 : Shape := ⟨2, ![2, 500000]⟩
abbrev S128x256 : Shape := ⟨2, ![128, 256]⟩
abbrev S256 : Shape := ⟨1, ![256]⟩
abbrev S256x256 : Shape := ⟨2, ![256, 256]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_

variable [Facts]

def fn_part1 {F : FTy → Type} [FloatOps F] (main_arg5 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S50000x128 .f32) (main_arg1 : IVec S2x500000 32) (main_arg2 : FVec F S128x256 .f32) (main_arg3 : FVec F S256 .f32) (main_arg4 : FVec F S256x256 .f32) (main_arg5 : FVec F S256 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_v13 main_v16
-- ==== Kernel.lean ====
abbrev S50000x128 : Shape := ⟨2, ![50000, 128]⟩
abbrev S2x500000 : Shape := ⟨2, ![2, 500000]⟩
abbrev S128x256 : Shape := ⟨2, ![128, 256]⟩
abbrev S256 : Shape := ⟨1, ![256]⟩
abbrev S256x256 : Shape := ⟨2, ![256, 256]⟩
abbrev S50000 : Shape := ⟨1, ![50000]⟩
abbrev S1x500000 : Shape := ⟨2, ![1, 500000]⟩
abbrev S500000 : Shape := ⟨1, ![500000]⟩
abbrev S550000 : Shape := ⟨1, ![550000]⟩
abbrev S_ : Shape := ⟨0, ![]⟩
abbrev S550000x1 : Shape := ⟨2, ![550000, 1]⟩
abbrev S50000x1 : Shape := ⟨2, ![50000, 1]⟩
abbrev S50000x256 : Shape := ⟨2, ![50000, 256]⟩
abbrev S2000x128 : Shape := ⟨2, ![2000, 128]⟩
abbrev S2000x1 : Shape := ⟨2, ![2000, 1]⟩
abbrev S2000x256 : Shape := ⟨2, ![2000, 256]⟩
abbrev S550000x256 : Shape := ⟨2, ![550000, 256]⟩
abbrev S1x256 : Shape := ⟨2, ![1, 256]⟩

abbrev nBuf : Space → Nat
  | .hbm => 61
  | .vmem => 24
  | .smem => 0
  | _ => 0

abbrev bufTy : (tb : Table) → Fin (tcTables nBuf tb) → BufTy
  | .hbm, ⟨0, _⟩ => ⟨S50000x128, .f32⟩
  | .hbm, ⟨1, _⟩ => ⟨S2x500000, .i32⟩
  | .hbm, ⟨2, _⟩ => ⟨S128x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S50000, .i32⟩
  | .hbm, ⟨7, _⟩ => ⟨S1x500000, .i32⟩
  | .hbm, ⟨8, _⟩ => ⟨S500000, .i32⟩
  | .hbm, ⟨9, _⟩ => ⟨S550000, .i32⟩
  | .hbm, ⟨10, _⟩ => ⟨S1x500000, .i32⟩
  | .hbm, ⟨11, _⟩ => ⟨S500000, .i32⟩
  | .hbm, ⟨12, _⟩ => ⟨S550000, .i32⟩
  | .hbm, ⟨13, _⟩ => ⟨S_, .f32⟩
  | .hbm, ⟨14, _⟩ => ⟨S550000, .f32⟩
  | .hbm, ⟨15, _⟩ => ⟨S_, .f32⟩
  | .hbm, ⟨16, _⟩ => ⟨S50000, .f32⟩
  | .hbm, ⟨17, _⟩ => ⟨S550000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000x1, .f32⟩
  | .hbm, ⟨28, _⟩ => ⟨S50000x256, .bf16⟩
  | .hbm, ⟨29, _⟩ => ⟨S_, .i32⟩
  | .hbm, ⟨30, _⟩ => ⟨S550000, .i32⟩
  | .hbm, ⟨31, _⟩ => ⟨S550000, .i1⟩
  | .hbm, ⟨32, _⟩ => ⟨S_, .i32⟩
  | .hbm, ⟨33, _⟩ => ⟨S550000, .i32⟩
  | .hbm, ⟨34, _⟩ => ⟨S550000, .i32⟩
  | .hbm, ⟨35, _⟩ => ⟨S550000, .i32⟩
  | .hbm, ⟨36, _⟩ => ⟨S550000x1, .i32⟩
  | .hbm, ⟨37, _⟩ => ⟨S550000x256, .bf16⟩
  | .hbm, ⟨38, _⟩ => ⟨S550000x256, .f32⟩
  | .hbm, ⟨39, _⟩ => ⟨S_, .f32⟩
  | .hbm, ⟨40, _⟩ => ⟨S50000x256, .f32⟩
  | .hbm, ⟨41, _⟩ => ⟨S550000x1, .i32⟩
  | .hbm, ⟨42, _⟩ => ⟨S50000x256, .f32⟩
  | .hbm, ⟨43, _⟩ => ⟨S1x256, .f32⟩
  | .hbm, ⟨44, _⟩ => ⟨S50000x256, .bf16⟩
  | .hbm, ⟨45, _⟩ => ⟨S_, .i32⟩
  | .hbm, ⟨46, _⟩ => ⟨S550000, .i32⟩
  | .hbm, ⟨47, _⟩ => ⟨S550000, .i1⟩
  | .hbm, ⟨48, _⟩ => ⟨S_, .i32⟩
  | .hbm, ⟨49, _⟩ => ⟨S550000, .i32⟩
  | .hbm, ⟨50, _⟩ => ⟨S550000, .i32⟩
  | .hbm, ⟨51, _⟩ => ⟨S550000, .i32⟩
  | .hbm, ⟨52, _⟩ => ⟨S550000x1, .i32⟩
  | .hbm, ⟨53, _⟩ => ⟨S550000x256, .bf16⟩
  | .hbm, ⟨54, _⟩ => ⟨S550000x256, .f32⟩
  | .hbm, ⟨55, _⟩ => ⟨S_, .f32⟩
  | .hbm, ⟨56, _⟩ => ⟨S50000x256, .f32⟩
  | .hbm, ⟨57, _⟩ => ⟨S550000x1, .i32⟩
  | .hbm, ⟨58, _⟩ => ⟨S50000x256, .f32⟩
  | .hbm, ⟨59, _⟩ => ⟨S1x256, .f32⟩
  | .hbm, ⟨60, _⟩ => ⟨S50000x256, .f32⟩
  | .local _ .vmem, ⟨0, _⟩ => ⟨S2000x128, .f32⟩
  | .local _ .vmem, ⟨1, _⟩ => ⟨S2000x128, .f32⟩
  | .local _ .vmem, ⟨2, _⟩ => ⟨S128x256, .f32⟩
  | .local _ .vmem, ⟨3, _⟩ => ⟨S2000x1, .f32⟩
  | .local _ .vmem, ⟨4, _⟩ => ⟨S2000x1, .f32⟩
  | .local _ .vmem, ⟨5, _⟩ => ⟨S2000x256, .bf16⟩
  | .local _ .vmem, ⟨6, _⟩ => ⟨S2000x256, .bf16⟩
  | .local _ .vmem, ⟨7, _⟩ => ⟨S2000x256, .f32⟩
  | .local _ .vmem, ⟨8, _⟩ => ⟨S2000x256, .f32⟩
  | .local _ .vmem, ⟨9, _⟩ => ⟨S2000x1, .f32⟩
  | .local _ .vmem, ⟨10, _⟩ => ⟨S2000x1, .f32⟩
  | .local _ .vmem, ⟨11, _⟩ => ⟨S1x256, .f32⟩
  | .local _ .vmem, ⟨12, _⟩ => ⟨S256x256, .f32⟩
  | .local _ .vmem, ⟨13, _⟩ => ⟨S2000x1, .f32⟩
  | .local _ .vmem, ⟨14, _⟩ => ⟨S2000x1, .f32⟩
  | .local _ .vmem, ⟨15, _⟩ => ⟨S2000x256, .bf16⟩
  | .local _ .vmem, ⟨16, _⟩ => ⟨S2000x256, .bf16⟩
  | .local _ .vmem, ⟨17, _⟩ => ⟨S2000x256, .f32⟩
  | .local _ .vmem, ⟨18, _⟩ => ⟨S2000x256, .f32⟩
  | .local _ .vmem, ⟨19, _⟩ => ⟨S2000x1, .f32⟩
  | .local _ .vmem, ⟨20, _⟩ => ⟨S2000x1, .f32⟩
  | .local _ .vmem, ⟨21, _⟩ => ⟨S1x256, .f32⟩
  | .local _ .vmem, ⟨22, _⟩ => ⟨S2000x256, .f32⟩
  | .local _ .vmem, ⟨23, _⟩ => ⟨S2000x256, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_7 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem3_1 : DmaSem sig := 23

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S2000x256 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x500000_S1x500000_0_0 : S2x500000.Slices ![0, 0] S1x500000
  shapeCasts_S1x500000_S500000 : S1x500000.ShapeCasts S500000
  concatenates_S500000_S50000_S550000_d0 : Shape.Concatenates [S500000, S50000] S550000 0
  slices_S2x500000_S1x500000_1_0 : S2x500000.Slices ![1, 0] S1x500000
  bcast_S_S550000 : S_.BroadcastsInDim S550000 (![] : Fin 0 → Fin S550000.rank)
  bcast_S_S50000 : S_.BroadcastsInDim S50000 (![] : Fin 0 → Fin S50000.rank)
  bcast_S550000_S550000x1_0 : S550000.BroadcastsInDim S550000x1 (![0] : Fin 1 → Fin S550000x1.rank)
  shapeCasts_S50000_S50000x1 : S50000.ShapeCasts S50000x1
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x256 : S2000x1.Broadcasts S2000x256
  inb_S2000x256_S2000x256_0_0 : ∀ a, (![0, 0] : Fin 2 → Nat) a + S2000x256.size a ≤ S2000x256.size a
  h_S2000x256 : 0 < S2000x256.numel
  packedbf16_S2000x256_S2000x256_0_0 : (Rect.unit (s := S2000x256) ![0, 0] S2000x256.size inb_S2000x256_S2000x256_0_0).PackedRows (EltTy.packing .bf16)
  bcast_S_S50000x256 : S_.BroadcastsInDim S50000x256 (![] : Fin 0 → Fin S50000x256.rank)
  shapeCasts_S256_S1x256 : S256.ShapeCasts S1x256
  shapeCasts_S2000x256_S2000x256 : S2000x256.ShapeCasts S2000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x256_S256x256_0_0 : ∀ a, (![0, 0] : Fin 2 → Nat) a + S256x256.size a ≤ S256x256.size a
  h_S256x256 : 0 < S256x256.numel
  scatter_S50000_S550000x1_S550000_n_0_0_1_wf : ScatterDims.WF S50000 S550000x1 S550000 [] [0] [0] 1
  dot_S2000x128_S128x256_S2000x256_1_0_0_1_n_n_wf : DotDims.WF S2000x128 S128x256 S2000x256 [1] [0] [0] [1] [] []
  gather_S50000x256_S550000x1_S550000x256_1_0_n_n_0_1_1256_wf : GatherDims.WF S50000x256 S550000x1 S550000x256 [1] [0] [] [0] [] 1 ![1, 256]
  scatter_S50000x256_S550000x1_S550000x256_1_0_0_1_wf : ScatterDims.WF S50000x256 S550000x1 S550000x256 [1] [0] [0] 1
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S50000x256.size a
  hwx0_3 : ∀ i : grid0.Coords, EltTy.bits .bf16 = 32 ∨ (Rect.block (s := S50000x256) S2000x256.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x1.size a ≤ S50000x1.size a
  hwx1_4 : ∀ i : grid1.Coords, EltTy.bits .f32 = 32 ∨ (Rect.block (s := S50000x1) S2000x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x256.size a ≤ S50000x256.size a
  hwx1_5 : ∀ i : grid1.Coords, EltTy.bits .bf16 = 32 ∨ (Rect.block (s := S50000x256) S2000x256.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S50000x1.size a
  hwx2_1 : ∀ i : grid2.Coords, EltTy.bits .f32 = 32 ∨ (Rect.block (s := S50000x1) S2000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x256.size a ≤ S50000x256.size a
  hwx2_3 : ∀ i : grid2.Coords, EltTy.bits .f32 = 32 ∨ (Rect.block (s := S50000x256) S2000x256.size (cc2_transform_3 i) (hinb2_3 i)).WholeWords (EltTy.packing .f32)

variable [Facts₀]

def scatter_S50000_S550000x1_S550000_n_0_0_1 : ScatterDims S50000 S550000x1 S550000 where
  updateWindowDims := []
  insertedWindowDims := [0]
  scatterDimsToOperandDims := [0]
  indexVectorDim := 1
  wf := scatter_S50000_S550000x1_S550000_n_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S550000x1_S550000x256_1_0_n_n_0_1_1256 : GatherDims S50000x256 S550000x1 S550000x256 where
  offsetDims := [1]
  collapsedSliceDims := [0]
  operandBatchingDims := []
  startIndicesBatchingDims := []
  startIndexMap := [0]
  indexVectorDim := 1
  sliceSizes := ![1, 256]
  wf := gather_S50000x256_S550000x1_S550000x256_1_0_n_n_0_1_1256_wf
def scatter_S50000x256_S550000x1_S550000x256_1_0_0_1 : ScatterDims S50000x256 S550000x1 S550000x256 where
  updateWindowDims := [1]
  insertedWindowDims := [0]
  scatterDimsToOperandDims := [0]
  indexVectorDim := 1
  wf := scatter_S50000x256_S550000x1_S550000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S2000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v27) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v15) S2000x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v29) S2000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v40) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v41) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v42) S2000x256.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x500000 : Shape := ⟨2, ![2, 500000]⟩
abbrev S128x256 : Shape := ⟨2, ![128, 256]⟩
abbrev S256 : Shape := ⟨1, ![256]⟩
abbrev S256x256 : Shape := ⟨2, ![256, 256]⟩
abbrev S50000 : Shape := ⟨1, ![50000]⟩
abbrev S1x500000 : Shape := ⟨2, ![1, 500000]⟩
abbrev S500000 : Shape := ⟨1, ![500000]⟩
abbrev S550000 : Shape := ⟨1, ![550000]⟩
abbrev S_ : Shape := ⟨0, ![]⟩
abbrev S550000x1 : Shape := ⟨2, ![550000, 1]⟩
abbrev S50000x256 : Shape := ⟨2, ![50000, 256]⟩
abbrev S550000x256 : Shape := ⟨2, ![550000, 256]⟩
abbrev S1x256 : Shape := ⟨2, ![1, 256]⟩

abbrev nBuf : Space → Nat
  | .hbm => 92
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x500000, .i32⟩
  | .hbm, ⟨2, _⟩ => ⟨S128x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S50000, .i32⟩
  | .hbm, ⟨7, _⟩ => ⟨S1x500000, .i32⟩
  | .hbm, ⟨8, _⟩ => ⟨S500000, .i32⟩
  | .hbm, ⟨9, _⟩ => ⟨S550000, .i32⟩
  | .hbm, ⟨10, _⟩ => ⟨S1x500000, .i32⟩
  | .hbm, ⟨11, _⟩ => ⟨S500000, .i32⟩
  | .hbm, ⟨12, _⟩ => ⟨S550000, .i32⟩
  | .hbm, ⟨13, _⟩ => ⟨S_, .f32⟩
  | .hbm, ⟨14, _⟩ => ⟨S550000, .f32⟩
  | .hbm, ⟨15, _⟩ => ⟨S_, .f32⟩
  | .hbm, ⟨16, _⟩ => ⟨S50000, .f32⟩
  | .hbm, ⟨17, _⟩ => ⟨S550000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S550000, .i32⟩
  | .hbm, ⟨29, _⟩ => ⟨S550000, .i1⟩
  | .hbm, ⟨30, _⟩ => ⟨S_, .i32⟩
  | .hbm, ⟨31, _⟩ => ⟨S550000, .i32⟩
  | .hbm, ⟨32, _⟩ => ⟨S550000, .i32⟩
  | .hbm, ⟨33, _⟩ => ⟨S550000, .i32⟩
  | .hbm, ⟨34, _⟩ => ⟨S550000x1, .i32⟩
  | .hbm, ⟨35, _⟩ => ⟨S550000, .f32⟩
  | .hbm, ⟨36, _⟩ => ⟨S_, .i32⟩
  | .hbm, ⟨37, _⟩ => ⟨S550000, .i32⟩
  | .hbm, ⟨38, _⟩ => ⟨S550000, .i1⟩
  | .hbm, ⟨39, _⟩ => ⟨S_, .i32⟩
  | .hbm, ⟨40, _⟩ => ⟨S550000, .i32⟩
  | .hbm, ⟨41, _⟩ => ⟨S550000, .i32⟩
  | .hbm, ⟨42, _⟩ => ⟨S550000, .i32⟩
  | .hbm, ⟨43, _⟩ => ⟨S550000x1, .i32⟩
  | .hbm, ⟨44, _⟩ => ⟨S550000, .f32⟩
  | .hbm, ⟨45, _⟩ => ⟨S550000, .f32⟩
  | .hbm, ⟨46, _⟩ => ⟨S50000x256, .f32⟩
  | .hbm, ⟨47, _⟩ => ⟨S_, .i32⟩
  | .hbm, ⟨48, _⟩ => ⟨S550000, .i32⟩
  | .hbm, ⟨49, _⟩ => ⟨S550000, .i1⟩
  | .hbm, ⟨50, _⟩ => ⟨S_, .i32⟩
  | .hbm, ⟨51, _⟩ => ⟨S550000, .i32⟩
  | .hbm, ⟨52, _⟩ => ⟨S550000, .i32⟩
  | .hbm, ⟨53, _⟩ => ⟨S550000, .i32⟩
  | .hbm, ⟨54, _⟩ => ⟨S550000x1, .i32⟩
  | .hbm, ⟨55, _⟩ => ⟨S550000x256, .f32⟩
  | .hbm, ⟨56, _⟩ => ⟨S550000x1, .f32⟩
  | .hbm, ⟨57, _⟩ => ⟨S550000x256, .f32⟩
  | .hbm, ⟨58, _⟩ => ⟨S550000x256, .f32⟩
  | .hbm, ⟨59, _⟩ => ⟨S_, .f32⟩
  | .hbm, ⟨60, _⟩ => ⟨S50000x256, .f32⟩
  | .hbm, ⟨61, _⟩ => ⟨S550000x1, .i32⟩
  | .hbm, ⟨62, _⟩ => ⟨S50000x256, .f32⟩
  | .hbm, ⟨63, _⟩ => ⟨S1x256, .f32⟩
  | .hbm, ⟨64, _⟩ => ⟨S50000x256, .f32⟩
  | .hbm, ⟨65, _⟩ => ⟨S50000x256, .f32⟩
  | .hbm, ⟨66, _⟩ => ⟨S_, .f32⟩
  | .hbm, ⟨67, _⟩ => ⟨S50000x256, .f32⟩
  | .hbm, ⟨68, _⟩ => ⟨S50000x256, .f32⟩
  | .hbm, ⟨69, _⟩ => ⟨S50000x256, .f32⟩
  | .hbm, ⟨70, _⟩ => ⟨S_, .i32⟩
  | .hbm, ⟨71, _⟩ => ⟨S550000, .i32⟩
  | .hbm, ⟨72, _⟩ => ⟨S550000, .i1⟩
  | .hbm, ⟨73, _⟩ => ⟨S_, .i32⟩
  | .hbm, ⟨74, _⟩ => ⟨S550000, .i32⟩
  | .hbm, ⟨75, _⟩ => ⟨S550000, .i32⟩
  | .hbm, ⟨76, _⟩ => ⟨S550000, .i32⟩
  | .hbm, ⟨77, _⟩ => ⟨S550000x1, .i32⟩
  | .hbm, ⟨78, _⟩ => ⟨S550000x256, .f32⟩
  | .hbm, ⟨79, _⟩ => ⟨S550000x1, .f32⟩
  | .hbm, ⟨80, _⟩ => ⟨S550000x256, .f32⟩
  | .hbm, ⟨81, _⟩ => ⟨S550000x256, .f32⟩
  | .hbm, ⟨82, _⟩ => ⟨S_, .f32⟩
  | .hbm, ⟨83, _⟩ => ⟨S50000x256, .f32⟩
  | .hbm, ⟨84, _⟩ => ⟨S550000x1, .i32⟩
  | .hbm, ⟨85, _⟩ => ⟨S50000x256, .f32⟩
  | .hbm, ⟨86, _⟩ => ⟨S1x256, .f32⟩
  | .hbm, ⟨87, _⟩ => ⟨S50000x256, .f32⟩
  | .hbm, ⟨88, _⟩ => ⟨S50000x256, .f32⟩
  | .hbm, ⟨89, _⟩ => ⟨S_, .f32⟩
  | .hbm, ⟨90, _⟩ => ⟨S50000x256, .f32⟩
  | .hbm, ⟨91, _⟩ => ⟨S50000x256, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_call2_cst : Ref sig .tc := ⟨.hbm, 89, rfl⟩
abbrev main_call2_v0 : Ref sig .tc := ⟨.hbm, 90, rfl⟩
abbrev main_v65 : Ref sig .tc := ⟨.hbm, 91, rfl⟩

abbrev nD : Nat := 1
abbrev τ : Topo := Topo.v7x

variable {F : FTy → Type} [FloatOps F]

class Facts₀ : Prop where
  slices_S2x500000_S1x500000_0_0 : S2x500000.Slices ![0, 0] S1x500000
  shapeCasts_S1x500000_S500000 : S1x500000.ShapeCasts S500000
  concatenates_S500000_S50000_S550000_d0 : Shape.Concatenates [S500000, S50000] S550000 0
  slices_S2x500000_S1x500000_1_0 : S2x500000.Slices ![1, 0] S1x500000
  bcast_S_S550000 : S_.BroadcastsInDim S550000 (![] : Fin 0 → Fin S550000.rank)
  bcast_S_S50000 : S_.BroadcastsInDim S50000 (![] : Fin 0 → Fin S50000.rank)
  bcast_S550000_S550000x1_0 : S550000.BroadcastsInDim S550000x1 (![0] : Fin 1 → Fin S550000x1.rank)
  bcast_S550000x1_S550000x256_0_1 : S550000x1.BroadcastsInDim S550000x256 (![0, 1] : Fin 2 → Fin S550000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  scatter_S50000_S550000x1_S550000_n_0_0_1_wf : ScatterDims.WF S50000 S550000x1 S550000 [] [0] [0] 1
  gather_S50000_S550000x1_S550000_n_0_n_n_0_1_1_wf : GatherDims.WF S50000 S550000x1 S550000 [] [0] [] [0] [] 1 ![1]
  dot_S50000x128_S128x256_S50000x256_1_0_0_1_n_n_wf : DotDims.WF S50000x128 S128x256 S50000x256 [1] [0] [0] [1] [] []
  gather_S50000x256_S550000x1_S550000x256_1_0_n_n_0_1_1256_wf : GatherDims.WF S50000x256 S550000x1 S550000x256 [1] [0] [] [0] [] 1 ![1, 256]
  scatter_S50000x256_S550000x1_S550000x256_1_0_0_1_wf : ScatterDims.WF S50000x256 S550000x1 S550000x256 [1] [0] [0] 1
  dot_S50000x256_S256x256_S50000x256_1_0_0_1_n_n_wf : DotDims.WF S50000x256 S256x256 S50000x256 [1] [0] [0] [1] [] []

variable [Facts₀]

def scatter_S50000_S550000x1_S550000_n_0_0_1 : ScatterDims S50000 S550000x1 S550000 where
  updateWindowDims := []
  insertedWindowDims := [0]
  scatterDimsToOperandDims := [0]
  indexVectorDim := 1
  wf := scatter_S50000_S550000x1_S550000_n_0_0_1_wf
def gather_S50000_S550000x1_S550000_n_0_n_n_0_1_1 : GatherDims S50000 S550000x1 S550000 where
  offsetDims := []
  collapsedSliceDims := [0]
  operandBatchingDims := []
  startIndicesBatchingDims := []
  startIndexMap := [0]
  indexVectorDim := 1
  sliceSizes := ![1]
  wf := gather_S50000_S550000x1_S550000_n_0_n_n_0_1_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S550000x1_S550000x256_1_0_n_n_0_1_1256 : GatherDims S50000x256 S550000x1 S550000x256 where
  offsetDims := [1]
  collapsedSliceDims := [0]
  operandBatchingDims := []
  startIndicesBatchingDims := []
  startIndexMap := [0]
  indexVectorDim := 1
  sliceSizes := ![1, 256]
  wf := gather_S50000x256_S550000x1_S550000x256_1_0_n_n_0_1_1256_wf
def scatter_S50000x256_S550000x1_S550000x256_1_0_0_1 : ScatterDims S50000x256 S550000x1 S550000x256 where
  updateWindowDims := [1]
  insertedWindowDims := [0]
  scatterDimsToOperandDims := [0]
  indexVectorDim := 1
  wf := scatter_S50000x256_S550000x1_S550000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf

class Facts : Prop extends Facts₀ where

variable [Facts]
-- ==== Proof.K.R0.lean ====
import proofs.«173932_j1915555414201_2_alg».proof.Proof.Gen.Kernel.Launch
import proofs.«173932_j1915555414201_2_alg».proof.Proof.Gen.Kernel.Skeleton
import proofs.«173932_j1915555414201_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 0 of @main at a parameter: the blocks its windows hold, what the body leaves, the body's triple

The TensorCore's buffer contents when the region is entered are a parameter `V`. Every input window's
staging buffer holds that window's block of its array at each grid point; the body reads every input whole, reads
the output buffer (a value it never uses), and overwrites the whole output buffer with one payload, so what
the body leaves in the output buffer is a closed function of the input blocks. -/

-- membership in a rectangle of large extents: the elaborator's structural look recurses once per coordinate
set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place: unfetched, the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s and whose body leaves the block in place: unfetched, the block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s and whose body leaves the block in place: unfetched, the block index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each reads or writes a whole buffer -/

abbrev r0_0 : Rect S2000x128 := Rect.unit (s := S2000x128) ![0, 0] S2000x128.size inb_S2000x128_S2000x128_0_0
abbrev r0_1 : Rect S128x256 := Rect.unit (s := S128x256) ![0, 0] S128x256.size inb_S128x256_S128x256_0_0
abbrev r0_2 : Rect S2000x1 := Rect.unit (s := S2000x1) ![0, 0] S2000x1.size inb_S2000x1_S2000x1_0_0
abbrev r0_3 : Rect S2000x256 := Rect.unit (s := S2000x256) ![0, 0] S2000x256.size inb_S2000x256_S2000x256_0_0

/-! ## What the body leaves in the output window's buffer -/

/-- Window 3's staging buffer after the body, from the input windows' blocks: its one store, over the whole buffer. -/
def out0_3 (x0 : Vec F S2000x128 .f32) (x1 : Vec F S128x256 .f32) (x2 : Vec F S2000x1 .f32) : Vec F S2000x256 .bf16 :=
  View.canon [⟨r0_3, k0_pay1 (View.ld x0 r0_0) (View.ld x1 r0_1) (View.ld x2 r0_2)⟩]

/-- The one store is the whole buffer, so it covers it. -/
theorem cover0_3 (p0 : Vec F S2000x256 .bf16) (y : S2000x256.Idx) :
    ∃ pc ∈ ([⟨r0_3, p0⟩] : List (View.Piece (Elt F) S2000x256 .bf16)), y ∈ pc.1.set :=
  View.cover_of_tiled [⟨r0_3, p0⟩] S2000x256.size (by rfl) y

/-! ## The body's triple -/

set_option maxHeartbeats 1000000 in
/-- The kernel body on whole staging memrefs, the inputs' at read contents `xW` and the output's at anything, runs to
    the continuation holding the inputs' as they were and the output's at `out0_3` of the inputs'. -/
theorem sound_kernel0 (c : Dev nD) (E : Set ℕ) (i : grid0.Coords)
    (arg1 : Memref sig .tc .vmem S2000x128 .f32) (harg1 : arg1.IsWhole)
    (arg2 : Memref sig .tc .vmem S128x256 .f32) (harg2 : arg2.IsWhole)
    (arg3 : Memref sig .tc .vmem S2000x1 .f32) (harg3 : arg3.IsWhole)
    (arg4 : Memref sig .tc .vmem S2000x256 .bf16) (harg4 : arg4.IsWhole)
    (x0 : Vec F S2000x128 .f32) (x1 : Vec F S128x256 .f32) (x2 : Vec F S2000x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__matmul_dinv_kernel i arg1 harg1 arg2 harg2 arg3 harg3 arg4 harg4) K := by
  simp only [cc0__matmul_dinv_kernel_eq_skeleton]; unfold cc0__matmul_dinv_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them; after the body at point `t`
    each input's buffer at its block and the output's at `out0_3` of the input blocks; the invariant is the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Rg

end
-- ==== Proof.K.R1.lean ====
import proofs.«173932_j1915555414201_2_alg».proof.Proof.Gen.Kernel.Launch
import proofs.«173932_j1915555414201_2_alg».proof.Proof.Gen.Kernel.Skeleton
import proofs.«173932_j1915555414201_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 1 of @main at a parameter: the blocks its windows hold, what the body leaves, the body's triple

The TensorCore's buffer contents when the region is entered are a parameter `V`. Every input window's
staging buffer holds that window's block of its array at each grid point; the body reads every input whole, reads
the output buffer (a value it never uses), and overwrites the whole output buffer with one payload, so what
the body leaves in the output buffer is a closed function of the input blocks. -/

-- membership in a rectangle of large extents: the elaborator's structural look recurses once per coordinate
set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place: unfetched, the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s and whose body leaves the block in place: unfetched, the block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s and whose body leaves the block in place: unfetched, the block index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is `V`'s and whose body leaves the block in place: unfetched, the block index has not moved. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof
    data whose array is `V`'s and whose body leaves the block in place: unfetched, the block index has not moved. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each reads or writes a whole buffer -/

abbrev r1_0 : Rect S2000x256 := Rect.unit (s := S2000x256) ![0, 0] S2000x256.size inb_S2000x256_S2000x256_0_0
abbrev r1_1 : Rect S2000x1 := Rect.unit (s := S2000x1) ![0, 0] S2000x1.size inb_S2000x1_S2000x1_0_0
abbrev r1_2 : Rect S1x256 := Rect.unit (s := S1x256) ![0, 0] S1x256.size inb_S1x256_S1x256_0_0
abbrev r1_3 : Rect S256x256 := Rect.unit (s := S256x256) ![0, 0] S256x256.size inb_S256x256_S256x256_0_0
abbrev r1_4 : Rect S2000x1 := Rect.unit (s := S2000x1) ![0, 0] S2000x1.size inb_S2000x1_S2000x1_0_0
abbrev r1_5 : Rect S2000x256 := Rect.unit (s := S2000x256) ![0, 0] S2000x256.size inb_S2000x256_S2000x256_0_0

/-! ## What the body leaves in the output window's buffer -/

/-- Window 5's staging buffer after the body, from the input windows' blocks: its one store, over the whole buffer. -/
def out1_5 (x0 : Vec F S2000x256 .f32) (x1 : Vec F S2000x1 .f32) (x2 : Vec F S1x256 .f32) (x3 : Vec F S256x256 .f32) (x4 : Vec F S2000x1 .f32) : Vec F S2000x256 .bf16 :=
  View.canon [⟨r1_5, k1_pay1 (View.ld x1 r1_1) (View.ld x0 r1_0) (View.ld x2 r1_2) (View.ld x3 r1_3) (View.ld x4 r1_4)⟩]

/-- The one store is the whole buffer, so it covers it. -/
theorem cover1_5 (p0 : Vec F S2000x256 .bf16) (y : S2000x256.Idx) :
    ∃ pc ∈ ([⟨r1_5, p0⟩] : List (View.Piece (Elt F) S2000x256 .bf16)), y ∈ pc.1.set :=
  View.cover_of_tiled [⟨r1_5, p0⟩] S2000x256.size (by rfl) y

/-! ## The body's triple -/

set_option maxHeartbeats 1000000 in
/-- The kernel body on whole staging memrefs, the inputs' at read contents `xW` and the output's at anything, runs to
    the continuation holding the inputs' as they were and the output's at `out1_5` of the inputs'. -/
theorem sound_kernel1 (c : Dev nD) (E : Set ℕ) (i : grid1.Coords)
    (arg1 : Memref sig .tc .vmem S2000x256 .f32) (harg1 : arg1.IsWhole)
    (arg2 : Memref sig .tc .vmem S2000x1 .f32) (harg2 : arg2.IsWhole)
    (arg3 : Memref sig .tc .vmem S1x256 .f32) (harg3 : arg3.IsWhole)
    (arg4 : Memref sig .tc .vmem S256x256 .f32) (harg4 : arg4.IsWhole)
    (arg5 : Memref sig .tc .vmem S2000x1 .f32) (harg5 : arg5.IsWhole)
    (arg6 : Memref sig .tc .vmem S2000x256 .bf16) (harg6 : arg6.IsWhole)
    (x0 : Vec F S2000x256 .f32) (x1 : Vec F S2000x1 .f32) (x2 : Vec F S1x256 .f32) (x3 : Vec F S256x256 .f32) (x4 : Vec F S2000x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__fused_relu_matmul_kernel i arg1 harg1 arg2 harg2 arg3 harg3 arg4 harg4 arg5 harg5 arg6 harg6) K := by
  simp only [cc1__fused_relu_matmul_kernel_eq_skeleton]; unfold cc1__fused_relu_matmul_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of pipeline 1 on core `c`: the arrays as the region finds them; after the body at point `t`
    each input's buffer at its block and the output's at `out1_5` of the input blocks; the invariant is the scoped
    rest and the generator register, untouched; nothing owed; the share held of each input array is a parameter. -/
def dat1 (q : Fin cfg1.W → PosShare TreeShare) (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q := q
  owed _ := 0

/-- The proof data's arrays are the region-entry contents. -/
theorem A_eq1 (q : Fin cfg1.W → PosShare TreeShare) (c : Dev nD) (w : Fin cfg1.W) : (dat1 V q c).A w = V c (Pipeline.arrRef spec1 w) := by
  dsimp only [dat1]

/-- The proof data's shares are the parameter. -/
theorem q_eq1 (q : Fin cfg1.W → PosShare TreeShare) (c : Dev nD) : (dat1 V q c).q = q := by
  dsimp only [dat1]

/-- What the body leaves, window by window. -/
theorem after1_0 (q : Fin cfg1.W → PosShare TreeShare) (c : Dev nD) (t : Fin cfg1.N) : (dat1 V q c).after 0 t = iblk1 V c 0 t := by dsimp only [dat1]
theorem after1_1 (q : Fin cfg1.W → PosShare TreeShare) (c : Dev nD) (t : Fin cfg1.N) : (dat1 V q c).after 1 t = iblk1 V c 1 t := by dsimp only [dat1]
theorem after1_2 (q : Fin cfg1.W → PosShare TreeShare) (c : Dev nD) (t : Fin cfg1.N) : (dat1 V q c).after 2 t = iblk1 V c 2 t := by dsimp only [dat1]
theorem after1_3 (q : Fin cfg1.W → PosShare TreeShare) (c : Dev nD) (t : Fin cfg1.N) : (dat1 V q c).after 3 t = iblk1 V c 3 t := by dsimp only [dat1]
theorem after1_4 (q : Fin cfg1.W → PosShare TreeShare) (c : Dev nD) (t : Fin cfg1.N) : (dat1 V q c).after 4 t = iblk1 V c 4 t := by dsimp only [dat1]
theorem after1_5 (q : Fin cfg1.W → PosShare TreeShare) (c : Dev nD) (t : Fin cfg1.N) : (dat1 V q c).after 5 t = out1_5 (iblk1 V c 0 t) (iblk1 V c 1 t) (iblk1 V c 2 t) (iblk1 V c 3 t) (iblk1 V c 4 t) := by dsimp only [dat1]

/-- Each input's current staging buffer holds its block at every point, fetched there or not. -/
theorem before1_0 (q : Fin cfg1.W → PosShare TreeShare) (c : Dev nD) (t : Fin cfg1.N) (d) : (dat1 V q c).before 0 t d = iblk1 V c 0 t :=
  before1_0_of V (dat1 V q c) (A_eq1 V q c 0) (after1_0 V q c) t d
theorem before1_1 (q : Fin cfg1.W → PosShare TreeShare) (c : Dev nD) (t : Fin cfg1.N) (d) : (dat1 V q c).before 1 t d = iblk1 V c 1 t :=
  before1_1_of V (dat1 V q c) (A_eq1 V q c 1) (after1_1 V q c) t d
theorem before1_2 (q : Fin cfg1.W → PosShare TreeShare) (c : Dev nD) (t : Fin cfg1.N) (d) : (dat1 V q c).before 2 t d = iblk1 V c 2 t :=
  before1_2_of V (dat1 V q c) (A_eq1 V q c 2) (after1_2 V q c) t d
theorem before1_3 (q : Fin cfg1.W → PosShare TreeShare) (c : Dev nD) (t : Fin cfg1.N) (d) : (dat1 V q c).before 3 t d = iblk1 V c 3 t :=
  before1_3_of V (dat1 V q c) (A_eq1 V q c 3) (after1_3 V q c) t d
theorem before1_4 (q : Fin cfg1.W → PosShare TreeShare) (c : Dev nD) (t : Fin cfg1.N) (d) : (dat1 V q c).before 4 t d = iblk1 V c 4 t :=
  before1_4_of V (dat1 V q c) (A_eq1 V q c 4) (after1_4 V q c) t d

/-! ## The body obligation, at a generic point -/

/-- What the body is called with at point `t`, the windows one by one, -/
def bodyPre1 (q : Fin cfg1.W → PosShare TreeShare) (c : Dev nD) (t : Fin cfg1.N) : sProp 𝕄 :=
  iprop((dat1 V q c).Φ t.castSucc ∗ (dat1 V q c).owesAt () t.castSucc
    ∗ (∃ d, owns (c : Thread nD τ) (st1_0 t) fullShare ((dat1 V q c).before 0 t d))
    ∗ (∃ d, owns (c : Thread nD τ) (st1_1 t) fullShare ((dat1 V q c).before 1 t d))
    ∗ (∃ d, owns (c : Thread nD τ) (st1_2 t) fullShare ((dat1 V q c).before 2 t d))
    ∗ (∃ d, owns (c : Thread nD τ) (st1_3 t) fullShare ((dat1 V q c).before 3 t d))
    ∗ (∃ d, owns (c : Thread nD τ) (st1_4 t) fullShare ((dat1 V q c).before 4 t d))
    ∗ (∃ d, owns (c : Thread nD τ) (st1_5 t) fullShare ((dat1 V q c).before 5 t d)))

/-- and what it returns. -/
def bodyPost1 (q : Fin cfg1.W → PosShare TreeShare) (c : Dev nD) (t : Fin cfg1.N) : sProp 𝕄 :=
  iprop((dat1 V q c).Φ t.succ ∗ (dat1 V q c).owesAt () t.succ
    ∗ owns (c : Thread nD τ) (st1_0 t) fullShare ((dat1 V q c).after 0 t)
    ∗ owns (c : Thread nD τ) (st1_1 t) fullShare ((dat1 V q c).after 1 t)
    ∗ owns (c : Thread nD τ) (st1_2 t) fullShare ((dat1 V q c).after 2 t)
    ∗ owns (c : Thread nD τ) (st1_3 t) fullShare ((dat1 V q c).after 3 t)
    ∗ owns (c : Thread nD τ) (st1_4 t) fullShare ((dat1 V q c).after 4 t)
    ∗ owns (c : Thread nD τ) (st1_5 t) fullShare ((dat1 V q c).after 5 t))

/-- The body at any point: the inputs' memrefs hold their blocks, so the body's triple applies; the invariant and
    the core's `owes` pass through unread. -/
theorem sound_body1 (q : Fin cfg1.W → PosShare TreeShare) (c : Dev nD) (t : Fin cfg1.N) :
    bodyPre1 V q c t ⊢ wp frame (wpE (defs₀ (F := F)) Variants.none c none) Set.univ (bodyAt1 t) (fun _ => bodyPost1 V q c t) := by
  unfold bodyPre1 bodyPost1 bodyAt1
  simp only [before1_0, before1_1, before1_2, before1_3, before1_4]
  rw [show (dat1 V q c).Φ t.succ = (dat1 V q c).Φ t.castSucc from rfl,
    show (dat1 V q c).owesAt () t.succ = (dat1 V q c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (q : Fin cfg1.W → PosShare TreeShare) (c : Dev nD) : BodyObligation (dat1 (F := F) V q c) (defs₀ (F := F)) Variants.none () Set.univ := fun t => by
  rw [bigSep_W1, bigSep_W1]
  exact sound_body1 V q c t

end Cert.Kernel.Rg

end
-- ==== Proof.K.R2.lean ====
import proofs.«173932_j1915555414201_2_alg».proof.Proof.Gen.Kernel.Launch
import proofs.«173932_j1915555414201_2_alg».proof.Proof.Gen.Kernel.Skeleton
import proofs.«173932_j1915555414201_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 2 of @main at a parameter: the blocks its windows hold, what the body leaves, the body's triple

The TensorCore's buffer contents when the region is entered are a parameter `V`. Every input window's
staging buffer holds that window's block of its array at each grid point; the body reads every input whole, reads
the output buffer (a value it never uses), and overwrites the whole output buffer with one payload, so what
the body leaves in the output buffer is a closed function of the input blocks. -/

-- membership in a rectangle of large extents: the elaborator's structural look recurses once per coordinate
set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s and whose body leaves the block in place: unfetched, the block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof
    data whose array is `V`'s and whose body leaves the block in place: unfetched, the block index has not moved. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof
    data whose array is `V`'s and whose body leaves the block in place: unfetched, the block index has not moved. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each reads or writes a whole buffer -/

abbrev r2_0 : Rect S2000x256 := Rect.unit (s := S2000x256) ![0, 0] S2000x256.size inb_S2000x256_S2000x256_0_0
abbrev r2_1 : Rect S2000x1 := Rect.unit (s := S2000x1) ![0, 0] S2000x1.size inb_S2000x1_S2000x1_0_0
abbrev r2_2 : Rect S1x256 := Rect.unit (s := S1x256) ![0, 0] S1x256.size inb_S1x256_S1x256_0_0
abbrev r2_3 : Rect S2000x256 := Rect.unit (s := S2000x256) ![0, 0] S2000x256.size inb_S2000x256_S2000x256_0_0

/-! ## What the body leaves in the output window's buffer -/

/-- Window 3's staging buffer after the body, from the input windows' blocks: its one store, over the whole buffer. -/
def out2_3 (x0 : Vec F S2000x256 .f32) (x1 : Vec F S2000x1 .f32) (x2 : Vec F S1x256 .f32) : Vec F S2000x256 .f32 :=
  View.canon [⟨r2_3, k2_pay1 (View.ld x1 r2_1) (View.ld x0 r2_0) (View.ld x2 r2_2)⟩]

/-- The one store is the whole buffer, so it covers it. -/
theorem cover2_3 (p0 : Vec F S2000x256 .f32) (y : S2000x256.Idx) :
    ∃ pc ∈ ([⟨r2_3, p0⟩] : List (View.Piece (Elt F) S2000x256 .f32)), y ∈ pc.1.set :=
  View.cover_of_tiled [⟨r2_3, p0⟩] S2000x256.size (by rfl) y

/-! ## The body's triple -/

set_option maxHeartbeats 1000000 in
/-- The kernel body on whole staging memrefs, the inputs' at read contents `xW` and the output's at anything, runs to
    the continuation holding the inputs' as they were and the output's at `out2_3` of the inputs'. -/
theorem sound_kernel2 (c : Dev nD) (E : Set ℕ) (i : grid2.Coords)
    (arg1 : Memref sig .tc .vmem S2000x256 .f32) (harg1 : arg1.IsWhole) (arg2 : Memref sig .tc .vmem S2000x1 .f32) (harg2 : arg2.IsWhole)
    (arg3 : Memref sig .tc .vmem S1x256 .f32) (harg3 : arg3.IsWhole) (arg4 : Memref sig .tc .vmem S2000x256 .f32) (harg4 : arg4.IsWhole)
    (x0 : Vec F S2000x256 .f32) (x1 : Vec F S2000x1 .f32) (x2 : Vec F S1x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__bias_relu_dinv_kernel i arg1 harg1 arg2 harg2 arg3 harg3 arg4 harg4) K := by
  simp only [cc2__bias_relu_dinv_kernel_eq_skeleton]; unfold cc2__bias_relu_dinv_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of pipeline 2 on core `c`: the arrays as the region finds them; after the body at point `t`
    each input's buffer at its block and the output's at `out2_3` of the input blocks; the invariant is the scoped
    rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so the body's triple applies; the invariant and
    the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Rg

end
-- ==== Proof.K.Share.lean ====
/- Region 1 of @main (custom_call 1) reads ONE array, main_v15, through TWO input windows (1 and 4). Its six windows'
   arrays are therefore five distinct buffers, and the pipeline's arrays — a conjunction over the six windows, each at
   its share — hold that buffer twice, at the two halves of the full share. This module states the shares (q1) and
   proves the two entailments a region's entry and exit need over a thread state that tracks every unscoped buffer:
   at ENTRY the unscoped buffers split into the pipeline's arrays at the entry contents and the unscoped rest (the
   shared buffer's full share split into its halves, both windows reading the one contents); at EXIT the arrays at
   what the pipeline leaves and the rest join back into the unscoped buffers (the two halves, at the same contents
   again since neither input window is written, joining into the full share). -/
import proofs.«173932_j1915555414201_2_alg».proof.Proof.Gen.Kernel.Launch
import Idealize.ShloMosaic.Lib.Pipeline.RegionsLoop
import Idealize.ShloMosaic.Lib.Tactic

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)

variable {F : FTy → Type} [FloatOps F]

local notation "𝕄" => MT nD τ sig Unit (Elt F) ℕ (UR sig nD τ) ℕ

/-- The shares region 1's proof data hold of its windows' arrays: windows 1 and 4 read ONE array, each at one half
    of the full share; every other window holds its own array whole. -/
def q1 : Fin 6 → PosShare TreeShare
  | ⟨0, _⟩ => fullShare
  | ⟨1, _⟩ => fullShare.left
  | ⟨2, _⟩ => fullShare
  | ⟨3, _⟩ => fullShare
  | ⟨4, _⟩ => fullShare.right
  | ⟨5, _⟩ => fullShare

/-- The six windows' arrays are FIVE distinct buffers: windows 1 and 4 read the same one. -/
theorem img1 : Finset.univ.image (Pipeline.arrRef spec1) = ({main_v27, main_v15, main_v28, main_arg4, main_v29} : Finset (Ref sig .tc)) := by decide

/-- With the shares `q1` every window's share is `q1`'s: the output window's (window 5) is the full share either way. -/
theorem share1 (c : Dev nD) (dat : Dat τ (Elt F) Unit ℕ (UR sig nD τ) ℕ cfg1 c) (hq : dat.q = q1) : ∀ w, dat.share w = q1 w := by
  intro w; unfold Dat.share; rw [hq]
  fin_cases w <;> rfl

/-- The pipeline's arrays, every one a whole buffer, each held at its window's share. -/
theorem arrays_eq1 (c : Dev nD) (dat : Dat τ (Elt F) Unit ℕ (UR sig nD τ) ℕ cfg1 c) (hq : dat.q = q1)
    (G : (w : Fin cfg1.W) → Buf (Elt F) ((cfg1.win w).arr.view.loc (c : Thread nD τ))) :
    (dat.arrays G : sProp 𝕄) = bigSep Finset.univ fun w : Fin 6 => (((c : Thread nD τ).loc (Pipeline.arrRef spec1 w)) ↦{q1 w} G w : sProp 𝕄) := by
  unfold Dat.arrays
  exact bigSep_congr fun w _ => by rw [(arr_whole1 w).set_eq_univ, share1 c dat hq w]

/-- A core's unscoped buffers are the five buffers behind region 1's windows and the rest. -/
theorem split1 (c : Dev nD) (V : (b : Ref sig .tc) → Buf (Elt F) ((c : Thread nD τ).loc b)) :
    (unscopedBufs c V : sProp 𝕄) = iprop(Pipeline.arrBufs spec1 c V ∗ Pipeline.unscopedRest spec1 c V) :=
  Pipeline.unscopedBufs_split₀ cfgs 1 winFacts₀1.arr_unscoped c V

/-- The five buffers conjoined one by one. -/
theorem arrBufs_eq1 (c : Dev nD) (V : (b : Ref sig .tc) → Buf (Elt F) ((c : Thread nD τ).loc b)) :
    (Pipeline.arrBufs spec1 c V : sProp 𝕄)
      = iprop((((c : Thread nD τ).loc main_v27) ↦{fullShare} V main_v27) ∗ (((c : Thread nD τ).loc main_v15) ↦{fullShare} V main_v15)
          ∗ (((c : Thread nD τ).loc main_v28) ↦{fullShare} V main_v28) ∗ (((c : Thread nD τ).loc main_arg4) ↦{fullShare} V main_arg4)
          ∗ (((c : Thread nD τ).loc main_v29) ↦{fullShare} V main_v29)) := by
  unfold Pipeline.arrBufs
  rw [img1, bigSep_insert (by decide), bigSep_insert (by decide), bigSep_insert (by decide), bigSep_insert (by decide), bigSep_singleton]
  rfl

/-- The five buffers, each whole at the full share at contents `V`, are the six windows' arrays at their shares at the
    same contents: the buffer two windows read splits into its two halves (and the halves join), both windows
    reading the one contents. -/
theorem arrBufs_share1 (c : Dev nD) (V : (b : Ref sig .tc) → Buf (Elt F) ((c : Thread nD τ).loc b)) :
    (Pipeline.arrBufs spec1 c V : sProp 𝕄)
      ⊣⊢ bigSep Finset.univ fun w : Fin 6 => (((c : Thread nD τ).loc (Pipeline.arrRef spec1 w)) ↦{q1 w} V (Pipeline.arrRef spec1 w) : sProp 𝕄) := by
  rw [arrBufs_eq1, bigSep_W1]
  have h15 : (((c : Thread nD τ).loc main_v15) ↦{fullShare} V main_v15 : sProp 𝕄)
      ⊣⊢ iprop((((c : Thread nD τ).loc main_v15) ↦{fullShare.left} V main_v15) ∗ ((c : Thread nD τ).loc main_v15) ↦{fullShare.right} V main_v15) :=
    pointsTo_share (PosShare.mem_left_op_right fullShare)
  constructor
  · iintro ⟨H0, H15, H2, H3, H5⟩
    ihave H := h15.1 $$ H15
    icases H with ⟨Hl, Hr⟩
    isplitl [H0]; · iexact H0
    isplitl [Hl]; · iexact Hl
    isplitl [H2]; · iexact H2
    isplitl [H3]; · iexact H3
    isplitl [Hr]; · iexact Hr
    iexact H5
  · iintro ⟨H0, Hl, H2, H3, Hr, H5⟩
    isplitl [H0]; · iexact H0
    isplitl [Hl Hr]
    · iapply h15.2; isplitl [Hl]; · iexact Hl
      iexact Hr
    isplitl [H2]; · iexact H2
    isplitl [H3]; · iexact H3
    iexact H5

/-- ENTRY of region 1, the arrays' part: a core's unscoped buffers at contents `V` are the pipeline's arrays at the
    proof data's entry contents — those read off `V` (`hA`), each window at its share — and the unscoped rest. -/
theorem entry1 (c : Dev nD) (dat : Dat τ (Elt F) Unit ℕ (UR sig nD τ) ℕ cfg1 c) (hq : dat.q = q1)
    (V : (b : Ref sig .tc) → Buf (Elt F) ((c : Thread nD τ).loc b))
    (hA : ∀ w, dat.A w = V (Pipeline.arrRef spec1 w)) :
    (unscopedBufs c V : sProp 𝕄) ⊢ iprop(dat.arrays (dat.arrAt · 0) ∗ Pipeline.unscopedRest spec1 c V) := by
  rw [split1 c V, arrays_eq1 c dat hq]
  refine sep_mono ((arrBufs_share1 c V).1.trans (Entails.of_eq (bigSep_congr fun w _ => ?_))) .rfl
  rw [show dat.arrAt w 0 = dat.A w from rfl, hA]

/-- EXIT of region 1, the arrays' part: the pipeline's arrays at what it leaves and the unscoped rest at `V` are the
    core's unscoped buffers at any valuation `V'` that has every window's array at what the pipeline leaves (`hF`; the
    two windows on one array leave the same contents, being both `V'` at that buffer) and agrees with `V` off the arrays. -/
theorem exit1 (c : Dev nD) (dat : Dat τ (Elt F) Unit ℕ (UR sig nD τ) ℕ cfg1 c) (hq : dat.q = q1)
    (V V' : (b : Ref sig .tc) → Buf (Elt F) ((c : Thread nD τ).loc b))
    (hF : ∀ w, dat.arrAt w cfg1.N = V' (Pipeline.arrRef spec1 w))
    (hrest : ∀ b, b ∉ Finset.univ.image (Pipeline.arrRef spec1) → V' b = V b) :
    iprop(dat.arrays (dat.arrAt · cfg1.N) ∗ Pipeline.unscopedRest spec1 c V) ⊢ (unscopedBufs c V' : sProp 𝕄) := by
  rw [split1 c V', arrays_eq1 c dat hq]
  refine sep_mono ((Entails.of_eq (bigSep_congr fun w _ => ?_)).trans (arrBufs_share1 c V').2) (Entails.of_eq ?_)
  · rw [hF]
  · unfold Pipeline.unscopedRest
    exact bigSep_congr fun b hb => by rw [hrest b (Finset.mem_sdiff.mp hb).2]

end Cert.Kernel.Rg
-- ==== Proof.K.Run.lean ====
/-
  The run of the three-kernel program, at any value family: the buffer contents at every boundary of @main as a fold
  from the launch memory (a host stretch applies its operations; a kernel leaves its output array at what its
  write-backs fold to and every other buffer as entered), each kernel a segment between two such contents, and the
  launch over the segments. The second kernel reads one array (the column of inverse square roots of the degrees)
  through two input windows; the two windows hold the two halves of that array's share, so its entry and exit are
  the share-splitting lemmas of Share.lean rather than the ones for distinct arrays.
-/
import proofs.«173932_j1915555414201_2_alg».proof.Proof.K.R0
import proofs.«173932_j1915555414201_2_alg».proof.Proof.K.R1
import proofs.«173932_j1915555414201_2_alg».proof.Proof.K.R2
import proofs.«173932_j1915555414201_2_alg».proof.Proof.K.Share
import proofs.«173932_j1915555414201_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The second kernel's proof data hold the shares they are given. -/
theorem dat1_q (V : (c : Dev nD) → (b : Ref sig .tc) → Buf (Elt F) ((c : Thread nD τ).loc b)) (q : Fin cfg1.W → PosShare TreeShare) (c : Dev nD) : (dat1 V q c).q = q := by dsimp only [dat1]

variable (m : (ℓ : Loc nD τ sig) → Buf (Elt F) ℓ) (ρ : Dev nD → PrngReg)

/-! # The run: the buffer contents at each boundary of @main, a fold from the launch memory -/

/-- Core `c`'s buffers at launch. -/
abbrev W0 : Dev nD → Valuation τ sig (Elt F) := fun c b => (s₀ m ρ).mem ((c : Dev nD), b)
/-- After the index and degree arithmetic (edge lists with self loops, degrees, their inverse square roots). -/
abbrev W1 : Dev nD → Valuation τ sig (Elt F) := fun c => StableHlo.after hostOps0 (W0 m ρ c)
abbrev W2 : Dev nD → Valuation τ sig (Elt F) := fun c => StableHlo.after hostOps0_1 (W1 m ρ c)
/-- The first kernel's entry: the inverse square roots laid out as a column. -/
abbrev W3 : Dev nD → Valuation τ sig (Elt F) := fun c => StableHlo.after hostOps0_2 (W2 m ρ c)
abbrev V3 : (c : Dev nD) → (b : Ref sig .tc) → Buf (Elt F) ((c : Thread nD τ).loc b) := fun c b => W3 m ρ c b
/-- At the first kernel's exit: its arrays at what the write-backs leave, every other buffer as entered. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
abbrev V4 : (c : Dev nD) → (b : Ref sig .tc) → Buf (Elt F) ((c : Thread nD τ).loc b) := fun c b => W4 m ρ c b
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)

/-- After the first gather and scatter-add (the second kernel's entry). -/
abbrev W5 : Dev nD → Valuation τ sig (Elt F) := fun c => StableHlo.after hostOps1 (W4 m ρ c)
abbrev V5 : (c : Dev nD) → (b : Ref sig .tc) → Buf (Elt F) ((c : Thread nD τ).loc b) := fun c b => W5 m ρ c b
/-- At the second kernel's exit. Two of its input windows read one array, so the exit contents are stated by
    updating the one array it writes: the inputs are as entered. -/
def W6 (c : Dev nD) : Valuation τ sig (Elt F) :=
  Function.update (W5 m ρ c) (Proc.devRef .tc main_v29) ((dat1 (V5 m ρ) q1 c).arrAt 5 cfg1.N)
theorem W6_out (c : Dev nD) : W6 m ρ c (Proc.devRef .tc main_v29) = (dat1 (V5 m ρ) q1 c).arrAt 5 cfg1.N := by
  unfold W6; exact Function.update_self _ _ _
theorem W6_of_ne (c : Dev nD) (b : Ref sig .tc) (hb : b ≠ main_v29) :
    W6 m ρ c (Proc.devRef .tc b) = W5 m ρ c (Proc.devRef .tc b) := by
  unfold W6; exact Function.update_of_ne (StableHlo.devRef_ne_of_ne hb) _ _
abbrev V6 : (c : Dev nD) → (b : Ref sig .tc) → Buf (Elt F) ((c : Thread nD τ).loc b) := fun c b => W6 m ρ c b
theorem hF1 (c : Dev nD) : ∀ w : Fin cfg1.W, (dat1 (V5 m ρ) q1 c).arrAt w cfg1.N = V6 m ρ c (Pipeline.arrRef spec1 w)
  | ⟨0, _⟩ => (((dat1 (V5 m ρ) q1 c).arrAt_in 0 rfl _).trans (A_eq1 (V5 m ρ) q1 c 0)).trans (W6_of_ne m ρ c _ (by decide)).symm
  | ⟨1, _⟩ => (((dat1 (V5 m ρ) q1 c).arrAt_in 1 rfl _).trans (A_eq1 (V5 m ρ) q1 c 1)).trans (W6_of_ne m ρ c _ (by decide)).symm
  | ⟨2, _⟩ => (((dat1 (V5 m ρ) q1 c).arrAt_in 2 rfl _).trans (A_eq1 (V5 m ρ) q1 c 2)).trans (W6_of_ne m ρ c _ (by decide)).symm
  | ⟨3, _⟩ => (((dat1 (V5 m ρ) q1 c).arrAt_in 3 rfl _).trans (A_eq1 (V5 m ρ) q1 c 3)).trans (W6_of_ne m ρ c _ (by decide)).symm
  | ⟨4, _⟩ => (((dat1 (V5 m ρ) q1 c).arrAt_in 4 rfl _).trans (A_eq1 (V5 m ρ) q1 c 4)).trans (W6_of_ne m ρ c _ (by decide)).symm
  | ⟨5, _⟩ => (W6_out m ρ c).symm
theorem hrest1 (c : Dev nD) : ∀ b, b ∉ Finset.univ.image (Pipeline.arrRef spec1) → V6 m ρ c b = V5 m ρ c b :=
  fun b hb => W6_of_ne m ρ c b fun e => hb (Finset.mem_image.mpr ⟨5, Finset.mem_univ _, e.symm⟩)

/-- After the second gather and scatter-add (the third kernel's entry). -/
abbrev W7 : Dev nD → Valuation τ sig (Elt F) := fun c => StableHlo.after hostOps2 (W6 m ρ c)
abbrev V7 : (c : Dev nD) → (b : Ref sig .tc) → Buf (Elt F) ((c : Thread nD τ).loc b) := fun c b => W7 m ρ c b
def W8 (c : Dev nD) : Valuation τ sig (Elt F) :=
  Pipeline.withArrays spec2 c (W7 m ρ c) fun w => (dat2 (V7 m ρ) c).arrAt w cfg2.N
theorem W8_arr (c : Dev nD) (w : Fin cfg2.W) :
    W8 m ρ c (Proc.devRef .tc (Pipeline.arrRef spec2 w)) = (dat2 (V7 m ρ) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb
abbrev V8 : (c : Dev nD) → (b : Ref sig .tc) → Buf (Elt F) ((c : Thread nD τ).loc b) := fun c b => W8 m ρ c b
theorem hF2 (c : Dev nD) (w : Fin cfg2.W) : (dat2 (V7 m ρ) c).arrAt w cfg2.N = V8 m ρ c (Pipeline.arrRef spec2 w) :=
  (W8_arr m ρ c w).symm
theorem hrest2 (c : Dev nD) : ∀ b, b ∉ Finset.univ.image (Pipeline.arrRef spec2) → V8 m ρ c b = V7 m ρ c b :=
  fun b hb => W8_of_ne m ρ c b fun w e => hb (Finset.mem_image.mpr ⟨w, Finset.mem_univ _, e⟩)

/-! ### The arguments end as launched: no host operation writes one, a kernel reads it through an input window or
    leaves it alone -/

/-- The first kernel leaves every buffer but its output as entered: its three input arrays through their windows,
    the rest untouched. -/
theorem W4_of_ne' (c : Dev nD) (b : Ref sig .tc) (hb : b ≠ main_v16 := by decide) :
    W4 m ρ c (Proc.devRef .tc b) = W3 m ρ c (Proc.devRef .tc b) := by
  by_cases h : ∃ w, Pipeline.arrRef spec0 w = b
  · obtain ⟨w, rfl⟩ := h
    match w with
    | ⟨0, _⟩ => exact (W4_arr m ρ c 0).trans (((dat0 (V3 m ρ) c).arrAt_in 0 rfl _).trans (A_eq0 (V3 m ρ) c 0))
    | ⟨1, _⟩ => exact (W4_arr m ρ c 1).trans (((dat0 (V3 m ρ) c).arrAt_in 1 rfl _).trans (A_eq0 (V3 m ρ) c 1))
    | ⟨2, _⟩ => exact (W4_arr m ρ c 2).trans (((dat0 (V3 m ρ) c).arrAt_in 2 rfl _).trans (A_eq0 (V3 m ρ) c 2))
    | ⟨3, _⟩ => exact absurd rfl hb
  · exact W4_of_ne m ρ c b fun w e => h ⟨w, e⟩
theorem W8_main_arg0 (c : Dev nD) : W8 m ρ c (Proc.devRef .tc main_arg0) = m ((c : Thread nD τ).loc main_arg0) :=
  calc W8 m ρ c (Proc.devRef .tc main_arg0)
    _ = W7 m ρ c (Proc.devRef .tc main_arg0) := W8_of_ne m ρ c main_arg0 (by decide)
    _ = W6 m ρ c (Proc.devRef .tc main_arg0) := StableHlo.after_of_writes_sub hostOps2 _ hostOps2_writes (by decide)
    _ = W5 m ρ c (Proc.devRef .tc main_arg0) := W6_of_ne m ρ c main_arg0 (by decide)
    _ = W4 m ρ c (Proc.devRef .tc main_arg0) := StableHlo.after_of_writes_sub hostOps1 _ hostOps1_writes (by decide)
    _ = W3 m ρ c (Proc.devRef .tc main_arg0) := W4_of_ne' m ρ c main_arg0
    _ = W2 m ρ c (Proc.devRef .tc main_arg0) := StableHlo.after_of_writes_sub hostOps0_2 _ hostOps0_2_writes (by decide)
    _ = W1 m ρ c (Proc.devRef .tc main_arg0) := StableHlo.after_of_writes_sub hostOps0_1 _ hostOps0_1_writes (by decide)
    _ = W0 m ρ c (Proc.devRef .tc main_arg0) := StableHlo.after_of_writes_sub hostOps0 _ hostOps0_writes (by decide)
    _ = m ((c : Thread nD τ).loc main_arg0) := rfl

theorem W8_main_arg1 (c : Dev nD) : W8 m ρ c (Proc.devRef .tc main_arg1) = m ((c : Thread nD τ).loc main_arg1) :=
  calc W8 m ρ c (Proc.devRef .tc main_arg1)
    _ = W7 m ρ c (Proc.devRef .tc main_arg1) := W8_of_ne m ρ c main_arg1 (by decide)
    _ = W6 m ρ c (Proc.devRef .tc main_arg1) := StableHlo.after_of_writes_sub hostOps2 _ hostOps2_writes (by decide)
    _ = W5 m ρ c (Proc.devRef .tc main_arg1) := W6_of_ne m ρ c main_arg1 (by decide)
    _ = W4 m ρ c (Proc.devRef .tc main_arg1) := StableHlo.after_of_writes_sub hostOps1 _ hostOps1_writes (by decide)
    _ = W3 m ρ c (Proc.devRef .tc main_arg1) := W4_of_ne' m ρ c main_arg1
    _ = W2 m ρ c (Proc.devRef .tc main_arg1) := StableHlo.after_of_writes_sub hostOps0_2 _ hostOps0_2_writes (by decide)
    _ = W1 m ρ c (Proc.devRef .tc main_arg1) := StableHlo.after_of_writes_sub hostOps0_1 _ hostOps0_1_writes (by decide)
    _ = W0 m ρ c (Proc.devRef .tc main_arg1) := StableHlo.after_of_writes_sub hostOps0 _ hostOps0_writes (by decide)
    _ = m ((c : Thread nD τ).loc main_arg1) := rfl

theorem W8_main_arg2 (c : Dev nD) : W8 m ρ c (Proc.devRef .tc main_arg2) = m ((c : Thread nD τ).loc main_arg2) :=
  calc W8 m ρ c (Proc.devRef .tc main_arg2)
    _ = W7 m ρ c (Proc.devRef .tc main_arg2) := W8_of_ne m ρ c main_arg2 (by decide)
    _ = W6 m ρ c (Proc.devRef .tc main_arg2) := StableHlo.after_of_writes_sub hostOps2 _ hostOps2_writes (by decide)
    _ = W5 m ρ c (Proc.devRef .tc main_arg2) := W6_of_ne m ρ c main_arg2 (by decide)
    _ = W4 m ρ c (Proc.devRef .tc main_arg2) := StableHlo.after_of_writes_sub hostOps1 _ hostOps1_writes (by decide)
    _ = W3 m ρ c (Proc.devRef .tc main_arg2) := W4_of_ne' m ρ c main_arg2
    _ = W2 m ρ c (Proc.devRef .tc main_arg2) := StableHlo.after_of_writes_sub hostOps0_2 _ hostOps0_2_writes (by decide)
    _ = W1 m ρ c (Proc.devRef .tc main_arg2) := StableHlo.after_of_writes_sub hostOps0_1 _ hostOps0_1_writes (by decide)
    _ = W0 m ρ c (Proc.devRef .tc main_arg2) := StableHlo.after_of_writes_sub hostOps0 _ hostOps0_writes (by decide)
    _ = m ((c : Thread nD τ).loc main_arg2) := rfl

theorem W8_main_arg3 (c : Dev nD) : W8 m ρ c (Proc.devRef .tc main_arg3) = m ((c : Thread nD τ).loc main_arg3) :=
  calc W8 m ρ c (Proc.devRef .tc main_arg3)
    _ = W7 m ρ c (Proc.devRef .tc main_arg3) := W8_of_ne m ρ c main_arg3 (by decide)
    _ = W6 m ρ c (Proc.devRef .tc main_arg3) := StableHlo.after_of_writes_sub hostOps2 _ hostOps2_writes (by decide)
    _ = W5 m ρ c (Proc.devRef .tc main_arg3) := W6_of_ne m ρ c main_arg3 (by decide)
    _ = W4 m ρ c (Proc.devRef .tc main_arg3) := StableHlo.after_of_writes_sub hostOps1 _ hostOps1_writes (by decide)
    _ = W3 m ρ c (Proc.devRef .tc main_arg3) := W4_of_ne' m ρ c main_arg3
    _ = W2 m ρ c (Proc.devRef .tc main_arg3) := StableHlo.after_of_writes_sub hostOps0_2 _ hostOps0_2_writes (by decide)
    _ = W1 m ρ c (Proc.devRef .tc main_arg3) := StableHlo.after_of_writes_sub hostOps0_1 _ hostOps0_1_writes (by decide)
    _ = W0 m ρ c (Proc.devRef .tc main_arg3) := StableHlo.after_of_writes_sub hostOps0 _ hostOps0_writes (by decide)
    _ = m ((c : Thread nD τ).loc main_arg3) := rfl

theorem W8_main_arg4 (c : Dev nD) : W8 m ρ c (Proc.devRef .tc main_arg4) = m ((c : Thread nD τ).loc main_arg4) :=
  calc W8 m ρ c (Proc.devRef .tc main_arg4)
    _ = W7 m ρ c (Proc.devRef .tc main_arg4) := W8_of_ne m ρ c main_arg4 (by decide)
    _ = W6 m ρ c (Proc.devRef .tc main_arg4) := StableHlo.after_of_writes_sub hostOps2 _ hostOps2_writes (by decide)
    _ = W5 m ρ c (Proc.devRef .tc main_arg4) := W6_of_ne m ρ c main_arg4 (by decide)
    _ = W4 m ρ c (Proc.devRef .tc main_arg4) := StableHlo.after_of_writes_sub hostOps1 _ hostOps1_writes (by decide)
    _ = W3 m ρ c (Proc.devRef .tc main_arg4) := W4_of_ne' m ρ c main_arg4
    _ = W2 m ρ c (Proc.devRef .tc main_arg4) := StableHlo.after_of_writes_sub hostOps0_2 _ hostOps0_2_writes (by decide)
    _ = W1 m ρ c (Proc.devRef .tc main_arg4) := StableHlo.after_of_writes_sub hostOps0_1 _ hostOps0_1_writes (by decide)
    _ = W0 m ρ c (Proc.devRef .tc main_arg4) := StableHlo.after_of_writes_sub hostOps0 _ hostOps0_writes (by decide)
    _ = m ((c : Thread nD τ).loc main_arg4) := rfl

theorem W8_main_arg5 (c : Dev nD) : W8 m ρ c (Proc.devRef .tc main_arg5) = m ((c : Thread nD τ).loc main_arg5) :=
  calc W8 m ρ c (Proc.devRef .tc main_arg5)
    _ = W7 m ρ c (Proc.devRef .tc main_arg5) := W8_of_ne m ρ c main_arg5 (by decide)
    _ = W6 m ρ c (Proc.devRef .tc main_arg5) := StableHlo.after_of_writes_sub hostOps2 _ hostOps2_writes (by decide)
    _ = W5 m ρ c (Proc.devRef .tc main_arg5) := W6_of_ne m ρ c main_arg5 (by decide)
    _ = W4 m ρ c (Proc.devRef .tc main_arg5) := StableHlo.after_of_writes_sub hostOps1 _ hostOps1_writes (by decide)
    _ = W3 m ρ c (Proc.devRef .tc main_arg5) := W4_of_ne' m ρ c main_arg5
    _ = W2 m ρ c (Proc.devRef .tc main_arg5) := StableHlo.after_of_writes_sub hostOps0_2 _ hostOps0_2_writes (by decide)
    _ = W1 m ρ c (Proc.devRef .tc main_arg5) := StableHlo.after_of_writes_sub hostOps0_1 _ hostOps0_1_writes (by decide)
    _ = W0 m ρ c (Proc.devRef .tc main_arg5) := StableHlo.after_of_writes_sub hostOps0 _ hostOps0_writes (by decide)
    _ = m ((c : Thread nD τ).loc main_arg5) := rfl

/-! ## The proof data family and the thread state -/

/-- Every kernel's proof data, each at its own entry contents: a literal match on the kernel's number. -/
def pdats : (p : Fin 3) → (c : Dev nD) → Dat τ (Elt F) Unit ℕ (UR sig nD τ) ℕ (Pipeline.pin (pcfgs (F := F)) Gen.adm p) c
  | ⟨0, _⟩ => fun c => dat0 (V3 m ρ) c
  | ⟨1, _⟩ => fun c => dat1 (V5 m ρ) q1 c
  | ⟨2, _⟩ => fun c => dat2 (V7 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A stretch of host operations as a segment over every unscoped buffer, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state but for what is owed: every unscoped buffer at the last contents. -/
abbrev Tₙ (c : Dev nD) : sProp 𝕄 := iprop(StableHlo.held (c : Thread nD τ) (Pipeline.ucRefs τ sig) (W8 m ρ c) ∗ ∃ r, prngReg c r)

/-! ## The three kernels as segments -/

set_option backward.isDefEq.respectTransparency.types false in
def reg0 : Pipeline.RegionSeg (pcfgs (F := F)) Gen.adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) Gen.adm (pdats m ρ) launch0.win launch0.arr_whole c
      ((pdats m ρ 0 c).share_full fun _ => rfl) (V3 m ρ c) (A_eq0 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) Gen.adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V5 m ρ) q1 c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := entry1 c (pdats m ρ 1 c) (dat1_q (V5 m ρ) q1 c) (V5 m ρ c) (A_eq1 (V5 m ρ) q1 c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := exit1 c (pdats m ρ 1 c) (dat1_q (V5 m ρ) q1 c) (V5 m ρ c) (V6 m ρ c) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg2 : Pipeline.RegionSeg (pcfgs (F := F)) Gen.adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m ρ) c).loose
  hwaits := Pipeline.hwaits_of_owed_zero _ _ _ _ L lv 2 fun _ _ => rfl
  pre c := iprop(StableHlo.held (c : Thread nD τ) (Pipeline.ucRefs τ sig) (W7 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V7 m ρ c)
  hentry c := by
    rw [Pipeline.ownSems0_none]
    have hsplit := Pipeline.arrays_of_unscopedBufs (p := 2) (pcfgs (F := F)) Gen.adm (pdats m ρ) launch2.win launch2.arr_whole c
      ((pdats m ρ 2 c).share_full fun _ => rfl) (V7 m ρ c) (A_eq2 (V7 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m ρ) ((pdats m ρ 2 c).share_full fun _ => rfl)
      (V7 m ρ c) (V8 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) Gen.adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .host (hseg hostOps2 hostOps2_sub hostOps2_fresh (W6 m ρ)),
    .region (reg2 m ρ) ]
theorem main_run (c : Dev nD) : main (F := F) c = Pipeline.Seg.run (segs m ρ) := (main_chain c).trans (by chain_rfl)

set_option backward.isDefEq.respectTransparency.types false in
/-- THE RUN. From any memory with zero counters every weakly fair execution of @main terminates, nothing faulting;
    the result array ends at what the third kernel's write-backs leave, and every argument array as launched. -/
theorem run_main : θ_run defs (onTc (τ := τ) (main (F := F))) ⟨m, fun _ => 0, ρ⟩ (fun r => ∀ c : Dev nD,
      r.2.mem ((c.tc : Thread nD τ).loc main_v42) = (dat2 (V7 m ρ) c).arrAt 3 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) Gen.adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨(h c _ (mem_uc main_v42 (by decide))).trans (W8_arr m ρ c 3),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2) (run_main m ρ)

end Cert.Kernel.Rg
end
-- ==== Proof.KI.R0.lean ====
import proofs.«173932_j1915555414201_2_alg».proof.Proof.Gen.KernelIdeal.Launch
import proofs.«173932_j1915555414201_2_alg».proof.Proof.Gen.KernelIdeal.Skeleton
import proofs.«173932_j1915555414201_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 0 of @main at a parameter: the blocks its windows hold, what the body leaves, the body's triple

The TensorCore's buffer contents when the region is entered are a parameter `V`. Every input window's
staging buffer holds that window's block of its array at each grid point; the body reads every input whole, reads
the output buffer (a value it never uses), and overwrites the whole output buffer with one payload, so what
the body leaves in the output buffer is a closed function of the input blocks. -/

-- membership in a rectangle of large extents: the elaborator's structural look recurses once per coordinate
set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place: unfetched, the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s and whose body leaves the block in place: unfetched, the block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s and whose body leaves the block in place: unfetched, the block index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each reads or writes a whole buffer -/

abbrev r0_0 : Rect S2000x128 := Rect.unit (s := S2000x128) ![0, 0] S2000x128.size inb_S2000x128_S2000x128_0_0
abbrev r0_1 : Rect S128x256 := Rect.unit (s := S128x256) ![0, 0] S128x256.size inb_S128x256_S128x256_0_0
abbrev r0_2 : Rect S2000x1 := Rect.unit (s := S2000x1) ![0, 0] S2000x1.size inb_S2000x1_S2000x1_0_0
abbrev r0_3 : Rect S2000x256 := Rect.unit (s := S2000x256) ![0, 0] S2000x256.size inb_S2000x256_S2000x256_0_0

/-! ## What the body leaves in the output window's buffer -/

/-- Window 3's staging buffer after the body, from the input windows' blocks: its one store, over the whole buffer. -/
def out0_3 (x0 : Vec F S2000x128 .f32) (x1 : Vec F S128x256 .f32) (x2 : Vec F S2000x1 .f32) : Vec F S2000x256 .bf16 :=
  View.canon [⟨r0_3, k0_pay1 (View.ld x0 r0_0) (View.ld x1 r0_1) (View.ld x2 r0_2)⟩]

/-- The one store is the whole buffer, so it covers it. -/
theorem cover0_3 (p0 : Vec F S2000x256 .bf16) (y : S2000x256.Idx) :
    ∃ pc ∈ ([⟨r0_3, p0⟩] : List (View.Piece (Elt F) S2000x256 .bf16)), y ∈ pc.1.set :=
  View.cover_of_tiled [⟨r0_3, p0⟩] S2000x256.size (by rfl) y

/-! ## The body's triple -/

set_option maxHeartbeats 1000000 in
/-- The kernel body on whole staging memrefs, the inputs' at read contents `xW` and the output's at anything, runs to
    the continuation holding the inputs' as they were and the output's at `out0_3` of the inputs'. -/
theorem sound_kernel0 (c : Dev nD) (E : Set ℕ) (i : grid0.Coords)
    (arg1 : Memref sig .tc .vmem S2000x128 .f32) (harg1 : arg1.IsWhole)
    (arg2 : Memref sig .tc .vmem S128x256 .f32) (harg2 : arg2.IsWhole)
    (arg3 : Memref sig .tc .vmem S2000x1 .f32) (harg3 : arg3.IsWhole)
    (arg4 : Memref sig .tc .vmem S2000x256 .bf16) (harg4 : arg4.IsWhole)
    (x0 : Vec F S2000x128 .f32) (x1 : Vec F S128x256 .f32) (x2 : Vec F S2000x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__matmul_dinv_kernel i arg1 harg1 arg2 harg2 arg3 harg3 arg4 harg4) K := by
  simp only [cc0__matmul_dinv_kernel_eq_skeleton]; unfold cc0__matmul_dinv_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them; after the body at point `t`
    each input's buffer at its block and the output's at `out0_3` of the input blocks; the invariant is the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Rg

end
-- ==== Proof.KI.R1.lean ====
import proofs.«173932_j1915555414201_2_alg».proof.Proof.Gen.KernelIdeal.Launch
import proofs.«173932_j1915555414201_2_alg».proof.Proof.Gen.KernelIdeal.Skeleton
import proofs.«173932_j1915555414201_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 1 of @main at a parameter: the blocks its windows hold, what the body leaves, the body's triple

The TensorCore's buffer contents when the region is entered are a parameter `V`. Every input window's
staging buffer holds that window's block of its array at each grid point; the body reads every input whole, reads
the output buffer (a value it never uses), and overwrites the whole output buffer with one payload, so what
the body leaves in the output buffer is a closed function of the input blocks. -/

-- membership in a rectangle of large extents: the elaborator's structural look recurses once per coordinate
set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place: unfetched, the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s and whose body leaves the block in place: unfetched, the block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s and whose body leaves the block in place: unfetched, the block index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is `V`'s and whose body leaves the block in place: unfetched, the block index has not moved. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof
    data whose array is `V`'s and whose body leaves the block in place: unfetched, the block index has not moved. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each reads or writes a whole buffer -/

abbrev r1_0 : Rect S2000x256 := Rect.unit (s := S2000x256) ![0, 0] S2000x256.size inb_S2000x256_S2000x256_0_0
abbrev r1_1 : Rect S2000x1 := Rect.unit (s := S2000x1) ![0, 0] S2000x1.size inb_S2000x1_S2000x1_0_0
abbrev r1_2 : Rect S1x256 := Rect.unit (s := S1x256) ![0, 0] S1x256.size inb_S1x256_S1x256_0_0
abbrev r1_3 : Rect S256x256 := Rect.unit (s := S256x256) ![0, 0] S256x256.size inb_S256x256_S256x256_0_0
abbrev r1_4 : Rect S2000x1 := Rect.unit (s := S2000x1) ![0, 0] S2000x1.size inb_S2000x1_S2000x1_0_0
abbrev r1_5 : Rect S2000x256 := Rect.unit (s := S2000x256) ![0, 0] S2000x256.size inb_S2000x256_S2000x256_0_0

/-! ## What the body leaves in the output window's buffer -/

/-- Window 5's staging buffer after the body, from the input windows' blocks: its one store, over the whole buffer. -/
def out1_5 (x0 : Vec F S2000x256 .f32) (x1 : Vec F S2000x1 .f32) (x2 : Vec F S1x256 .f32) (x3 : Vec F S256x256 .f32) (x4 : Vec F S2000x1 .f32) : Vec F S2000x256 .bf16 :=
  View.canon [⟨r1_5, k1_pay1 (View.ld x1 r1_1) (View.ld x0 r1_0) (View.ld x2 r1_2) (View.ld x3 r1_3) (View.ld x4 r1_4)⟩]

/-- The one store is the whole buffer, so it covers it. -/
theorem cover1_5 (p0 : Vec F S2000x256 .bf16) (y : S2000x256.Idx) :
    ∃ pc ∈ ([⟨r1_5, p0⟩] : List (View.Piece (Elt F) S2000x256 .bf16)), y ∈ pc.1.set :=
  View.cover_of_tiled [⟨r1_5, p0⟩] S2000x256.size (by rfl) y

/-! ## The body's triple -/

set_option maxHeartbeats 1000000 in
/-- The kernel body on whole staging memrefs, the inputs' at read contents `xW` and the output's at anything, runs to
    the continuation holding the inputs' as they were and the output's at `out1_5` of the inputs'. -/
theorem sound_kernel1 (c : Dev nD) (E : Set ℕ) (i : grid1.Coords)
    (arg1 : Memref sig .tc .vmem S2000x256 .f32) (harg1 : arg1.IsWhole)
    (arg2 : Memref sig .tc .vmem S2000x1 .f32) (harg2 : arg2.IsWhole)
    (arg3 : Memref sig .tc .vmem S1x256 .f32) (harg3 : arg3.IsWhole)
    (arg4 : Memref sig .tc .vmem S256x256 .f32) (harg4 : arg4.IsWhole)
    (arg5 : Memref sig .tc .vmem S2000x1 .f32) (harg5 : arg5.IsWhole)
    (arg6 : Memref sig .tc .vmem S2000x256 .bf16) (harg6 : arg6.IsWhole)
    (x0 : Vec F S2000x256 .f32) (x1 : Vec F S2000x1 .f32) (x2 : Vec F S1x256 .f32) (x3 : Vec F S256x256 .f32) (x4 : Vec F S2000x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__fused_relu_matmul_kernel i arg1 harg1 arg2 harg2 arg3 harg3 arg4 harg4 arg5 harg5 arg6 harg6) K := by
  simp only [cc1__fused_relu_matmul_kernel_eq_skeleton]; unfold cc1__fused_relu_matmul_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of pipeline 1 on core `c`: the arrays as the region finds them; after the body at point `t`
    each input's buffer at its block and the output's at `out1_5` of the input blocks; the invariant is the scoped
    rest and the generator register, untouched; nothing owed; the share held of each input array is a parameter. -/
def dat1 (q : Fin cfg1.W → PosShare TreeShare) (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q := q
  owed _ := 0

/-- The proof data's arrays are the region-entry contents. -/
theorem A_eq1 (q : Fin cfg1.W → PosShare TreeShare) (c : Dev nD) (w : Fin cfg1.W) : (dat1 V q c).A w = V c (Pipeline.arrRef spec1 w) := by
  dsimp only [dat1]

/-- The proof data's shares are the parameter. -/
theorem q_eq1 (q : Fin cfg1.W → PosShare TreeShare) (c : Dev nD) : (dat1 V q c).q = q := by
  dsimp only [dat1]

/-- What the body leaves, window by window. -/
theorem after1_0 (q : Fin cfg1.W → PosShare TreeShare) (c : Dev nD) (t : Fin cfg1.N) : (dat1 V q c).after 0 t = iblk1 V c 0 t := by dsimp only [dat1]
theorem after1_1 (q : Fin cfg1.W → PosShare TreeShare) (c : Dev nD) (t : Fin cfg1.N) : (dat1 V q c).after 1 t = iblk1 V c 1 t := by dsimp only [dat1]
theorem after1_2 (q : Fin cfg1.W → PosShare TreeShare) (c : Dev nD) (t : Fin cfg1.N) : (dat1 V q c).after 2 t = iblk1 V c 2 t := by dsimp only [dat1]
theorem after1_3 (q : Fin cfg1.W → PosShare TreeShare) (c : Dev nD) (t : Fin cfg1.N) : (dat1 V q c).after 3 t = iblk1 V c 3 t := by dsimp only [dat1]
theorem after1_4 (q : Fin cfg1.W → PosShare TreeShare) (c : Dev nD) (t : Fin cfg1.N) : (dat1 V q c).after 4 t = iblk1 V c 4 t := by dsimp only [dat1]
theorem after1_5 (q : Fin cfg1.W → PosShare TreeShare) (c : Dev nD) (t : Fin cfg1.N) : (dat1 V q c).after 5 t = out1_5 (iblk1 V c 0 t) (iblk1 V c 1 t) (iblk1 V c 2 t) (iblk1 V c 3 t) (iblk1 V c 4 t) := by dsimp only [dat1]

/-- Each input's current staging buffer holds its block at every point, fetched there or not. -/
theorem before1_0 (q : Fin cfg1.W → PosShare TreeShare) (c : Dev nD) (t : Fin cfg1.N) (d) : (dat1 V q c).before 0 t d = iblk1 V c 0 t :=
  before1_0_of V (dat1 V q c) (A_eq1 V q c 0) (after1_0 V q c) t d
theorem before1_1 (q : Fin cfg1.W → PosShare TreeShare) (c : Dev nD) (t : Fin cfg1.N) (d) : (dat1 V q c).before 1 t d = iblk1 V c 1 t :=
  before1_1_of V (dat1 V q c) (A_eq1 V q c 1) (after1_1 V q c) t d
theorem before1_2 (q : Fin cfg1.W → PosShare TreeShare) (c : Dev nD) (t : Fin cfg1.N) (d) : (dat1 V q c).before 2 t d = iblk1 V c 2 t :=
  before1_2_of V (dat1 V q c) (A_eq1 V q c 2) (after1_2 V q c) t d
theorem before1_3 (q : Fin cfg1.W → PosShare TreeShare) (c : Dev nD) (t : Fin cfg1.N) (d) : (dat1 V q c).before 3 t d = iblk1 V c 3 t :=
  before1_3_of V (dat1 V q c) (A_eq1 V q c 3) (after1_3 V q c) t d
theorem before1_4 (q : Fin cfg1.W → PosShare TreeShare) (c : Dev nD) (t : Fin cfg1.N) (d) : (dat1 V q c).before 4 t d = iblk1 V c 4 t :=
  before1_4_of V (dat1 V q c) (A_eq1 V q c 4) (after1_4 V q c) t d

/-! ## The body obligation, at a generic point -/

/-- What the body is called with at point `t`, the windows one by one, -/
def bodyPre1 (q : Fin cfg1.W → PosShare TreeShare) (c : Dev nD) (t : Fin cfg1.N) : sProp 𝕄 :=
  iprop((dat1 V q c).Φ t.castSucc ∗ (dat1 V q c).owesAt () t.castSucc
    ∗ (∃ d, owns (c : Thread nD τ) (st1_0 t) fullShare ((dat1 V q c).before 0 t d))
    ∗ (∃ d, owns (c : Thread nD τ) (st1_1 t) fullShare ((dat1 V q c).before 1 t d))
    ∗ (∃ d, owns (c : Thread nD τ) (st1_2 t) fullShare ((dat1 V q c).before 2 t d))
    ∗ (∃ d, owns (c : Thread nD τ) (st1_3 t) fullShare ((dat1 V q c).before 3 t d))
    ∗ (∃ d, owns (c : Thread nD τ) (st1_4 t) fullShare ((dat1 V q c).before 4 t d))
    ∗ (∃ d, owns (c : Thread nD τ) (st1_5 t) fullShare ((dat1 V q c).before 5 t d)))

/-- and what it returns. -/
def bodyPost1 (q : Fin cfg1.W → PosShare TreeShare) (c : Dev nD) (t : Fin cfg1.N) : sProp 𝕄 :=
  iprop((dat1 V q c).Φ t.succ ∗ (dat1 V q c).owesAt () t.succ
    ∗ owns (c : Thread nD τ) (st1_0 t) fullShare ((dat1 V q c).after 0 t)
    ∗ owns (c : Thread nD τ) (st1_1 t) fullShare ((dat1 V q c).after 1 t)
    ∗ owns (c : Thread nD τ) (st1_2 t) fullShare ((dat1 V q c).after 2 t)
    ∗ owns (c : Thread nD τ) (st1_3 t) fullShare ((dat1 V q c).after 3 t)
    ∗ owns (c : Thread nD τ) (st1_4 t) fullShare ((dat1 V q c).after 4 t)
    ∗ owns (c : Thread nD τ) (st1_5 t) fullShare ((dat1 V q c).after 5 t))

/-- The body at any point: the inputs' memrefs hold their blocks, so the body's triple applies; the invariant and
    the core's `owes` pass through unread. -/
theorem sound_body1 (q : Fin cfg1.W → PosShare TreeShare) (c : Dev nD) (t : Fin cfg1.N) :
    bodyPre1 V q c t ⊢ wp frame (wpE (defs₀ (F := F)) Variants.none c none) Set.univ (bodyAt1 t) (fun _ => bodyPost1 V q c t) := by
  unfold bodyPre1 bodyPost1 bodyAt1
  simp only [before1_0, before1_1, before1_2, before1_3, before1_4]
  rw [show (dat1 V q c).Φ t.succ = (dat1 V q c).Φ t.castSucc from rfl,
    show (dat1 V q c).owesAt () t.succ = (dat1 V q c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (q : Fin cfg1.W → PosShare TreeShare) (c : Dev nD) : BodyObligation (dat1 (F := F) V q c) (defs₀ (F := F)) Variants.none () Set.univ := fun t => by
  rw [bigSep_W1, bigSep_W1]
  exact sound_body1 V q c t

end Cert.KernelIdeal.Rg

end
-- ==== Proof.KI.R2.lean ====
import proofs.«173932_j1915555414201_2_alg».proof.Proof.Gen.KernelIdeal.Launch
import proofs.«173932_j1915555414201_2_alg».proof.Proof.Gen.KernelIdeal.Skeleton
import proofs.«173932_j1915555414201_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 2 of @main at a parameter: the blocks its windows hold, what the body leaves, the body's triple

The TensorCore's buffer contents when the region is entered are a parameter `V`. Every input window's
staging buffer holds that window's block of its array at each grid point; the body reads every input whole, reads
the output buffer (a value it never uses), and overwrites the whole output buffer with one payload, so what
the body leaves in the output buffer is a closed function of the input blocks. -/

-- membership in a rectangle of large extents: the elaborator's structural look recurses once per coordinate
set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s and whose body leaves the block in place: unfetched, the block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof
    data whose array is `V`'s and whose body leaves the block in place: unfetched, the block index has not moved. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof
    data whose array is `V`'s and whose body leaves the block in place: unfetched, the block index has not moved. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each reads or writes a whole buffer -/

abbrev r2_0 : Rect S2000x256 := Rect.unit (s := S2000x256) ![0, 0] S2000x256.size inb_S2000x256_S2000x256_0_0
abbrev r2_1 : Rect S2000x1 := Rect.unit (s := S2000x1) ![0, 0] S2000x1.size inb_S2000x1_S2000x1_0_0
abbrev r2_2 : Rect S1x256 := Rect.unit (s := S1x256) ![0, 0] S1x256.size inb_S1x256_S1x256_0_0
abbrev r2_3 : Rect S2000x256 := Rect.unit (s := S2000x256) ![0, 0] S2000x256.size inb_S2000x256_S2000x256_0_0

/-! ## What the body leaves in the output window's buffer -/

/-- Window 3's staging buffer after the body, from the input windows' blocks: its one store, over the whole buffer. -/
def out2_3 (x0 : Vec F S2000x256 .f32) (x1 : Vec F S2000x1 .f32) (x2 : Vec F S1x256 .f32) : Vec F S2000x256 .f32 :=
  View.canon [⟨r2_3, k2_pay1 (View.ld x1 r2_1) (View.ld x0 r2_0) (View.ld x2 r2_2)⟩]

/-- The one store is the whole buffer, so it covers it. -/
theorem cover2_3 (p0 : Vec F S2000x256 .f32) (y : S2000x256.Idx) :
    ∃ pc ∈ ([⟨r2_3, p0⟩] : List (View.Piece (Elt F) S2000x256 .f32)), y ∈ pc.1.set :=
  View.cover_of_tiled [⟨r2_3, p0⟩] S2000x256.size (by rfl) y

/-! ## The body's triple -/

set_option maxHeartbeats 1000000 in
/-- The kernel body on whole staging memrefs, the inputs' at read contents `xW` and the output's at anything, runs to
    the continuation holding the inputs' as they were and the output's at `out2_3` of the inputs'. -/
theorem sound_kernel2 (c : Dev nD) (E : Set ℕ) (i : grid2.Coords)
    (arg1 : Memref sig .tc .vmem S2000x256 .f32) (harg1 : arg1.IsWhole) (arg2 : Memref sig .tc .vmem S2000x1 .f32) (harg2 : arg2.IsWhole)
    (arg3 : Memref sig .tc .vmem S1x256 .f32) (harg3 : arg3.IsWhole) (arg4 : Memref sig .tc .vmem S2000x256 .f32) (harg4 : arg4.IsWhole)
    (x0 : Vec F S2000x256 .f32) (x1 : Vec F S2000x1 .f32) (x2 : Vec F S1x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__bias_relu_dinv_kernel i arg1 harg1 arg2 harg2 arg3 harg3 arg4 harg4) K := by
  simp only [cc2__bias_relu_dinv_kernel_eq_skeleton]; unfold cc2__bias_relu_dinv_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of pipeline 2 on core `c`: the arrays as the region finds them; after the body at point `t`
    each input's buffer at its block and the output's at `out2_3` of the input blocks; the invariant is the scoped
    rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so the body's triple applies; the invariant and
    the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Rg

end
-- ==== Proof.KI.Share.lean ====
/- Region 1 of @main (custom_call 1) reads ONE array, main_v15, through TWO input windows (1 and 4). Its six windows'
   arrays are therefore five distinct buffers, and the pipeline's arrays — a conjunction over the six windows, each at
   its share — hold that buffer twice, at the two halves of the full share. This module states the shares (q1) and
   proves the two entailments a region's entry and exit need over a thread state that tracks every unscoped buffer:
   at ENTRY the unscoped buffers split into the pipeline's arrays at the entry contents and the unscoped rest (the
   shared buffer's full share split into its halves, both windows reading the one contents); at EXIT the arrays at
   what the pipeline leaves and the rest join back into the unscoped buffers (the two halves, at the same contents
   again since neither input window is written, joining into the full share). -/
import proofs.«173932_j1915555414201_2_alg».proof.Proof.Gen.KernelIdeal.Launch
import Idealize.ShloMosaic.Lib.Pipeline.RegionsLoop
import Idealize.ShloMosaic.Lib.Tactic

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)

variable {F : FTy → Type} [FloatOps F]

local notation "𝕄" => MT nD τ sig Unit (Elt F) ℕ (UR sig nD τ) ℕ

/-- The shares region 1's proof data hold of its windows' arrays: windows 1 and 4 read ONE array, each at one half
    of the full share; every other window holds its own array whole. -/
def q1 : Fin 6 → PosShare TreeShare
  | ⟨0, _⟩ => fullShare
  | ⟨1, _⟩ => fullShare.left
  | ⟨2, _⟩ => fullShare
  | ⟨3, _⟩ => fullShare
  | ⟨4, _⟩ => fullShare.right
  | ⟨5, _⟩ => fullShare

/-- The six windows' arrays are FIVE distinct buffers: windows 1 and 4 read the same one. -/
theorem img1 : Finset.univ.image (Pipeline.arrRef spec1) = ({main_v27, main_v15, main_v28, main_arg4, main_v29} : Finset (Ref sig .tc)) := by decide

/-- With the shares `q1` every window's share is `q1`'s: the output window's (window 5) is the full share either way. -/
theorem share1 (c : Dev nD) (dat : Dat τ (Elt F) Unit ℕ (UR sig nD τ) ℕ cfg1 c) (hq : dat.q = q1) : ∀ w, dat.share w = q1 w := by
  intro w; unfold Dat.share; rw [hq]
  fin_cases w <;> rfl

/-- The pipeline's arrays, every one a whole buffer, each held at its window's share. -/
theorem arrays_eq1 (c : Dev nD) (dat : Dat τ (Elt F) Unit ℕ (UR sig nD τ) ℕ cfg1 c) (hq : dat.q = q1)
    (G : (w : Fin cfg1.W) → Buf (Elt F) ((cfg1.win w).arr.view.loc (c : Thread nD τ))) :
    (dat.arrays G : sProp 𝕄) = bigSep Finset.univ fun w : Fin 6 => (((c : Thread nD τ).loc (Pipeline.arrRef spec1 w)) ↦{q1 w} G w : sProp 𝕄) := by
  unfold Dat.arrays
  exact bigSep_congr fun w _ => by rw [(arr_whole1 w).set_eq_univ, share1 c dat hq w]

/-- A core's unscoped buffers are the five buffers behind region 1's windows and the rest. -/
theorem split1 (c : Dev nD) (V : (b : Ref sig .tc) → Buf (Elt F) ((c : Thread nD τ).loc b)) :
    (unscopedBufs c V : sProp 𝕄) = iprop(Pipeline.arrBufs spec1 c V ∗ Pipeline.unscopedRest spec1 c V) :=
  Pipeline.unscopedBufs_split₀ cfgs 1 winFacts₀1.arr_unscoped c V

/-- The five buffers conjoined one by one. -/
theorem arrBufs_eq1 (c : Dev nD) (V : (b : Ref sig .tc) → Buf (Elt F) ((c : Thread nD τ).loc b)) :
    (Pipeline.arrBufs spec1 c V : sProp 𝕄)
      = iprop((((c : Thread nD τ).loc main_v27) ↦{fullShare} V main_v27) ∗ (((c : Thread nD τ).loc main_v15) ↦{fullShare} V main_v15)
          ∗ (((c : Thread nD τ).loc main_v28) ↦{fullShare} V main_v28) ∗ (((c : Thread nD τ).loc main_arg4) ↦{fullShare} V main_arg4)
          ∗ (((c : Thread nD τ).loc main_v29) ↦{fullShare} V main_v29)) := by
  unfold Pipeline.arrBufs
  rw [img1, bigSep_insert (by decide), bigSep_insert (by decide), bigSep_insert (by decide), bigSep_insert (by decide), bigSep_singleton]
  rfl

/-- The five buffers, each whole at the full share at contents `V`, are the six windows' arrays at their shares at the
    same contents: the buffer two windows read splits into its two halves (and the halves join), both windows
    reading the one contents. -/
theorem arrBufs_share1 (c : Dev nD) (V : (b : Ref sig .tc) → Buf (Elt F) ((c : Thread nD τ).loc b)) :
    (Pipeline.arrBufs spec1 c V : sProp 𝕄)
      ⊣⊢ bigSep Finset.univ fun w : Fin 6 => (((c : Thread nD τ).loc (Pipeline.arrRef spec1 w)) ↦{q1 w} V (Pipeline.arrRef spec1 w) : sProp 𝕄) := by
  rw [arrBufs_eq1, bigSep_W1]
  have h15 : (((c : Thread nD τ).loc main_v15) ↦{fullShare} V main_v15 : sProp 𝕄)
      ⊣⊢ iprop((((c : Thread nD τ).loc main_v15) ↦{fullShare.left} V main_v15) ∗ ((c : Thread nD τ).loc main_v15) ↦{fullShare.right} V main_v15) :=
    pointsTo_share (PosShare.mem_left_op_right fullShare)
  constructor
  · iintro ⟨H0, H15, H2, H3, H5⟩
    ihave H := h15.1 $$ H15
    icases H with ⟨Hl, Hr⟩
    isplitl [H0]; · iexact H0
    isplitl [Hl]; · iexact Hl
    isplitl [H2]; · iexact H2
    isplitl [H3]; · iexact H3
    isplitl [Hr]; · iexact Hr
    iexact H5
  · iintro ⟨H0, Hl, H2, H3, Hr, H5⟩
    isplitl [H0]; · iexact H0
    isplitl [Hl Hr]
    · iapply h15.2; isplitl [Hl]; · iexact Hl
      iexact Hr
    isplitl [H2]; · iexact H2
    isplitl [H3]; · iexact H3
    iexact H5

/-- ENTRY of region 1, the arrays' part: a core's unscoped buffers at contents `V` are the pipeline's arrays at the
    proof data's entry contents — those read off `V` (`hA`), each window at its share — and the unscoped rest. -/
theorem entry1 (c : Dev nD) (dat : Dat τ (Elt F) Unit ℕ (UR sig nD τ) ℕ cfg1 c) (hq : dat.q = q1)
    (V : (b : Ref sig .tc) → Buf (Elt F) ((c : Thread nD τ).loc b))
    (hA : ∀ w, dat.A w = V (Pipeline.arrRef spec1 w)) :
    (unscopedBufs c V : sProp 𝕄) ⊢ iprop(dat.arrays (dat.arrAt · 0) ∗ Pipeline.unscopedRest spec1 c V) := by
  rw [split1 c V, arrays_eq1 c dat hq]
  refine sep_mono ((arrBufs_share1 c V).1.trans (Entails.of_eq (bigSep_congr fun w _ => ?_))) .rfl
  rw [show dat.arrAt w 0 = dat.A w from rfl, hA]

/-- EXIT of region 1, the arrays' part: the pipeline's arrays at what it leaves and the unscoped rest at `V` are the
    core's unscoped buffers at any valuation `V'` that has every window's array at what the pipeline leaves (`hF`; the
    two windows on one array leave the same contents, being both `V'` at that buffer) and agrees with `V` off the arrays. -/
theorem exit1 (c : Dev nD) (dat : Dat τ (Elt F) Unit ℕ (UR sig nD τ) ℕ cfg1 c) (hq : dat.q = q1)
    (V V' : (b : Ref sig .tc) → Buf (Elt F) ((c : Thread nD τ).loc b))
    (hF : ∀ w, dat.arrAt w cfg1.N = V' (Pipeline.arrRef spec1 w))
    (hrest : ∀ b, b ∉ Finset.univ.image (Pipeline.arrRef spec1) → V' b = V b) :
    iprop(dat.arrays (dat.arrAt · cfg1.N) ∗ Pipeline.unscopedRest spec1 c V) ⊢ (unscopedBufs c V' : sProp 𝕄) := by
  rw [split1 c V', arrays_eq1 c dat hq]
  refine sep_mono ((Entails.of_eq (bigSep_congr fun w _ => ?_)).trans (arrBufs_share1 c V').2) (Entails.of_eq ?_)
  · rw [hF]
  · unfold Pipeline.unscopedRest
    exact bigSep_congr fun b hb => by rw [hrest b (Finset.mem_sdiff.mp hb).2]

end Cert.KernelIdeal.Rg
-- ==== Proof.KI.Run.lean ====
/-
  The run of the three-kernel program, at any value family: the buffer contents at every boundary of @main as a fold
  from the launch memory (a host stretch applies its operations; a kernel leaves its output array at what its
  write-backs fold to and every other buffer as entered), each kernel a segment between two such contents, and the
  launch over the segments. The second kernel reads one array (the column of inverse square roots of the degrees)
  through two input windows; the two windows hold the two halves of that array's share, so its entry and exit are
  the share-splitting lemmas of Share.lean rather than the ones for distinct arrays.
-/
import proofs.«173932_j1915555414201_2_alg».proof.Proof.KI.R0
import proofs.«173932_j1915555414201_2_alg».proof.Proof.KI.R1
import proofs.«173932_j1915555414201_2_alg».proof.Proof.KI.R2
import proofs.«173932_j1915555414201_2_alg».proof.Proof.KI.Share
import proofs.«173932_j1915555414201_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The second kernel's proof data hold the shares they are given. -/
theorem dat1_q (V : (c : Dev nD) → (b : Ref sig .tc) → Buf (Elt F) ((c : Thread nD τ).loc b)) (q : Fin cfg1.W → PosShare TreeShare) (c : Dev nD) : (dat1 V q c).q = q := by dsimp only [dat1]

variable (m : (ℓ : Loc nD τ sig) → Buf (Elt F) ℓ) (ρ : Dev nD → PrngReg)

/-! # The run: the buffer contents at each boundary of @main, a fold from the launch memory -/

/-- Core `c`'s buffers at launch. -/
abbrev W0 : Dev nD → Valuation τ sig (Elt F) := fun c b => (s₀ m ρ).mem ((c : Dev nD), b)
/-- After the index and degree arithmetic (edge lists with self loops, degrees, their inverse square roots). -/
abbrev W1 : Dev nD → Valuation τ sig (Elt F) := fun c => StableHlo.after hostOps0 (W0 m ρ c)
abbrev W2 : Dev nD → Valuation τ sig (Elt F) := fun c => StableHlo.after hostOps0_1 (W1 m ρ c)
/-- The first kernel's entry: the inverse square roots laid out as a column. -/
abbrev W3 : Dev nD → Valuation τ sig (Elt F) := fun c => StableHlo.after hostOps0_2 (W2 m ρ c)
abbrev V3 : (c : Dev nD) → (b : Ref sig .tc) → Buf (Elt F) ((c : Thread nD τ).loc b) := fun c b => W3 m ρ c b
/-- At the first kernel's exit: its arrays at what the write-backs leave, every other buffer as entered. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
abbrev V4 : (c : Dev nD) → (b : Ref sig .tc) → Buf (Elt F) ((c : Thread nD τ).loc b) := fun c b => W4 m ρ c b
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)

/-- After the first gather and scatter-add (the second kernel's entry). -/
abbrev W5 : Dev nD → Valuation τ sig (Elt F) := fun c => StableHlo.after hostOps1 (W4 m ρ c)
abbrev V5 : (c : Dev nD) → (b : Ref sig .tc) → Buf (Elt F) ((c : Thread nD τ).loc b) := fun c b => W5 m ρ c b
/-- At the second kernel's exit. Two of its input windows read one array, so the exit contents are stated by
    updating the one array it writes: the inputs are as entered. -/
def W6 (c : Dev nD) : Valuation τ sig (Elt F) :=
  Function.update (W5 m ρ c) (Proc.devRef .tc main_v29) ((dat1 (V5 m ρ) q1 c).arrAt 5 cfg1.N)
theorem W6_out (c : Dev nD) : W6 m ρ c (Proc.devRef .tc main_v29) = (dat1 (V5 m ρ) q1 c).arrAt 5 cfg1.N := by
  unfold W6; exact Function.update_self _ _ _
theorem W6_of_ne (c : Dev nD) (b : Ref sig .tc) (hb : b ≠ main_v29) :
    W6 m ρ c (Proc.devRef .tc b) = W5 m ρ c (Proc.devRef .tc b) := by
  unfold W6; exact Function.update_of_ne (StableHlo.devRef_ne_of_ne hb) _ _
abbrev V6 : (c : Dev nD) → (b : Ref sig .tc) → Buf (Elt F) ((c : Thread nD τ).loc b) := fun c b => W6 m ρ c b
theorem hF1 (c : Dev nD) : ∀ w : Fin cfg1.W, (dat1 (V5 m ρ) q1 c).arrAt w cfg1.N = V6 m ρ c (Pipeline.arrRef spec1 w)
  | ⟨0, _⟩ => (((dat1 (V5 m ρ) q1 c).arrAt_in 0 rfl _).trans (A_eq1 (V5 m ρ) q1 c 0)).trans (W6_of_ne m ρ c _ (by decide)).symm
  | ⟨1, _⟩ => (((dat1 (V5 m ρ) q1 c).arrAt_in 1 rfl _).trans (A_eq1 (V5 m ρ) q1 c 1)).trans (W6_of_ne m ρ c _ (by decide)).symm
  | ⟨2, _⟩ => (((dat1 (V5 m ρ) q1 c).arrAt_in 2 rfl _).trans (A_eq1 (V5 m ρ) q1 c 2)).trans (W6_of_ne m ρ c _ (by decide)).symm
  | ⟨3, _⟩ => (((dat1 (V5 m ρ) q1 c).arrAt_in 3 rfl _).trans (A_eq1 (V5 m ρ) q1 c 3)).trans (W6_of_ne m ρ c _ (by decide)).symm
  | ⟨4, _⟩ => (((dat1 (V5 m ρ) q1 c).arrAt_in 4 rfl _).trans (A_eq1 (V5 m ρ) q1 c 4)).trans (W6_of_ne m ρ c _ (by decide)).symm
  | ⟨5, _⟩ => (W6_out m ρ c).symm
theorem hrest1 (c : Dev nD) : ∀ b, b ∉ Finset.univ.image (Pipeline.arrRef spec1) → V6 m ρ c b = V5 m ρ c b :=
  fun b hb => W6_of_ne m ρ c b fun e => hb (Finset.mem_image.mpr ⟨5, Finset.mem_univ _, e.symm⟩)

/-- After the second gather and scatter-add (the third kernel's entry). -/
abbrev W7 : Dev nD → Valuation τ sig (Elt F) := fun c => StableHlo.after hostOps2 (W6 m ρ c)
abbrev V7 : (c : Dev nD) → (b : Ref sig .tc) → Buf (Elt F) ((c : Thread nD τ).loc b) := fun c b => W7 m ρ c b
def W8 (c : Dev nD) : Valuation τ sig (Elt F) :=
  Pipeline.withArrays spec2 c (W7 m ρ c) fun w => (dat2 (V7 m ρ) c).arrAt w cfg2.N
theorem W8_arr (c : Dev nD) (w : Fin cfg2.W) :
    W8 m ρ c (Proc.devRef .tc (Pipeline.arrRef spec2 w)) = (dat2 (V7 m ρ) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb
abbrev V8 : (c : Dev nD) → (b : Ref sig .tc) → Buf (Elt F) ((c : Thread nD τ).loc b) := fun c b => W8 m ρ c b
theorem hF2 (c : Dev nD) (w : Fin cfg2.W) : (dat2 (V7 m ρ) c).arrAt w cfg2.N = V8 m ρ c (Pipeline.arrRef spec2 w) :=
  (W8_arr m ρ c w).symm
theorem hrest2 (c : Dev nD) : ∀ b, b ∉ Finset.univ.image (Pipeline.arrRef spec2) → V8 m ρ c b = V7 m ρ c b :=
  fun b hb => W8_of_ne m ρ c b fun w e => hb (Finset.mem_image.mpr ⟨w, Finset.mem_univ _, e⟩)

/-! ### The arguments end as launched: no host operation writes one, a kernel reads it through an input window or
    leaves it alone -/

/-- The first kernel leaves every buffer but its output as entered: its three input arrays through their windows,
    the rest untouched. -/
theorem W4_of_ne' (c : Dev nD) (b : Ref sig .tc) (hb : b ≠ main_v16 := by decide) :
    W4 m ρ c (Proc.devRef .tc b) = W3 m ρ c (Proc.devRef .tc b) := by
  by_cases h : ∃ w, Pipeline.arrRef spec0 w = b
  · obtain ⟨w, rfl⟩ := h
    match w with
    | ⟨0, _⟩ => exact (W4_arr m ρ c 0).trans (((dat0 (V3 m ρ) c).arrAt_in 0 rfl _).trans (A_eq0 (V3 m ρ) c 0))
    | ⟨1, _⟩ => exact (W4_arr m ρ c 1).trans (((dat0 (V3 m ρ) c).arrAt_in 1 rfl _).trans (A_eq0 (V3 m ρ) c 1))
    | ⟨2, _⟩ => exact (W4_arr m ρ c 2).trans (((dat0 (V3 m ρ) c).arrAt_in 2 rfl _).trans (A_eq0 (V3 m ρ) c 2))
    | ⟨3, _⟩ => exact absurd rfl hb
  · exact W4_of_ne m ρ c b fun w e => h ⟨w, e⟩
theorem W8_main_arg0 (c : Dev nD) : W8 m ρ c (Proc.devRef .tc main_arg0) = m ((c : Thread nD τ).loc main_arg0) :=
  calc W8 m ρ c (Proc.devRef .tc main_arg0)
    _ = W7 m ρ c (Proc.devRef .tc main_arg0) := W8_of_ne m ρ c main_arg0 (by decide)
    _ = W6 m ρ c (Proc.devRef .tc main_arg0) := StableHlo.after_of_writes_sub hostOps2 _ hostOps2_writes (by decide)
    _ = W5 m ρ c (Proc.devRef .tc main_arg0) := W6_of_ne m ρ c main_arg0 (by decide)
    _ = W4 m ρ c (Proc.devRef .tc main_arg0) := StableHlo.after_of_writes_sub hostOps1 _ hostOps1_writes (by decide)
    _ = W3 m ρ c (Proc.devRef .tc main_arg0) := W4_of_ne' m ρ c main_arg0
    _ = W2 m ρ c (Proc.devRef .tc main_arg0) := StableHlo.after_of_writes_sub hostOps0_2 _ hostOps0_2_writes (by decide)
    _ = W1 m ρ c (Proc.devRef .tc main_arg0) := StableHlo.after_of_writes_sub hostOps0_1 _ hostOps0_1_writes (by decide)
    _ = W0 m ρ c (Proc.devRef .tc main_arg0) := StableHlo.after_of_writes_sub hostOps0 _ hostOps0_writes (by decide)
    _ = m ((c : Thread nD τ).loc main_arg0) := rfl

theorem W8_main_arg1 (c : Dev nD) : W8 m ρ c (Proc.devRef .tc main_arg1) = m ((c : Thread nD τ).loc main_arg1) :=
  calc W8 m ρ c (Proc.devRef .tc main_arg1)
    _ = W7 m ρ c (Proc.devRef .tc main_arg1) := W8_of_ne m ρ c main_arg1 (by decide)
    _ = W6 m ρ c (Proc.devRef .tc main_arg1) := StableHlo.after_of_writes_sub hostOps2 _ hostOps2_writes (by decide)
    _ = W5 m ρ c (Proc.devRef .tc main_arg1) := W6_of_ne m ρ c main_arg1 (by decide)
    _ = W4 m ρ c (Proc.devRef .tc main_arg1) := StableHlo.after_of_writes_sub hostOps1 _ hostOps1_writes (by decide)
    _ = W3 m ρ c (Proc.devRef .tc main_arg1) := W4_of_ne' m ρ c main_arg1
    _ = W2 m ρ c (Proc.devRef .tc main_arg1) := StableHlo.after_of_writes_sub hostOps0_2 _ hostOps0_2_writes (by decide)
    _ = W1 m ρ c (Proc.devRef .tc main_arg1) := StableHlo.after_of_writes_sub hostOps0_1 _ hostOps0_1_writes (by decide)
    _ = W0 m ρ c (Proc.devRef .tc main_arg1) := StableHlo.after_of_writes_sub hostOps0 _ hostOps0_writes (by decide)
    _ = m ((c : Thread nD τ).loc main_arg1) := rfl

theorem W8_main_arg2 (c : Dev nD) : W8 m ρ c (Proc.devRef .tc main_arg2) = m ((c : Thread nD τ).loc main_arg2) :=
  calc W8 m ρ c (Proc.devRef .tc main_arg2)
    _ = W7 m ρ c (Proc.devRef .tc main_arg2) := W8_of_ne m ρ c main_arg2 (by decide)
    _ = W6 m ρ c (Proc.devRef .tc main_arg2) := StableHlo.after_of_writes_sub hostOps2 _ hostOps2_writes (by decide)
    _ = W5 m ρ c (Proc.devRef .tc main_arg2) := W6_of_ne m ρ c main_arg2 (by decide)
    _ = W4 m ρ c (Proc.devRef .tc main_arg2) := StableHlo.after_of_writes_sub hostOps1 _ hostOps1_writes (by decide)
    _ = W3 m ρ c (Proc.devRef .tc main_arg2) := W4_of_ne' m ρ c main_arg2
    _ = W2 m ρ c (Proc.devRef .tc main_arg2) := StableHlo.after_of_writes_sub hostOps0_2 _ hostOps0_2_writes (by decide)
    _ = W1 m ρ c (Proc.devRef .tc main_arg2) := StableHlo.after_of_writes_sub hostOps0_1 _ hostOps0_1_writes (by decide)
    _ = W0 m ρ c (Proc.devRef .tc main_arg2) := StableHlo.after_of_writes_sub hostOps0 _ hostOps0_writes (by decide)
    _ = m ((c : Thread nD τ).loc main_arg2) := rfl

theorem W8_main_arg3 (c : Dev nD) : W8 m ρ c (Proc.devRef .tc main_arg3) = m ((c : Thread nD τ).loc main_arg3) :=
  calc W8 m ρ c (Proc.devRef .tc main_arg3)
    _ = W7 m ρ c (Proc.devRef .tc main_arg3) := W8_of_ne m ρ c main_arg3 (by decide)
    _ = W6 m ρ c (Proc.devRef .tc main_arg3) := StableHlo.after_of_writes_sub hostOps2 _ hostOps2_writes (by decide)
    _ = W5 m ρ c (Proc.devRef .tc main_arg3) := W6_of_ne m ρ c main_arg3 (by decide)
    _ = W4 m ρ c (Proc.devRef .tc main_arg3) := StableHlo.after_of_writes_sub hostOps1 _ hostOps1_writes (by decide)
    _ = W3 m ρ c (Proc.devRef .tc main_arg3) := W4_of_ne' m ρ c main_arg3
    _ = W2 m ρ c (Proc.devRef .tc main_arg3) := StableHlo.after_of_writes_sub hostOps0_2 _ hostOps0_2_writes (by decide)
    _ = W1 m ρ c (Proc.devRef .tc main_arg3) := StableHlo.after_of_writes_sub hostOps0_1 _ hostOps0_1_writes (by decide)
    _ = W0 m ρ c (Proc.devRef .tc main_arg3) := StableHlo.after_of_writes_sub hostOps0 _ hostOps0_writes (by decide)
    _ = m ((c : Thread nD τ).loc main_arg3) := rfl

theorem W8_main_arg4 (c : Dev nD) : W8 m ρ c (Proc.devRef .tc main_arg4) = m ((c : Thread nD τ).loc main_arg4) :=
  calc W8 m ρ c (Proc.devRef .tc main_arg4)
    _ = W7 m ρ c (Proc.devRef .tc main_arg4) := W8_of_ne m ρ c main_arg4 (by decide)
    _ = W6 m ρ c (Proc.devRef .tc main_arg4) := StableHlo.after_of_writes_sub hostOps2 _ hostOps2_writes (by decide)
    _ = W5 m ρ c (Proc.devRef .tc main_arg4) := W6_of_ne m ρ c main_arg4 (by decide)
    _ = W4 m ρ c (Proc.devRef .tc main_arg4) := StableHlo.after_of_writes_sub hostOps1 _ hostOps1_writes (by decide)
    _ = W3 m ρ c (Proc.devRef .tc main_arg4) := W4_of_ne' m ρ c main_arg4
    _ = W2 m ρ c (Proc.devRef .tc main_arg4) := StableHlo.after_of_writes_sub hostOps0_2 _ hostOps0_2_writes (by decide)
    _ = W1 m ρ c (Proc.devRef .tc main_arg4) := StableHlo.after_of_writes_sub hostOps0_1 _ hostOps0_1_writes (by decide)
    _ = W0 m ρ c (Proc.devRef .tc main_arg4) := StableHlo.after_of_writes_sub hostOps0 _ hostOps0_writes (by decide)
    _ = m ((c : Thread nD τ).loc main_arg4) := rfl

theorem W8_main_arg5 (c : Dev nD) : W8 m ρ c (Proc.devRef .tc main_arg5) = m ((c : Thread nD τ).loc main_arg5) :=
  calc W8 m ρ c (Proc.devRef .tc main_arg5)
    _ = W7 m ρ c (Proc.devRef .tc main_arg5) := W8_of_ne m ρ c main_arg5 (by decide)
    _ = W6 m ρ c (Proc.devRef .tc main_arg5) := StableHlo.after_of_writes_sub hostOps2 _ hostOps2_writes (by decide)
    _ = W5 m ρ c (Proc.devRef .tc main_arg5) := W6_of_ne m ρ c main_arg5 (by decide)
    _ = W4 m ρ c (Proc.devRef .tc main_arg5) := StableHlo.after_of_writes_sub hostOps1 _ hostOps1_writes (by decide)
    _ = W3 m ρ c (Proc.devRef .tc main_arg5) := W4_of_ne' m ρ c main_arg5
    _ = W2 m ρ c (Proc.devRef .tc main_arg5) := StableHlo.after_of_writes_sub hostOps0_2 _ hostOps0_2_writes (by decide)
    _ = W1 m ρ c (Proc.devRef .tc main_arg5) := StableHlo.after_of_writes_sub hostOps0_1 _ hostOps0_1_writes (by decide)
    _ = W0 m ρ c (Proc.devRef .tc main_arg5) := StableHlo.after_of_writes_sub hostOps0 _ hostOps0_writes (by decide)
    _ = m ((c : Thread nD τ).loc main_arg5) := rfl

/-! ## The proof data family and the thread state -/

/-- Every kernel's proof data, each at its own entry contents: a literal match on the kernel's number. -/
def pdats : (p : Fin 3) → (c : Dev nD) → Dat τ (Elt F) Unit ℕ (UR sig nD τ) ℕ (Pipeline.pin (pcfgs (F := F)) Gen.adm p) c
  | ⟨0, _⟩ => fun c => dat0 (V3 m ρ) c
  | ⟨1, _⟩ => fun c => dat1 (V5 m ρ) q1 c
  | ⟨2, _⟩ => fun c => dat2 (V7 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A stretch of host operations as a segment over every unscoped buffer, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state but for what is owed: every unscoped buffer at the last contents. -/
abbrev Tₙ (c : Dev nD) : sProp 𝕄 := iprop(StableHlo.held (c : Thread nD τ) (Pipeline.ucRefs τ sig) (W8 m ρ c) ∗ ∃ r, prngReg c r)

/-! ## The three kernels as segments -/

set_option backward.isDefEq.respectTransparency.types false in
def reg0 : Pipeline.RegionSeg (pcfgs (F := F)) Gen.adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) Gen.adm (pdats m ρ) launch0.win launch0.arr_whole c
      ((pdats m ρ 0 c).share_full fun _ => rfl) (V3 m ρ c) (A_eq0 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) Gen.adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V5 m ρ) q1 c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := entry1 c (pdats m ρ 1 c) (dat1_q (V5 m ρ) q1 c) (V5 m ρ c) (A_eq1 (V5 m ρ) q1 c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := exit1 c (pdats m ρ 1 c) (dat1_q (V5 m ρ) q1 c) (V5 m ρ c) (V6 m ρ c) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg2 : Pipeline.RegionSeg (pcfgs (F := F)) Gen.adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m ρ) c).loose
  hwaits := Pipeline.hwaits_of_owed_zero _ _ _ _ L lv 2 fun _ _ => rfl
  pre c := iprop(StableHlo.held (c : Thread nD τ) (Pipeline.ucRefs τ sig) (W7 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V7 m ρ c)
  hentry c := by
    rw [Pipeline.ownSems0_none]
    have hsplit := Pipeline.arrays_of_unscopedBufs (p := 2) (pcfgs (F := F)) Gen.adm (pdats m ρ) launch2.win launch2.arr_whole c
      ((pdats m ρ 2 c).share_full fun _ => rfl) (V7 m ρ c) (A_eq2 (V7 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m ρ) ((pdats m ρ 2 c).share_full fun _ => rfl)
      (V7 m ρ c) (V8 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) Gen.adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .host (hseg hostOps2 hostOps2_sub hostOps2_fresh (W6 m ρ)),
    .region (reg2 m ρ) ]
theorem main_run (c : Dev nD) : main (F := F) c = Pipeline.Seg.run (segs m ρ) := (main_chain c).trans (by chain_rfl)

set_option backward.isDefEq.respectTransparency.types false in
/-- THE RUN. From any memory with zero counters every weakly fair execution of @main terminates, nothing faulting;
    the result array ends at what the third kernel's write-backs leave, and every argument array as launched. -/
theorem run_main : θ_run defs (onTc (τ := τ) (main (F := F))) ⟨m, fun _ => 0, ρ⟩ (fun r => ∀ c : Dev nD,
      r.2.mem ((c.tc : Thread nD τ).loc main_v42) = (dat2 (V7 m ρ) c).arrAt 3 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) Gen.adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨(h c _ (mem_uc main_v42 (by decide))).trans (W8_arr m ρ c 3),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2) (run_main m ρ)

end Cert.KernelIdeal.Rg
end
-- ==== Proof.Spec.lean ====
/-
  The three whole-array functions the kernels of a two-layer graph convolution compute, index by index over the
  extended reals, generic in the extents: a matrix product whose rows are each scaled by that row's entry of a
  column; the same after a scaled-shifted-clipped first factor; and the final scale, shift and clip at zero.
-/
import Idealize.ShloMosaic.PureOps.Ideal
import Idealize.ShloMosaic.Lib.ValueIdx

noncomputable section

namespace Gcn

open Idealize.ShloMosaic Idealize.ShloMosaic.ValueIdx

/-- The rank-2 shape `[a, b]`. -/
abbrev Sh (a b : ℕ) : Shape := ⟨2, ![a, b]⟩

variable {M K N : ℕ}

/-- Entry `(p, q)` of `x · w`, scaled by the column's entry of row `p`. -/
def sp (x : (Sh M K).Idx → EReal) (w : (Sh K N).Idx → EReal) (d : (Sh M 1).Idx → EReal) (p : Fin M) (q : Fin N) : EReal :=
  (∑ k : Fin K, x (ix2 p k) * w (ix2 k q)) * d (ix2 p (0 : Fin 1))

/-- The product `x · w` with every row scaled by its entry of the column `d`. -/
def scaledProduct (x : (Sh M K).Idx → EReal) (w : (Sh K N).Idx → EReal) (d : (Sh M 1).Idx → EReal) : (Sh M N).Idx → EReal :=
  fun i => sp x w d ⟨(i 0).val, idx2_lt0 i⟩ ⟨(i 1).val, idx2_lt1 i⟩

theorem scaledProduct_ix2 (x : (Sh M K).Idx → EReal) (w : (Sh K N).Idx → EReal) (d : (Sh M 1).Idx → EReal) (p : Fin M) (q : Fin N) :
    scaledProduct x w d (ix2 p q) = sp x w d p q := rfl

/-- Entry `(p, k)` of the clipped affine map: the row's scale times the entry, plus the bias of column `k`, clipped at zero. -/
def act (a : (Sh M K).Idx → EReal) (d : (Sh M 1).Idx → EReal) (b : (Sh 1 K).Idx → EReal) (p : Fin M) (k : Fin K) : EReal :=
  max (d (ix2 p (0 : Fin 1)) * a (ix2 p k) + b (ix2 (0 : Fin 1) k)) 0

/-- Every entry scaled by its row's entry of `d`, shifted by its column's bias, clipped at zero. -/
def activation (a : (Sh M K).Idx → EReal) (d : (Sh M 1).Idx → EReal) (b : (Sh 1 K).Idx → EReal) : (Sh M K).Idx → EReal :=
  fun i => act a d b ⟨(i 0).val, idx2_lt0 i⟩ ⟨(i 1).val, idx2_lt1 i⟩

theorem activation_ix2 (a : (Sh M K).Idx → EReal) (d : (Sh M 1).Idx → EReal) (b : (Sh 1 K).Idx → EReal) (p : Fin M) (k : Fin K) :
    activation a d b (ix2 p k) = act a d b p k := rfl

end Gcn

end
-- ==== Proof.KI.HostFns.lean ====
/-
  The host arithmetic of the two-layer graph convolution as the program spells it, one named function per stage, at any
  value family: the edge lists with a self loop per node appended, the degree of every node (a scatter-add of ones),
  its inverse square root where positive, that vector as a column, the index normalisation before a gather (a
  negative index counts from the end), one aggregation (gather the source rows, scatter-add them at the destinations),
  a bias as a row; and the whole result of the three kernels over them.
-/
import proofs.«173932_j1915555414201_2_alg».proof.Proof.Spec
import proofs.«173932_j1915555414201_2_alg».proof.KernelIdeal

noncomputable section

namespace Cert.KernelIdeal.Hst

open Cert.KernelIdeal Idealize.ShloMosaic
open Cert.KernelIdeal.Facts₀ Cert.KernelIdeal.Facts

variable {F : FTy → Type} [FloatOps F] [Cert.KernelIdeal.Facts]

/-- The source node of every edge, the given edges first, then one self loop per node. -/
def srcOf (ei : IVec S2x500000 32) : IVec S550000 32 :=
  concatenate S550000 0 [⟨S500000, shapeCast _ (extractStridedSlice S1x500000 ![0, 0] ei slices_S2x500000_S1x500000_0_0) shapeCasts_S1x500000_S500000⟩, ⟨S50000, iotaInDim S50000 32 0⟩] concatenates_S500000_S50000_S550000_d0

/-- The destination node of every edge, likewise. -/
def dstOf (ei : IVec S2x500000 32) : IVec S550000 32 :=
  concatenate S550000 0 [⟨S500000, shapeCast _ (extractStridedSlice S1x500000 ![1, 0] ei slices_S2x500000_S1x500000_1_0) shapeCasts_S1x500000_S500000⟩, ⟨S50000, iotaInDim S50000 32 0⟩] concatenates_S500000_S50000_S550000_d0

/-- The degrees: one added at every edge's destination. -/
def degOf (dstv : IVec S550000 32) : FVec F S50000 .f32 :=
  Host.scatterAdd scatter_S50000_S550000x1_S550000_n_0_0_1 (broadcastInDim S50000 ![] bcast_S_S50000 (constant S_ .f32 0x00000000#32)) (broadcastInDim S550000x1 ![0] bcast_S550000_S550000x1_0 dstv) (broadcastInDim S550000 ![] bcast_S_S550000 (constant S_ .f32 0x3F800000#32))

/-- The inverse square root of a positive degree, zero otherwise. -/
def dinvOf (deg : FVec F S50000 .f32) : FVec F S50000 .f32 :=
  select (cmpf (F := F) .ogt deg (broadcastInDim S50000 ![] bcast_S_S50000 (constant S_ .f32 0x00000000#32))) (Host.rsqrt deg) (broadcastInDim S50000 ![] bcast_S_S50000 (id (constant S_ .f32 0x00000000#32)))

/-- A vector over the nodes as a column. -/
def dcolOf (dinv : FVec F S50000 .f32) : FVec F S50000x1 .f32 := shapeCast S50000x1 dinv shapeCasts_S50000_S50000x1

/-- The start indices of a gather: a negative index counts from the end; as a column. -/
def normIdx (v : IVec S550000 32) : IVec S550000x1 32 :=
  broadcastInDim S550000x1 ![0] bcast_S550000_S550000x1_0 (select (cmpi .slt v (broadcastInDim S550000 ![] bcast_S_S550000 (constantI S_ 32 0#32))) (addi v (broadcastInDim S550000 ![] bcast_S_S550000 (constantI S_ 32 50000#32))) v)

/-- One aggregation: every edge's source row gathered, the rows added up at the edges' destinations. -/
def aggOf (srcv dstv : IVec S550000 32) (H : FVec F S50000x256 .bf16) : FVec F S50000x256 .f32 :=
  Host.scatterAdd scatter_S50000x256_S550000x1_S550000x256_1_0_0_1 (broadcastInDim S50000x256 ![] bcast_S_S50000x256 (constant S_ .f32 0x00000000#32)) (broadcastInDim S550000x1 ![0] bcast_S550000_S550000x1_0 dstv) (extf .f32 (Host.gather gather_S50000x256_S550000x1_S550000x256_1_0_n_n_0_1_1256 H (normIdx srcv)) bitsLt_bf16_f32)

/-- A bias vector as a row. -/
def browOf (b : FVec F S256 .f32) : FVec F S1x256 .f32 := shapeCast S1x256 b shapeCasts_S256_S1x256

/-- The whole result of the three kernels and the two aggregations between them, as one function of the six
    argument arrays over the extended reals: both layers pre-scale the node rows by the inverse square roots before the
    gather and scale the aggregated rows again after it. -/
def kout (x : FVec Ideal S50000x128 .f32) (ei : IVec S2x500000 32) (w1 : FVec Ideal S128x256 .f32) (b1 : FVec Ideal S256 .f32)
    (w2 : FVec Ideal S256x256 .f32) (b2 : FVec Ideal S256 .f32) : FVec Ideal S50000x256 .f32 :=
  Gcn.activation
    (aggOf (F := Ideal) (srcOf ei) (dstOf ei)
      (Gcn.scaledProduct
        (Gcn.activation (aggOf (F := Ideal) (srcOf ei) (dstOf ei) (Gcn.scaledProduct x w1 (dcolOf (dinvOf (degOf (F := Ideal) (dstOf ei))))))
          (dcolOf (dinvOf (degOf (F := Ideal) (dstOf ei)))) (browOf b1))
        w2 (dcolOf (dinvOf (degOf (F := Ideal) (dstOf ei))))))
    (dcolOf (dinvOf (degOf (F := Ideal) (dstOf ei)))) (browOf b2)

end Cert.KernelIdeal.Hst

end
-- ==== Proof.KI.Host.lean ====
/- What each buffer a kernel of the two-layer graph convolution reads holds when that kernel is entered, as the host
   stages' functions of the launch memory: the degree column (the inverse square roots of the degrees, self loops
   counted) at all three entries; the arguments as launched; the aggregated rows (gather at the sources, scatter-add at
   the destinations) of the previous kernel's output at the second and third entries; the biases as rows. Each stretch
   of host operations is read off by unfolding its fold at the buffer asked for; a buffer a stretch or a kernel does
   not write is carried through it unchanged. -/
import proofs.«173932_j1915555414201_2_alg».proof.Proof.KI.Run
import proofs.«173932_j1915555414201_2_alg».proof.Proof.KI.HostFns

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.Sem
open Idealize.ShloMosaic.StableHlo
open Idealize.ShloMosaic.Pipeline (Dat Cfg Window)

variable {F : FTy → Type} [FloatOps F]
variable (m : (ℓ : Loc nD τ sig) → Buf (Elt F) ℓ) (ρ : Dev nD → PrngReg)

/-! ## Carrying a buffer through the stretches and kernels that do not write it -/

/-- The second and third stretches (the select and the reshape to a column) leave alone what they do not write. -/
theorem W3_of_W1 (c : Dev nD) (b : Ref sig .tc) (h1 : b ∉ hostOps0_1_W := by decide) (h2 : b ∉ hostOps0_2_W := by decide) :
    W3 m ρ c (Proc.devRef .tc b) = W1 m ρ c (Proc.devRef .tc b) :=
  (StableHlo.after_of_writes_sub hostOps0_2 _ hostOps0_2_writes h2).trans (StableHlo.after_of_writes_sub hostOps0_1 _ hostOps0_1_writes h1)

/-- A buffer no host operation before the first kernel writes holds its launch contents at that kernel's entry. -/
theorem W3_of_W0 (c : Dev nD) (b : Ref sig .tc) (h0 : b ∉ hostOps0_W := by decide) (h1 : b ∉ hostOps0_1_W := by decide)
    (h2 : b ∉ hostOps0_2_W := by decide) : W3 m ρ c (Proc.devRef .tc b) = m ((c : Thread nD τ).loc b) :=
  (W3_of_W1 m ρ c b h1 h2).trans (StableHlo.after_of_writes_sub hostOps0 _ hostOps0_writes h0)

/-- The first kernel writes its output only. -/
theorem W5_of_W3 (c : Dev nD) (b : Ref sig .tc) (hk : b ≠ main_v16 := by decide) (h : b ∉ hostOps1_W := by decide) :
    W5 m ρ c (Proc.devRef .tc b) = W3 m ρ c (Proc.devRef .tc b) :=
  (StableHlo.after_of_writes_sub hostOps1 _ hostOps1_writes h).trans (W4_of_ne' m ρ c b hk)

/-- The second kernel writes its output only. -/
theorem W7_of_W5 (c : Dev nD) (b : Ref sig .tc) (hk : b ≠ main_v29 := by decide) (h : b ∉ hostOps2_W := by decide) :
    W7 m ρ c (Proc.devRef .tc b) = W5 m ρ c (Proc.devRef .tc b) :=
  (StableHlo.after_of_writes_sub hostOps2 _ hostOps2_writes h).trans (W6_of_ne m ρ c b hk)

/-! ## The first stretch: edge lists with self loops, the degree column -/

theorem W1_v3 (c : Dev nD) : W1 m ρ c (Proc.devRef .tc main_v3) = Hst.srcOf (m ((c : Thread nD τ).loc main_arg1)) := by
  after_results; rfl
theorem W1_v6 (c : Dev nD) : W1 m ρ c (Proc.devRef .tc main_v6) = Hst.dstOf (m ((c : Thread nD τ).loc main_arg1)) := by
  after_results; rfl
/-- The degree column at the first kernel's entry. -/
theorem W3_v15 (c : Dev nD) : W3 m ρ c (Proc.devRef .tc main_v15) = Hst.dcolOf (Hst.dinvOf (Hst.degOf (Hst.dstOf (m ((c : Thread nD τ).loc main_arg1))))) := by
  after_results; rfl

/-- The edge lists stay as built up to the second kernel's exit. -/
theorem W3_v3 (c : Dev nD) : W3 m ρ c (Proc.devRef .tc main_v3) = Hst.srcOf (m ((c : Thread nD τ).loc main_arg1)) := (W3_of_W1 m ρ c main_v3).trans (W1_v3 m ρ c)
theorem W3_v6 (c : Dev nD) : W3 m ρ c (Proc.devRef .tc main_v6) = Hst.dstOf (m ((c : Thread nD τ).loc main_arg1)) := (W3_of_W1 m ρ c main_v6).trans (W1_v6 m ρ c)
theorem W4_v3 (c : Dev nD) : W4 m ρ c (Proc.devRef .tc main_v3) = Hst.srcOf (m ((c : Thread nD τ).loc main_arg1)) := (W4_of_ne' m ρ c main_v3).trans (W3_v3 m ρ c)
theorem W4_v6 (c : Dev nD) : W4 m ρ c (Proc.devRef .tc main_v6) = Hst.dstOf (m ((c : Thread nD τ).loc main_arg1)) := (W4_of_ne' m ρ c main_v6).trans (W3_v6 m ρ c)
theorem W6_v3 (c : Dev nD) : W6 m ρ c (Proc.devRef .tc main_v3) = Hst.srcOf (m ((c : Thread nD τ).loc main_arg1)) :=
  (W6_of_ne m ρ c main_v3 (by decide)).trans ((W5_of_W3 m ρ c main_v3).trans (W3_v3 m ρ c))
theorem W6_v6 (c : Dev nD) : W6 m ρ c (Proc.devRef .tc main_v6) = Hst.dstOf (m ((c : Thread nD τ).loc main_arg1)) :=
  (W6_of_ne m ρ c main_v6 (by decide)).trans ((W5_of_W3 m ρ c main_v6).trans (W3_v6 m ρ c))

/-! ## The first kernel's entry -/

theorem V3_v15 (c : Dev nD) : V3 m ρ c main_v15 = Hst.dcolOf (Hst.dinvOf (Hst.degOf (Hst.dstOf (m ((c : Thread nD τ).loc main_arg1))))) := W3_v15 m ρ c
theorem V3_arg0 (c : Dev nD) : V3 m ρ c main_arg0 = m ((c : Thread nD τ).loc main_arg0) := W3_of_W0 m ρ c main_arg0
theorem V3_arg2 (c : Dev nD) : V3 m ρ c main_arg2 = m ((c : Thread nD τ).loc main_arg2) := W3_of_W0 m ρ c main_arg2

/-! ## The second kernel's entry -/

theorem V5_v15 (c : Dev nD) : V5 m ρ c main_v15 = Hst.dcolOf (Hst.dinvOf (Hst.degOf (Hst.dstOf (m ((c : Thread nD τ).loc main_arg1))))) :=
  (W5_of_W3 m ρ c main_v15).trans (W3_v15 m ρ c)
theorem V5_arg4 (c : Dev nD) : V5 m ρ c main_arg4 = m ((c : Thread nD τ).loc main_arg4) :=
  (W5_of_W3 m ρ c main_arg4).trans (W3_of_W0 m ρ c main_arg4)
/-- The aggregation as the stretch spells it, over what the first kernel left. -/
theorem W5_v27 (c : Dev nD) : W5 m ρ c (Proc.devRef .tc main_v27)
    = Hst.aggOf (W4 m ρ c (Proc.devRef .tc main_v3)) (W4 m ρ c (Proc.devRef .tc main_v6)) (W4 m ρ c (Proc.devRef .tc main_v16)) := by
  after_results; rfl
/-- The first kernel's output, aggregated. -/
theorem V5_v27 (c : Dev nD) : V5 m ρ c main_v27 = Hst.aggOf (Hst.srcOf (m ((c : Thread nD τ).loc main_arg1))) (Hst.dstOf (m ((c : Thread nD τ).loc main_arg1))) ((dat0 (V3 m ρ) c).arrAt 3 cfg0.N) := by
  rw [← W4_v3 m ρ c, ← W4_v6 m ρ c, ← W4_arr m ρ c 3]; exact W5_v27 m ρ c
theorem W5_v28 (c : Dev nD) : W5 m ρ c (Proc.devRef .tc main_v28) = Hst.browOf (W4 m ρ c (Proc.devRef .tc main_arg3)) := by
  after_results; rfl
/-- The first bias as a row. -/
theorem V5_v28 (c : Dev nD) : V5 m ρ c main_v28 = Hst.browOf (m ((c : Thread nD τ).loc main_arg3)) := by
  rw [← W3_of_W0 m ρ c main_arg3, ← W4_of_ne' m ρ c main_arg3]; exact W5_v28 m ρ c

/-! ## The third kernel's entry -/

theorem V7_v15 (c : Dev nD) : V7 m ρ c main_v15 = Hst.dcolOf (Hst.dinvOf (Hst.degOf (Hst.dstOf (m ((c : Thread nD τ).loc main_arg1))))) :=
  (W7_of_W5 m ρ c main_v15).trans (V5_v15 m ρ c)
theorem W7_v40 (c : Dev nD) : W7 m ρ c (Proc.devRef .tc main_v40)
    = Hst.aggOf (W6 m ρ c (Proc.devRef .tc main_v3)) (W6 m ρ c (Proc.devRef .tc main_v6)) (W6 m ρ c (Proc.devRef .tc main_v29)) := by
  after_results; rfl
/-- The second kernel's output, aggregated. -/
theorem V7_v40 (c : Dev nD) : V7 m ρ c main_v40 = Hst.aggOf (Hst.srcOf (m ((c : Thread nD τ).loc main_arg1))) (Hst.dstOf (m ((c : Thread nD τ).loc main_arg1))) ((dat1 (V5 m ρ) q1 c).arrAt 5 cfg1.N) := by
  rw [← W6_v3 m ρ c, ← W6_v6 m ρ c, ← W6_out m ρ c]; exact W7_v40 m ρ c
theorem W7_v41 (c : Dev nD) : W7 m ρ c (Proc.devRef .tc main_v41) = Hst.browOf (W6 m ρ c (Proc.devRef .tc main_arg5)) := by
  after_results; rfl
/-- The second bias as a row. -/
theorem V7_v41 (c : Dev nD) : V7 m ρ c main_v41 = Hst.browOf (m ((c : Thread nD τ).loc main_arg5)) :=
  (W7_v41 m ρ c).trans (congrArg Hst.browOf ((W6_of_ne m ρ c main_arg5 (by decide)).trans ((W5_of_W3 m ρ c main_arg5).trans (W3_of_W0 m ρ c main_arg5))))

end Cert.KernelIdeal.Rg
end
-- ==== Proof.LibDot.lean ====
/-
  A matrix product with one contracted axis, read at an index as a sum over the contracted extent.
  For dimension numbers that contract the left operand's axis 1 with the right operand's axis 0, with no batch
  axes — the plain product of an [M, K] matrix with a [K, N] matrix — the operand indices at result index (p, q) and
  contraction index k are (p, k) and (k, q); so the sum over the contraction shape is the sum over k < K of
  lhs (p, k) · rhs (k, q). Both a kernel's accumulating product into a zero accumulator and the host's product
  without an accumulator are that sum at the extended reals.
-/
import Idealize.ShloMosaic.Lib.ValueIdx
import Idealize.ShloMosaic.PureOps.Ideal.Laws
import Idealize.ShloMosaic.Lib.KernelVsHost

noncomputable section

namespace Idealize.ShloMosaic.LibDot

open Idealize.ShloMosaic Idealize.ShloMosaic.ValueIdx

variable {sl sr so : Shape} (d : DotDims sl sr so)

/-- A non-contracting, non-batch axis of the left operand reads the result index at its position. -/
theorem lhsIdx_val_of_non {a : Fin sl.rank} (hb : a ∉ d.lhsBatch) (hn : a ∈ d.lhsNonContracting)
    (j : so.Idx) (k : d.contr.Idx) (p : Nat) (hp : p < so.rank) (hpe : d.lhsBatch.length + d.lhsNonContracting.idxOf a = p) :
    (d.lhsIdx j k a).val = (j ⟨p, hp⟩).val := by
  subst hpe
  unfold DotDims.lhsIdx
  rw [dif_neg hb, dif_pos hn]
  rfl

/-- A non-contracting, non-batch axis of the right operand reads the result index at its position. -/
theorem rhsIdx_val_of_non {a : Fin sr.rank} (hb : a ∉ d.rhsBatch) (hn : a ∈ d.rhsNonContracting)
    (j : so.Idx) (k : d.contr.Idx) (p : Nat) (hp : p < so.rank)
    (hpe : d.lhsBatch.length + d.lhsNonContracting.length + d.rhsNonContracting.idxOf a = p) :
    (d.rhsIdx j k a).val = (j ⟨p, hp⟩).val := by
  subst hpe
  unfold DotDims.rhsIdx
  rw [dif_neg hb, dif_pos hn]
  rfl

/-- The plain product's sum over the contraction shape is the sum over the contracted extent. -/
theorem sum_plain {M K N : ℕ} (d : DotDims ⟨2, ![M, K]⟩ ⟨2, ![K, N]⟩ ⟨2, ![M, N]⟩)
    (hlc : d.lhsContracting = [1]) (hrc : d.rhsContracting = [0])
    (hlb : d.lhsBatch = []) (hrb : d.rhsBatch = []) (hln : d.lhsNonContracting = [0]) (hrn : d.rhsNonContracting = [1])
    (lhs : (⟨2, ![M, K]⟩ : Shape).Idx → EReal) (rhs : (⟨2, ![K, N]⟩ : Shape).Idx → EReal) (p : Fin M) (q : Fin N) :
    ∑ k : d.contr.Idx, lhs (d.lhsIdx (ix2 p q) k) * rhs (d.rhsIdx (ix2 p q) k) = ∑ k : Fin K, lhs (ix2 p k) * rhs (ix2 k q) := by
  have hr : d.contr.rank = 1 := by rw [d.rank_contr, hlc]; rfl
  have hs : d.contr.size ⟨0, by omega⟩ = K := by
    have h := d.size_contr 0 (by rw [hlc]; exact Nat.one_pos)
    simp only [hlc, List.getElem_cons_zero] at h
    exact h
  refine ((Equiv.sum_comp (contrEquiv1 d K hr hs).symm _).symm).trans ?_
  refine Finset.sum_congr rfl fun k _ => ?_
  have hl : d.lhsIdx (ix2 p q) ((contrEquiv1 d K hr hs).symm k) = ix2 p k := by
    funext a; apply Fin.ext
    match a with
    | ⟨0, _⟩ =>
      exact lhsIdx_val_of_non d (a := 0) (by rw [hlb]; exact List.not_mem_nil) (by rw [hln]; exact List.mem_singleton.mpr rfl) _ _ 0 (Nat.zero_lt_two)
        (by rw [hlb, hln]; rfl)
    | ⟨1, _⟩ =>
      exact (d.lhsIdx_val_of_single (cl := 1) hlc _ _).trans (contrEquiv1_symm_val d K hr hs k)
  have hrr : d.rhsIdx (ix2 p q) ((contrEquiv1 d K hr hs).symm k) = ix2 k q := by
    funext a; apply Fin.ext
    match a with
    | ⟨0, _⟩ =>
      exact (d.rhsIdx_val_of_single (cr := 0) hrc _ _).trans (contrEquiv1_symm_val d K hr hs k)
    | ⟨1, _⟩ =>
      exact rhsIdx_val_of_non d (a := 1) (by rw [hrb]; exact List.not_mem_nil) (by rw [hrn]; exact List.mem_singleton.mpr rfl) _ _ 1 (Nat.one_lt_two)
        (by rw [hlb, hln, hrn]; rfl)
  rw [hl, hrr]

/-- A kernel's product accumulated into the zero splat, read at (p, q). -/
theorem matmul_zero_plain {M K N : ℕ} {φ₁ φ₂ : FTy} (d : DotDims ⟨2, ![M, K]⟩ ⟨2, ![K, N]⟩ ⟨2, ![M, N]⟩)
    (hlc : d.lhsContracting = [1]) (hrc : d.rhsContracting = [0])
    (hlb : d.lhsBatch = []) (hrb : d.rhsBatch = []) (hln : d.lhsNonContracting = [0]) (hrn : d.rhsNonContracting = [1])
    (prec : Option ContractPrecision) (lhs : FVec Ideal ⟨2, ![M, K]⟩ φ₁) (rhs : FVec Ideal ⟨2, ![K, N]⟩ φ₂) (p : Fin M) (q : Fin N) :
    matmul d prec lhs rhs (constant ⟨2, ![M, N]⟩ .f32 0x00000000#32) (ix2 p q) = ∑ k : Fin K, lhs (ix2 p k) * rhs (ix2 k q) :=
  (Ideal.matmul_constant_zero_apply d prec lhs rhs (ix2 p q)).trans (sum_plain d hlc hrc hlb hrb hln hrn lhs rhs p q)

/-- The host's product, read at (p, q). -/
theorem dotGeneral_plain {M K N : ℕ} {φ₁ φ₂ : FTy} (d : DotDims ⟨2, ![M, K]⟩ ⟨2, ![K, N]⟩ ⟨2, ![M, N]⟩)
    (hlc : d.lhsContracting = [1]) (hrc : d.rhsContracting = [0])
    (hlb : d.lhsBatch = []) (hrb : d.rhsBatch = []) (hln : d.lhsNonContracting = [0]) (hrn : d.rhsNonContracting = [1])
    (prec : Option ContractPrecision) (lhs : FVec Ideal ⟨2, ![M, K]⟩ φ₁) (rhs : FVec Ideal ⟨2, ![K, N]⟩ φ₂) (p : Fin M) (q : Fin N) :
    Host.dotGeneral d prec lhs rhs (ix2 p q) = ∑ k : Fin K, lhs (ix2 p k) * rhs (ix2 k q) := by
  rw [← matmul_zero_eq_dotGeneral]
  exact matmul_zero_plain d hlc hrc hlb hrb hln hrn prec lhs rhs p q

end Idealize.ShloMosaic.LibDot

end
-- ==== Proof.LibColumn.lean ====
/-
  General lemmas about rank-2 vectors, at any extents.

  * Keepdims column forms: an `[a]` vector cast to `[a, 1]` reads, at `(p, u)`, the vector at `p`; an `[a, 1]`
    column broadcast to `[a, b]` reads, at `(p, q)`, the column at `(p, 0)`.
  * Inserting coordinate `k` on the reduced second axis of an `[a, b]` vector at reduced index `p` gives `(p, k)`.
-/
import Idealize.ShloMosaic.Lib.Pipeline.Value
import Idealize.ShloMosaic.Lib.ValueIdx
import Idealize.ShloMosaic.Lib.ValueLayout
import Idealize.ShloMosaic.PureOps.Ideal.Laws

noncomputable section

namespace Cert.LibColumn

open Idealize.ShloMosaic Idealize.ShloMosaic.ValueIdx

variable {α : Type}

/-- An `[a]` vector cast to a column `[a, 1]` reads, at `(p, u)`, the vector at `p`, whatever the unit coordinate. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, q)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- Reducing the second axis of `[a, b]` to `[a]`: the reduced index `p` with coordinate `k` put back is `(p, k)`. -/
theorem lift_row {a b : ℕ} (h : (⟨2, ![a, b]⟩ : Shape).Reduces [1] ⟨1, ![a]⟩) (p : Fin a) (k : Fin b) :
    h.lift (ix1 p) k = ix2 p k :=
  funext fun ax => Fin.ext (by
    match ax with
    | ⟨0, _⟩ => rfl
    | ⟨1, _⟩ => rfl)

end Cert.LibColumn

end
-- ==== Proof.KI.Val0.lean ====
import proofs.«173932_j1915555414201_2_alg».proof.Proof.KI.R0
import proofs.«173932_j1915555414201_2_alg».proof.Proof.Spec
import proofs.«173932_j1915555414201_2_alg».proof.Proof.LibDot
import proofs.«173932_j1915555414201_2_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Rg

open Cert.KernelIdeal Cert.KernelIdeal.Gen
open Idealize.ShloMosaic Idealize.ShloMosaic.TcCoe Idealize.SL.Sem
open Idealize.ShloMosaic.ValueIdx
open Idealize.ShloMosaic.Pipeline (Dat)

/-! # Region 0, read: the output array ends holding the row-scaled matrix product, index by index

At the extended reals. The body's payload at `(p, q)` is the sum over the contracted axis of the products of the two
loaded blocks, times the scale column's entry of row `p`; the row-blocked windows' blocks are rows `t * 2000 …` of
their arrays and the second factor is staged whole; so what grid point `t` writes back is block `t` of one
whole-array function, and the 25 blocks of 2000 rows fill the 50000 rows. -/

theorem hz0 : (![0, 0] : Fin 2 → Nat) = fun _ => 0 := funext fun a => by fin_cases a <;> rfl

/-- The payload at `(p, q)`: the contraction's sum, scaled by the column's entry of row `p` (the roundings are the
    identity at the extended reals). -/
theorem pay0_apply (x0 : Vec Ideal S2000x128 .f32) (x1 : Vec Ideal S128x256 .f32) (x2 : Vec Ideal S2000x1 .f32) (p : Fin 2000) (q : Fin 256) :
    k0_pay1 x0 x1 x2 (ix2 p q) = (∑ k : Fin 128, x0 (ix2 p k) * x1 (ix2 k q)) * x2 (ix2 p (0 : Fin 1)) := by
  unfold k0_pay1
  refine (truncf_apply (ψ := .bf16) (φ := .f32) _ bitsLt_bf16_f32 (ix2 p q)).trans ?_
  refine (mulf_apply _ _ _).trans ?_
  refine congrArg₂ (· * ·) ?_ ?_
  · refine (LibDot.matmul_zero_plain dot_S2000x128_S128x256_S2000x256_1_0_0_1_n_n rfl rfl rfl rfl rfl rfl none _ _ p q).trans ?_
    exact Finset.sum_congr rfl fun k _ => rfl
  · refine (Cert.LibColumn.broadcastTo_a1_ab_apply _ _ p q).trans ?_
    rw [shapeCast_self]

/-- The index maps, decided over the 25 grid points: a row-blocked window is at block `(t, 0)`, a whole one at `(0, 0)`. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-! ## Where a block's element sits in its array: block index times block size plus its own coordinate -/

theorem emb0_0 (t : Fin cfg0.N) (p : Fin 2000) (q : Fin 128) (h : t.val * 2000 + p.val < 50000) :
    ((cfg0.win 0).blk t).view.emb (ix2 p q) = (ix2 (⟨t.val * 2000 + p.val, h⟩ : Fin 50000) q : S50000x128.Idx) := by
  obtain ⟨e0, e1, -⟩ := idx0 t
  funext a; apply Fin.ext
  match a with
  | ⟨0, _⟩ => show win0_0.index t (0 : Fin 2) * 2000 + 1 * p.val = t.val * 2000 + p.val; rw [e0]; omega
  | ⟨1, _⟩ => show win0_0.index t (1 : Fin 2) * 128 + 1 * q.val = q.val; rw [e1]; omega

theorem emb0_1 (t : Fin cfg0.N) (p : Fin 128) (q : Fin 256) :
    ((cfg0.win 1).blk t).view.emb (ix2 p q) = (ix2 p q : S128x256.Idx) := by
  obtain ⟨-, -, e0, e1, -⟩ := idx0 t
  funext a; apply Fin.ext
  match a with
  | ⟨0, _⟩ => show win0_1.index t (0 : Fin 2) * 128 + 1 * p.val = p.val; rw [e0]; omega
  | ⟨1, _⟩ => show win0_1.index t (1 : Fin 2) * 256 + 1 * q.val = q.val; rw [e1]; omega

theorem emb0_2 (t : Fin cfg0.N) (p : Fin 2000) (q : Fin 1) (h : t.val * 2000 + p.val < 50000) :
    ((cfg0.win 2).blk t).view.emb (ix2 p q) = (ix2 (⟨t.val * 2000 + p.val, h⟩ : Fin 50000) q : S50000x1.Idx) := by
  obtain ⟨-, -, -, -, e0, e1, -⟩ := idx0 t
  funext a; apply Fin.ext
  match a with
  | ⟨0, _⟩ => show win0_2.index t (0 : Fin 2) * 2000 + 1 * p.val = t.val * 2000 + p.val; rw [e0]; omega
  | ⟨1, _⟩ => show win0_2.index t (1 : Fin 2) * 1 + 1 * q.val = q.val; rw [e1]; omega

theorem emb0_3 (t : Fin cfg0.N) (p : Fin 2000) (q : Fin 256) (h : t.val * 2000 + p.val < 50000) :
    ((cfg0.win 3).blk t).view.emb (ix2 p q) = (ix2 (⟨t.val * 2000 + p.val, h⟩ : Fin 50000) q : S50000x256.Idx) := by
  obtain ⟨-, -, -, -, -, -, e0, e1⟩ := idx0 t
  funext a; apply Fin.ext
  match a with
  | ⟨0, _⟩ => show win0_3.index t (0 : Fin 2) * 2000 + 1 * p.val = t.val * 2000 + p.val; rw [e0]; omega
  | ⟨1, _⟩ => show win0_3.index t (1 : Fin 2) * 256 + 1 * q.val = q.val; rw [e1]; omega

variable (V : (c : Dev nD) → (b : Ref sig .tc) → Buf (Elt Ideal) ((c : Thread nD τ).loc b))

/-! ## The input blocks at an index -/

theorem iblk0_0_apply (c : Dev nD) (t : Fin cfg0.N) (p : Fin 2000) (q : Fin 128) (h : t.val * 2000 + p.val < 50000) :
    iblk0 V c 0 t (ix2 p q) = V c main_arg0 (ix2 (⟨t.val * 2000 + p.val, h⟩ : Fin 50000) q) := by
  unfold iblk0
  show V c main_arg0 (((cfg0.win 0).blk t).view.emb (ix2 p q)) = _
  rw [emb0_0 t p q h]

theorem iblk0_1_apply (c : Dev nD) (t : Fin cfg0.N) (p : Fin 128) (q : Fin 256) :
    iblk0 V c 1 t (ix2 p q) = V c main_arg2 (ix2 p q) := by
  unfold iblk0
  show V c main_arg2 (((cfg0.win 1).blk t).view.emb (ix2 p q)) = _
  rw [emb0_1 t p q]

theorem iblk0_2_apply (c : Dev nD) (t : Fin cfg0.N) (p : Fin 2000) (q : Fin 1) (h : t.val * 2000 + p.val < 50000) :
    iblk0 V c 2 t (ix2 p q) = V c main_v15 (ix2 (⟨t.val * 2000 + p.val, h⟩ : Fin 50000) q) := by
  unfold iblk0
  show V c main_v15 (((cfg0.win 2).blk t).view.emb (ix2 p q)) = _
  rw [emb0_2 t p q h]

/-! ## What a point writes back -/

/-- What point `t` writes back is block `t` of the whole-array function of the arrays as the region finds them. -/
theorem flushed0_eq (c : Dev nD) (t : Fin cfg0.N) :
    (dat0 V c).flushed 3 t = ((cfg0.win 3).blk t).view.read (Elt Ideal) (Gcn.scaledProduct (V c main_arg0) (V c main_arg2) (V c main_v15)) := by
  show (cfg0.win 3).cut (grid0.coords t) ((dat0 V c).after 3 t) = _
  rw [after0_3]
  unfold out0_3
  rw [View.canon_unit_zero hz0]
  simp only [View.ld_unit_zero (S := S2000x128) hz0, View.ld_unit_zero (S := S128x256) hz0, View.ld_unit_zero (S := S2000x1) hz0]
  have ht : t.val < 25 := lt_of_lt_of_eq t.isLt N_0
  funext j
  show k0_pay1 (iblk0 V c 0 t) (iblk0 V c 1 t) (iblk0 V c 2 t) j
    = Gcn.scaledProduct (V c main_arg0) (V c main_arg2) (V c main_v15) (((cfg0.win 3).blk t).view.emb j)
  obtain ⟨p, q, rfl⟩ : ∃ (p : Fin 2000) (q : Fin 256), j = ix2 p q := ⟨j 0, j 1, eq_ix2 j⟩
  have hb : t.val * 2000 + p.val < 50000 := by have := p.isLt; omega
  rw [emb0_3 t p q hb]
  refine (pay0_apply _ _ _ p q).trans ?_
  rw [Gcn.scaledProduct_ix2]
  unfold Gcn.sp
  refine congrArg₂ (· * ·) (Finset.sum_congr rfl fun k _ => ?_) (iblk0_2_apply V c t p 0 hb)
  rw [iblk0_0_apply V c t p k hb, iblk0_1_apply V c t k q]

/-! ## The blocks fill the array -/

/-- An index of the array is in point `t`'s block iff each coordinate is in the block's range on its axis. -/
theorem mem_blk0 (t : Fin cfg0.N) (i : S50000x256.Idx) :
    i ∈ ((cfg0.win 3).blk t).view.set ↔ ∀ a : Fin 2, win0_3.index t a * S2000x256.size a ≤ (i a).val ∧ (i a).val < win0_3.index t a * S2000x256.size a + S2000x256.size a := by
  show i ∈ ((View.whole main_v16).slice (win0_3.rect t)).set ↔ _
  rw [View.set_slice_whole, Rect.mem_set_unit]
  exact Iff.rfl

/-- Row `r` is in block `r / 2000`. -/
theorem cover0 (i : S50000x256.Idx) : ∃ t : Fin cfg0.N, (cfg0.win 3).flush t = true ∧ i ∈ ((cfg0.win 3).blk t).view.set := by
  have hi0 : (i 0).val < 50000 := (i 0).isLt
  have hi1 : (i 1).val < 256 := (i 1).isLt
  have hN : cfg0.N = 25 := N_0
  have hlt : (i 0).val / 2000 < cfg0.N := by rw [hN]; omega
  refine ⟨⟨(i 0).val / 2000, hlt⟩, flush0_3 _, ?_⟩
  rw [mem_blk0]
  obtain ⟨-, -, -, -, -, -, e0, e1⟩ := idx0 ⟨(i 0).val / 2000, hlt⟩
  intro a
  match a with
  | ⟨0, _⟩ =>
    show win0_3.index ⟨(i 0).val / 2000, hlt⟩ (0 : Fin 2) * 2000 ≤ (i 0).val ∧ (i 0).val < win0_3.index ⟨(i 0).val / 2000, hlt⟩ (0 : Fin 2) * 2000 + 2000
    rw [e0]
    show (i 0).val / 2000 * 2000 ≤ (i 0).val ∧ (i 0).val < (i 0).val / 2000 * 2000 + 2000
    omega
  | ⟨1, _⟩ =>
    show win0_3.index ⟨(i 0).val / 2000, hlt⟩ (1 : Fin 2) * 256 ≤ (i 1).val ∧ (i 1).val < win0_3.index ⟨(i 0).val / 2000, hlt⟩ (1 : Fin 2) * 256 + 256
    rw [e1]
    omega

/-- The output array after the region: the whole-array function of the arrays the region found. -/
theorem final0 (c : Dev nD) : (dat0 (F := Ideal) V c).arrAt 3 cfg0.N = Gcn.scaledProduct (V c main_arg0) (V c main_arg2) (V c main_v15) :=
  (dat0 V c).arrAt_eq_of_cover 3 (Gcn.scaledProduct (V c main_arg0) (V c main_arg2) (V c main_v15)) (fun t _ => flushed0_eq V c t) cover0

end Cert.KernelIdeal.Rg

end
-- ==== Proof.KI.Val1.lean ====
import proofs.«173932_j1915555414201_2_alg».proof.Proof.KI.R1
import proofs.«173932_j1915555414201_2_alg».proof.Proof.Spec
import proofs.«173932_j1915555414201_2_alg».proof.Proof.LibDot
import proofs.«173932_j1915555414201_2_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Rg

open Cert.KernelIdeal Cert.KernelIdeal.Gen
open Idealize.ShloMosaic Idealize.ShloMosaic.TcCoe Idealize.SL.Sem
open Idealize.ShloMosaic.ValueIdx
open Idealize.SL Idealize.SL.RA
open Idealize.ShloMosaic.Pipeline (Dat)

/-! # Region 1, read: the output array ends holding the row-scaled product of the clipped affine first factor, index by index

At the extended reals. The body's payload at `(p, q)` is the sum over the contracted axis of the clipped, scaled and
shifted entries of row `p` times the second factor's column `q`, times the scale column's entry of row `p`; the
row-blocked windows' blocks are rows `t * 2000 …` of their arrays, the bias row and the second factor are staged
whole; so what grid point `t` writes back is block `t` of one whole-array function, and the 25 blocks of 2000 rows
fill the 50000 rows. -/

theorem hz1 : (![0, 0] : Fin 2 → Nat) = fun _ => 0 := funext fun a => by fin_cases a <;> rfl

/-- The payload at `(p, r)` (the roundings are the identity at the extended reals). -/
theorem pay1_apply (v0 : Vec Ideal S2000x1 .f32) (v2 : Vec Ideal S2000x256 .f32) (v6 : Vec Ideal S1x256 .f32) (v13 : Vec Ideal S256x256 .f32)
    (v16 : Vec Ideal S2000x1 .f32) (p : Fin 2000) (r : Fin 256) :
    k1_pay1 v0 v2 v6 v13 v16 (ix2 p r)
      = (∑ k : Fin 256, max (v0 (ix2 p (0 : Fin 1)) * v2 (ix2 p k) + v6 (ix2 (0 : Fin 1) k)) 0 * v13 (ix2 k r)) * v16 (ix2 p (0 : Fin 1)) := by
  unfold k1_pay1
  refine (truncf_apply (ψ := .bf16) (φ := .f32) _ bitsLt_bf16_f32 (ix2 p r)).trans ?_
  refine (mulf_apply _ _ _).trans ?_
  refine congrArg₂ (· * ·) ?_ ?_
  · refine (LibDot.matmul_zero_plain dot_S2000x256_S256x256_S2000x256_1_0_0_1_n_n rfl rfl rfl rfl rfl rfl none _ _ p r).trans ?_
    refine Finset.sum_congr rfl fun k _ => ?_
    refine congrArg₂ (· * ·) ?_ rfl
    refine (truncf_apply (ψ := .bf16) (φ := .f32) _ bitsLt_bf16_f32 (ix2 p k)).trans ?_
    refine (maximumf_apply _ _ _).trans ?_
    refine congrArg₂ max ?_ ?_
    · refine (addf_apply _ _ _).trans ?_
      refine congrArg₂ (· + ·) ?_ ?_
      · refine (mulf_apply _ _ _).trans ?_
        refine congrArg₂ (· * ·) ?_ ?_
        · refine (Cert.LibColumn.broadcastTo_a1_ab_apply _ _ p k).trans ?_
          rw [shapeCast_self]
        · rw [shapeCast_self]
      · refine (broadcastTo_1b_ab_apply _ _ p k).trans ?_
        rw [shapeCast_self]
    · exact Ideal.ofBits_zero_f32
  · refine (Cert.LibColumn.broadcastTo_a1_ab_apply _ _ p r).trans ?_
    rw [shapeCast_self]

/-- The index maps, decided over the 25 grid points: a row-blocked window is at block `(t, 0)`, a whole one at `(0, 0)`. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

/-! ## Where a block's element sits in its array: block index times block size plus its own coordinate -/

theorem emb1_0 (t : Fin cfg1.N) (p : Fin 2000) (q : Fin 256) (h : t.val * 2000 + p.val < 50000) :
    ((cfg1.win 0).blk t).view.emb (ix2 p q) = (ix2 (⟨t.val * 2000 + p.val, h⟩ : Fin 50000) q : S50000x256.Idx) := by
  obtain ⟨e0, e1, -⟩ := idx1 t
  funext a; apply Fin.ext
  match a with
  | ⟨0, _⟩ => show win1_0.index t (0 : Fin 2) * 2000 + 1 * p.val = t.val * 2000 + p.val; rw [e0]; omega
  | ⟨1, _⟩ => show win1_0.index t (1 : Fin 2) * 256 + 1 * q.val = q.val; rw [e1]; omega

theorem emb1_1 (t : Fin cfg1.N) (p : Fin 2000) (q : Fin 1) (h : t.val * 2000 + p.val < 50000) :
    ((cfg1.win 1).blk t).view.emb (ix2 p q) = (ix2 (⟨t.val * 2000 + p.val, h⟩ : Fin 50000) q : S50000x1.Idx) := by
  obtain ⟨-, -, e0, e1, -⟩ := idx1 t
  funext a; apply Fin.ext
  match a with
  | ⟨0, _⟩ => show win1_1.index t (0 : Fin 2) * 2000 + 1 * p.val = t.val * 2000 + p.val; rw [e0]; omega
  | ⟨1, _⟩ => show win1_1.index t (1 : Fin 2) * 1 + 1 * q.val = q.val; rw [e1]; omega

theorem emb1_2 (t : Fin cfg1.N) (p : Fin 1) (q : Fin 256) :
    ((cfg1.win 2).blk t).view.emb (ix2 p q) = (ix2 p q : S1x256.Idx) := by
  obtain ⟨-, -, -, -, e0, e1, -⟩ := idx1 t
  funext a; apply Fin.ext
  match a with
  | ⟨0, _⟩ => show win1_2.index t (0 : Fin 2) * 1 + 1 * p.val = p.val; rw [e0]; omega
  | ⟨1, _⟩ => show win1_2.index t (1 : Fin 2) * 256 + 1 * q.val = q.val; rw [e1]; omega

theorem emb1_3 (t : Fin cfg1.N) (p : Fin 256) (q : Fin 256) :
    ((cfg1.win 3).blk t).view.emb (ix2 p q) = (ix2 p q : S256x256.Idx) := by
  obtain ⟨-, -, -, -, -, -, e0, e1, -⟩ := idx1 t
  funext a; apply Fin.ext
  match a with
  | ⟨0, _⟩ => show win1_3.index t (0 : Fin 2) * 256 + 1 * p.val = p.val; rw [e0]; omega
  | ⟨1, _⟩ => show win1_3.index t (1 : Fin 2) * 256 + 1 * q.val = q.val; rw [e1]; omega

theorem emb1_4 (t : Fin cfg1.N) (p : Fin 2000) (q : Fin 1) (h : t.val * 2000 + p.val < 50000) :
    ((cfg1.win 4).blk t).view.emb (ix2 p q) = (ix2 (⟨t.val * 2000 + p.val, h⟩ : Fin 50000) q : S50000x1.Idx) := by
  obtain ⟨-, -, -, -, -, -, -, -, e0, e1, -⟩ := idx1 t
  funext a; apply Fin.ext
  match a with
  | ⟨0, _⟩ => show win1_4.index t (0 : Fin 2) * 2000 + 1 * p.val = t.val * 2000 + p.val; rw [e0]; omega
  | ⟨1, _⟩ => show win1_4.index t (1 : Fin 2) * 1 + 1 * q.val = q.val; rw [e1]; omega

theorem emb1_5 (t : Fin cfg1.N) (p : Fin 2000) (q : Fin 256) (h : t.val * 2000 + p.val < 50000) :
    ((cfg1.win 5).blk t).view.emb (ix2 p q) = (ix2 (⟨t.val * 2000 + p.val, h⟩ : Fin 50000) q : S50000x256.Idx) := by
  obtain ⟨-, -, -, -, -, -, -, -, -, -, e0, e1⟩ := idx1 t
  funext a; apply Fin.ext
  match a with
  | ⟨0, _⟩ => show win1_5.index t (0 : Fin 2) * 2000 + 1 * p.val = t.val * 2000 + p.val; rw [e0]; omega
  | ⟨1, _⟩ => show win1_5.index t (1 : Fin 2) * 256 + 1 * q.val = q.val; rw [e1]; omega

variable (V : (c : Dev nD) → (b : Ref sig .tc) → Buf (Elt Ideal) ((c : Thread nD τ).loc b))

/-! ## The input blocks at an index -/

theorem iblk1_0_apply (c : Dev nD) (t : Fin cfg1.N) (p : Fin 2000) (q : Fin 256) (h : t.val * 2000 + p.val < 50000) :
    iblk1 V c 0 t (ix2 p q) = V c main_v27 (ix2 (⟨t.val * 2000 + p.val, h⟩ : Fin 50000) q) := by
  unfold iblk1
  show V c main_v27 (((cfg1.win 0).blk t).view.emb (ix2 p q)) = _
  rw [emb1_0 t p q h]

theorem iblk1_1_apply (c : Dev nD) (t : Fin cfg1.N) (p : Fin 2000) (q : Fin 1) (h : t.val * 2000 + p.val < 50000) :
    iblk1 V c 1 t (ix2 p q) = V c main_v15 (ix2 (⟨t.val * 2000 + p.val, h⟩ : Fin 50000) q) := by
  unfold iblk1
  show V c main_v15 (((cfg1.win 1).blk t).view.emb (ix2 p q)) = _
  rw [emb1_1 t p q h]

theorem iblk1_2_apply (c : Dev nD) (t : Fin cfg1.N) (p : Fin 1) (q : Fin 256) :
    iblk1 V c 2 t (ix2 p q) = V c main_v28 (ix2 p q) := by
  unfold iblk1
  show V c main_v28 (((cfg1.win 2).blk t).view.emb (ix2 p q)) = _
  rw [emb1_2 t p q]

theorem iblk1_3_apply (c : Dev nD) (t : Fin cfg1.N) (p : Fin 256) (q : Fin 256) :
    iblk1 V c 3 t (ix2 p q) = V c main_arg4 (ix2 p q) := by
  unfold iblk1
  show V c main_arg4 (((cfg1.win 3).blk t).view.emb (ix2 p q)) = _
  rw [emb1_3 t p q]

theorem iblk1_4_apply (c : Dev nD) (t : Fin cfg1.N) (p : Fin 2000) (q : Fin 1) (h : t.val * 2000 + p.val < 50000) :
    iblk1 V c 4 t (ix2 p q) = V c main_v15 (ix2 (⟨t.val * 2000 + p.val, h⟩ : Fin 50000) q) := by
  unfold iblk1
  show V c main_v15 (((cfg1.win 4).blk t).view.emb (ix2 p q)) = _
  rw [emb1_4 t p q h]

/-! ## What a point writes back -/

/-- What point `t` writes back is block `t` of the whole-array function of the arrays as the region finds them. -/
theorem flushed1_eq (q : Fin cfg1.W → PosShare TreeShare) (c : Dev nD) (t : Fin cfg1.N) :
    (dat1 V q c).flushed 5 t = ((cfg1.win 5).blk t).view.read (Elt Ideal)
      (Gcn.scaledProduct (Gcn.activation (V c main_v27) (V c main_v15) (V c main_v28)) (V c main_arg4) (V c main_v15)) := by
  show (cfg1.win 5).cut (grid1.coords t) ((dat1 V q c).after 5 t) = _
  rw [after1_5]
  unfold out1_5
  rw [View.canon_unit_zero hz1]
  simp only [View.ld_unit_zero (S := S2000x256) hz1, View.ld_unit_zero (S := S2000x1) hz1, View.ld_unit_zero (S := S1x256) hz1,
    View.ld_unit_zero (S := S256x256) hz1]
  have ht : t.val < 25 := lt_of_lt_of_eq t.isLt N_1
  funext j
  show k1_pay1 (iblk1 V c 1 t) (iblk1 V c 0 t) (iblk1 V c 2 t) (iblk1 V c 3 t) (iblk1 V c 4 t) j
    = Gcn.scaledProduct (Gcn.activation (V c main_v27) (V c main_v15) (V c main_v28)) (V c main_arg4) (V c main_v15) (((cfg1.win 5).blk t).view.emb j)
  obtain ⟨p, r, rfl⟩ : ∃ (p : Fin 2000) (r : Fin 256), j = ix2 p r := ⟨j 0, j 1, eq_ix2 j⟩
  have hb : t.val * 2000 + p.val < 50000 := by have := p.isLt; omega
  rw [emb1_5 t p r hb]
  refine (pay1_apply _ _ _ _ _ p r).trans ?_
  rw [Gcn.scaledProduct_ix2]
  unfold Gcn.sp
  refine congrArg₂ (· * ·) (Finset.sum_congr rfl fun k _ => ?_) (iblk1_4_apply V c t p 0 hb)
  rw [Gcn.activation_ix2]
  unfold Gcn.act
  rw [iblk1_1_apply V c t p 0 hb, iblk1_0_apply V c t p k hb, iblk1_2_apply V c t 0 k, iblk1_3_apply V c t k r]

/-! ## The blocks fill the array -/

/-- An index of the array is in point `t`'s block iff each coordinate is in the block's range on its axis. -/
theorem mem_blk1 (t : Fin cfg1.N) (i : S50000x256.Idx) :
    i ∈ ((cfg1.win 5).blk t).view.set ↔ ∀ a : Fin 2, win1_5.index t a * S2000x256.size a ≤ (i a).val ∧ (i a).val < win1_5.index t a * S2000x256.size a + S2000x256.size a := by
  show i ∈ ((View.whole main_v29).slice (win1_5.rect t)).set ↔ _
  rw [View.set_slice_whole, Rect.mem_set_unit]
  exact Iff.rfl

/-- Row `r` is in block `r / 2000`. -/
theorem cover1 (i : S50000x256.Idx) : ∃ t : Fin cfg1.N, (cfg1.win 5).flush t = true ∧ i ∈ ((cfg1.win 5).blk t).view.set := by
  have hi0 : (i 0).val < 50000 := (i 0).isLt
  have hi1 : (i 1).val < 256 := (i 1).isLt
  have hN : cfg1.N = 25 := N_1
  have hlt : (i 0).val / 2000 < cfg1.N := by rw [hN]; omega
  refine ⟨⟨(i 0).val / 2000, hlt⟩, flush1_5 _, ?_⟩
  rw [mem_blk1]
  obtain ⟨-, -, -, -, -, -, -, -, -, -, e0, e1⟩ := idx1 ⟨(i 0).val / 2000, hlt⟩
  intro a
  match a with
  | ⟨0, _⟩ =>
    show win1_5.index ⟨(i 0).val / 2000, hlt⟩ (0 : Fin 2) * 2000 ≤ (i 0).val ∧ (i 0).val < win1_5.index ⟨(i 0).val / 2000, hlt⟩ (0 : Fin 2) * 2000 + 2000
    rw [e0]
    show (i 0).val / 2000 * 2000 ≤ (i 0).val ∧ (i 0).val < (i 0).val / 2000 * 2000 + 2000
    omega
  | ⟨1, _⟩ =>
    show win1_5.index ⟨(i 0).val / 2000, hlt⟩ (1 : Fin 2) * 256 ≤ (i 1).val ∧ (i 1).val < win1_5.index ⟨(i 0).val / 2000, hlt⟩ (1 : Fin 2) * 256 + 256
    rw [e1]
    omega

/-- The output array after the region: the whole-array function of the arrays the region found. -/
theorem final1 (q : Fin cfg1.W → PosShare TreeShare) (c : Dev nD) : (dat1 (F := Ideal) V q c).arrAt 5 cfg1.N
    = Gcn.scaledProduct (Gcn.activation (V c main_v27) (V c main_v15) (V c main_v28)) (V c main_arg4) (V c main_v15) :=
  (dat1 V q c).arrAt_eq_of_cover 5 (Gcn.scaledProduct (Gcn.activation (V c main_v27) (V c main_v15) (V c main_v28)) (V c main_arg4) (V c main_v15))
    (fun t _ => flushed1_eq V q c t) cover1

end Cert.KernelIdeal.Rg

end
-- ==== Proof.KI.Val2.lean ====
import proofs.«173932_j1915555414201_2_alg».proof.Proof.KI.R2
import proofs.«173932_j1915555414201_2_alg».proof.Proof.Spec
import proofs.«173932_j1915555414201_2_alg».proof.Proof.LibDot
import proofs.«173932_j1915555414201_2_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Rg

open Cert.KernelIdeal Cert.KernelIdeal.Gen
open Idealize.ShloMosaic Idealize.ShloMosaic.TcCoe Idealize.SL.Sem
open Idealize.ShloMosaic.ValueIdx
open Idealize.ShloMosaic.Pipeline (Dat)

/-! # Region 2, read: the output array ends holding the scaled, shifted, clipped input, index by index

At the extended reals. The body's payload at an index is a closed expression of the loaded blocks at that row and
column; the blocks are rows `t * 2000 …` of the arrays (the bias row whole); so what grid point `t` writes back is block
`t` of one whole-array function, and the 25 blocks of 2000 rows fill the 50000 rows. -/

theorem hz2 : (![0, 0] : Fin 2 → Nat) = fun _ => 0 := funext fun a => by fin_cases a <;> rfl

/-- The payload at `(p, q)`: the row's scale times the entry plus the column's bias, clipped at zero. -/
theorem pay2_apply (v0 : Vec Ideal S2000x1 .f32) (v2 : Vec Ideal S2000x256 .f32) (v6 : Vec Ideal S1x256 .f32) (p : Fin 2000) (q : Fin 256) :
    k2_pay1 v0 v2 v6 (ix2 p q) = max (v0 (ix2 p (0 : Fin 1)) * v2 (ix2 p q) + v6 (ix2 (0 : Fin 1) q)) 0 := by
  unfold k2_pay1
  refine (maximumf_apply _ _ _).trans ?_
  refine congrArg₂ max ?_ ?_
  · refine (addf_apply _ _ _).trans ?_
    refine congrArg₂ (· + ·) ?_ ?_
    · refine (mulf_apply _ _ _).trans ?_
      refine congrArg₂ (· * ·) ?_ ?_
      · refine (Cert.LibColumn.broadcastTo_a1_ab_apply _ _ p q).trans ?_
        rw [shapeCast_self]
      · rw [shapeCast_self]
    · refine (broadcastTo_1b_ab_apply _ _ p q).trans ?_
      rw [shapeCast_self]
  · exact Ideal.ofBits_zero_f32

/-- The index maps, decided over the 25 grid points: the row-blocked windows are at block `(t, 0)`, the bias row at `(0, 0)`. -/
theorem idx2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-! ## Where a block's element sits in its array: block index times block size plus its own coordinate -/

theorem emb2_0 (t : Fin cfg2.N) (p : Fin 2000) (q : Fin 256) (h : t.val * 2000 + p.val < 50000) :
    ((cfg2.win 0).blk t).view.emb (ix2 p q) = (ix2 (⟨t.val * 2000 + p.val, h⟩ : Fin 50000) q : S50000x256.Idx) := by
  obtain ⟨e0, e1, -⟩ := idx2 t
  funext a; apply Fin.ext
  match a with
  | ⟨0, _⟩ => show win2_0.index t (0 : Fin 2) * 2000 + 1 * p.val = t.val * 2000 + p.val; rw [e0]; omega
  | ⟨1, _⟩ => show win2_0.index t (1 : Fin 2) * 256 + 1 * q.val = q.val; rw [e1]; omega

theorem emb2_1 (t : Fin cfg2.N) (p : Fin 2000) (u : Fin 1) (h : t.val * 2000 + p.val < 50000) :
    ((cfg2.win 1).blk t).view.emb (ix2 p u) = (ix2 (⟨t.val * 2000 + p.val, h⟩ : Fin 50000) u : S50000x1.Idx) := by
  obtain ⟨-, -, e0, e1, -⟩ := idx2 t
  funext a; apply Fin.ext
  match a with
  | ⟨0, _⟩ => show win2_1.index t (0 : Fin 2) * 2000 + 1 * p.val = t.val * 2000 + p.val; rw [e0]; omega
  | ⟨1, _⟩ => show win2_1.index t (1 : Fin 2) * 1 + 1 * u.val = u.val; rw [e1]; omega

theorem emb2_2 (t : Fin cfg2.N) (u : Fin 1) (q : Fin 256) :
    ((cfg2.win 2).blk t).view.emb (ix2 u q) = (ix2 u q : S1x256.Idx) := by
  obtain ⟨-, -, -, -, e0, e1, -⟩ := idx2 t
  funext a; apply Fin.ext
  match a with
  | ⟨0, _⟩ => show win2_2.index t (0 : Fin 2) * 1 + 1 * u.val = u.val; rw [e0]; omega
  | ⟨1, _⟩ => show win2_2.index t (1 : Fin 2) * 256 + 1 * q.val = q.val; rw [e1]; omega

theorem emb2_3 (t : Fin cfg2.N) (p : Fin 2000) (q : Fin 256) (h : t.val * 2000 + p.val < 50000) :
    ((cfg2.win 3).blk t).view.emb (ix2 p q) = (ix2 (⟨t.val * 2000 + p.val, h⟩ : Fin 50000) q : S50000x256.Idx) := by
  obtain ⟨-, -, -, -, -, -, e0, e1⟩ := idx2 t
  funext a; apply Fin.ext
  match a with
  | ⟨0, _⟩ => show win2_3.index t (0 : Fin 2) * 2000 + 1 * p.val = t.val * 2000 + p.val; rw [e0]; omega
  | ⟨1, _⟩ => show win2_3.index t (1 : Fin 2) * 256 + 1 * q.val = q.val; rw [e1]; omega

variable (V : (c : Dev nD) → (b : Ref sig .tc) → Buf (Elt Ideal) ((c : Thread nD τ).loc b))

/-! ## The input blocks at an index -/

theorem iblk2_0_apply (c : Dev nD) (t : Fin cfg2.N) (p : Fin 2000) (q : Fin 256) (h : t.val * 2000 + p.val < 50000) :
    iblk2 V c 0 t (ix2 p q) = V c main_v40 (ix2 (⟨t.val * 2000 + p.val, h⟩ : Fin 50000) q) := by
  unfold iblk2
  show V c main_v40 (((cfg2.win 0).blk t).view.emb (ix2 p q)) = _
  rw [emb2_0 t p q h]

theorem iblk2_1_apply (c : Dev nD) (t : Fin cfg2.N) (p : Fin 2000) (u : Fin 1) (h : t.val * 2000 + p.val < 50000) :
    iblk2 V c 1 t (ix2 p u) = V c main_v15 (ix2 (⟨t.val * 2000 + p.val, h⟩ : Fin 50000) u) := by
  unfold iblk2
  show V c main_v15 (((cfg2.win 1).blk t).view.emb (ix2 p u)) = _
  rw [emb2_1 t p u h]

theorem iblk2_2_apply (c : Dev nD) (t : Fin cfg2.N) (u : Fin 1) (q : Fin 256) :
    iblk2 V c 2 t (ix2 u q) = V c main_v41 (ix2 u q) := by
  unfold iblk2
  show V c main_v41 (((cfg2.win 2).blk t).view.emb (ix2 u q)) = _
  rw [emb2_2 t u q]

/-! ## What a point writes back -/

/-- What point `t` writes back is block `t` of the whole-array function of the arrays as the region finds them. -/
theorem flushed2_eq (c : Dev nD) (t : Fin cfg2.N) :
    (dat2 V c).flushed 3 t = ((cfg2.win 3).blk t).view.read (Elt Ideal) (Gcn.activation (V c main_v40) (V c main_v15) (V c main_v41)) := by
  show (cfg2.win 3).cut (grid2.coords t) ((dat2 V c).after 3 t) = _
  rw [after2_3]
  unfold out2_3
  rw [View.canon_unit_zero hz2]
  simp only [View.ld_unit_zero (S := S2000x256) hz2, View.ld_unit_zero (S := S2000x1) hz2, View.ld_unit_zero (S := S1x256) hz2]
  have ht : t.val < 25 := lt_of_lt_of_eq t.isLt N_2
  funext j
  show k2_pay1 (iblk2 V c 1 t) (iblk2 V c 0 t) (iblk2 V c 2 t) j
    = Gcn.activation (V c main_v40) (V c main_v15) (V c main_v41) (((cfg2.win 3).blk t).view.emb j)
  obtain ⟨p, q, rfl⟩ : ∃ (p : Fin 2000) (q : Fin 256), j = ix2 p q := ⟨j 0, j 1, eq_ix2 j⟩
  have hb : t.val * 2000 + p.val < 50000 := by have := p.isLt; omega
  rw [emb2_3 t p q hb]
  refine (pay2_apply _ _ _ p q).trans ?_
  rw [iblk2_1_apply V c t p 0 hb, iblk2_0_apply V c t p q hb, iblk2_2_apply V c t 0 q]
  rfl

/-! ## The blocks fill the array -/

/-- An index of the array is in point `t`'s block iff each coordinate is in the block's range on its axis. -/
theorem mem_blk2 (t : Fin cfg2.N) (i : S50000x256.Idx) :
    i ∈ ((cfg2.win 3).blk t).view.set ↔ ∀ a : Fin 2, win2_3.index t a * S2000x256.size a ≤ (i a).val ∧ (i a).val < win2_3.index t a * S2000x256.size a + S2000x256.size a := by
  show i ∈ ((View.whole main_v42).slice (win2_3.rect t)).set ↔ _
  rw [View.set_slice_whole, Rect.mem_set_unit]
  exact Iff.rfl

/-- Row `r` is in block `r / 2000`. -/
theorem cover2 (i : S50000x256.Idx) : ∃ t : Fin cfg2.N, (cfg2.win 3).flush t = true ∧ i ∈ ((cfg2.win 3).blk t).view.set := by
  have hi0 : (i 0).val < 50000 := (i 0).isLt
  have hi1 : (i 1).val < 256 := (i 1).isLt
  have hN : cfg2.N = 25 := N_2
  have hlt : (i 0).val / 2000 < cfg2.N := by rw [hN]; omega
  refine ⟨⟨(i 0).val / 2000, hlt⟩, flush2_3 _, ?_⟩
  rw [mem_blk2]
  obtain ⟨-, -, -, -, -, -, e0, e1⟩ := idx2 ⟨(i 0).val / 2000, hlt⟩
  intro a
  match a with
  | ⟨0, _⟩ =>
    show win2_3.index ⟨(i 0).val / 2000, hlt⟩ (0 : Fin 2) * 2000 ≤ (i 0).val ∧ (i 0).val < win2_3.index ⟨(i 0).val / 2000, hlt⟩ (0 : Fin 2) * 2000 + 2000
    rw [e0]
    show (i 0).val / 2000 * 2000 ≤ (i 0).val ∧ (i 0).val < (i 0).val / 2000 * 2000 + 2000
    omega
  | ⟨1, _⟩ =>
    show win2_3.index ⟨(i 0).val / 2000, hlt⟩ (1 : Fin 2) * 256 ≤ (i 1).val ∧ (i 1).val < win2_3.index ⟨(i 0).val / 2000, hlt⟩ (1 : Fin 2) * 256 + 256
    rw [e1]
    omega

/-- The output array after the region: the whole-array function of the arrays the region found. -/
theorem final2 (c : Dev nD) : (dat2 (F := Ideal) V c).arrAt 3 cfg2.N = Gcn.activation (V c main_v40) (V c main_v15) (V c main_v41) :=
  (dat2 V c).arrAt_eq_of_cover 3 (Gcn.activation (V c main_v40) (V c main_v15) (V c main_v41)) (fun t _ => flushed2_eq V c t) cover2

end Cert.KernelIdeal.Rg

end
-- ==== Proof.KI.KValue.lean ====
/- The third kernel's output at the end of the run, as ONE function of the six argument arrays over the extended
   reals: each kernel's output is its whole-array function of the buffers it reads at its entry; those buffers are the
   host stages' functions of the launch memory and of the previous kernel's output; composing the three gives the
   two-layer graph convolution. -/
import proofs.«173932_j1915555414201_2_alg».proof.Proof.KI.Host
import proofs.«173932_j1915555414201_2_alg».proof.Proof.KI.Val0
import proofs.«173932_j1915555414201_2_alg».proof.Proof.KI.Val1
import proofs.«173932_j1915555414201_2_alg».proof.Proof.KI.Val2

set_option maxRecDepth 16384

noncomputable section

namespace Cert.KernelIdeal.Rg

open Cert.KernelIdeal Cert.KernelIdeal.Gen
open Idealize.ShloMosaic Idealize.ShloMosaic.TcCoe
open Idealize.SL Idealize.SL.Sem
open Idealize.ShloMosaic.Pipeline (Dat Cfg Window)

variable (m : (ℓ : Loc nD τ sig) → Buf (Elt Ideal) ℓ) (ρ : Dev nD → PrngReg)

/-- THE KERNEL'S VALUE: what the run leaves in the last kernel's output array is the two-layer graph convolution of
    the launch contents of the six arguments. -/
theorem kernel_value (c : Dev nD) : (dat2 (F := Ideal) (V7 m ρ) c).arrAt 3 cfg2.N
    = Hst.kout (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  rw [final2, V7_v40, V7_v15, V7_v41, final1, V5_v27, V5_v15, V5_v28, V5_arg4, final0, V3_arg0, V3_arg2, V3_v15]
  rfl

end Cert.KernelIdeal.Rg
end
-- ==== Proof.LibGcnIdx.lean ====
/-
  Index arithmetic of the row scatter and row gather of a graph convolution: which update element lands on which
  operand element of a scatter along axis 0 whose scatter indices are one column of node numbers, and which operand
  element a gather along axis 0 reads. Generic in the extents: N nodes, E edges, C columns.
-/
import Idealize.ShloMosaic.PureOps.Ideal
import Idealize.ShloMosaic.Lib.ValueIdx

noncomputable section

open scoped BigOperators

namespace GcnLib

open Idealize.ShloMosaic Idealize.ShloMosaic.ValueIdx

/-! ## The scatter of rows: operand N x C, scatter indices E x 1, updates E x C -/

section Scatter2
variable {N E C w : Nat}

/-- Row scatter: update element (e, j') lands on operand element (n, j) exactly when the e-th scatter index,
    read signed, is n and the columns agree. -/
theorem scatter2_resultIdx_iff
    (d : ScatterDims ⟨2, ![N, C]⟩ ⟨2, ![E, 1]⟩ ⟨2, ![E, C]⟩)
    (huw : d.updateWindowDims = [1]) (hiw : d.insertedWindowDims = [0])
    (hsd : d.scatterDimsToOperandDims = [0]) (hiv : d.indexVectorDim = 1)
    (idx : IVec ⟨2, ![E, 1]⟩ w) (e : Fin E) (j' : Fin C) (n : Fin N) (j : Fin C) :
    d.resultIdx? (ix2 e j') idx = some (ix2 n j) ↔ ((idx (ix2 e 0)).toInt = (n : ℤ) ∧ j' = j) := by
  obtain ⟨uw, iw, sd, iv, wf⟩ := d
  simp only at huw hiw hsd hiv
  subst huw hiw hsd hiv
  generalize hd : (⟨[1], [0], [0], 1, wf⟩ : ScatterDims ⟨2, ![N, C]⟩ ⟨2, ![E, 1]⟩ ⟨2, ![E, C]⟩) = d
  have hs0 : d.start (ix2 e j') idx 0 = (idx (ix2 e 0)).toInt := by
    subst hd
    unfold ScatterDims.start
    rw [dif_pos (List.mem_singleton.mpr rfl)]
    congr 2
    funext b; refine Fin.ext ?_
    match b with
    | ⟨0, _⟩ => rfl
    | ⟨1, _⟩ => rfl
  have hs1 : d.start (ix2 e j') idx 1 = 0 := by
    subst hd
    unfold ScatterDims.start
    rw [dif_neg (show (1 : Fin 2) ∉ [(0 : Fin 2)] by decide)]
  have hw0 : d.window (ix2 e j') 0 = 0 := by
    subst hd
    have hm : (0 : Fin 2) ∉ (⟨[1], [0], [0], 1, wf⟩ : ScatterDims ⟨2, ![N, C]⟩ ⟨2, ![E, 1]⟩ ⟨2, ![E, C]⟩).sKept :=
      show (0 : Fin 2) ∉ (List.finRange 2).filter (fun a : Fin 2 => a ∉ [(0 : Fin 2)]) by decide
    unfold ScatterDims.window
    rw [dif_neg hm]
  have hw1 : d.window (ix2 e j') 1 = j'.val := by
    subst hd
    have hm : (1 : Fin 2) ∈ (⟨[1], [0], [0], 1, wf⟩ : ScatterDims ⟨2, ![N, C]⟩ ⟨2, ![E, 1]⟩ ⟨2, ![E, C]⟩).sKept :=
      show (1 : Fin 2) ∈ (List.finRange 2).filter (fun a : Fin 2 => a ∉ [(0 : Fin 2)]) by decide
    unfold ScatterDims.window
    rw [dif_pos hm]
    rfl
  unfold ScatterDims.resultIdx?
  split_ifs with h
  · rw [Option.some.injEq]
    have h0 := (h 0).1
    rw [hs0, hw0] at h0
    constructor
    · intro hf
      have e0 := congrArg Fin.val (congrFun hf 0)
      have e1 := congrArg Fin.val (congrFun hf 1)
      simp only [hs0, hs1, hw0, hw1] at e0 e1
      refine ⟨?_, Fin.ext ?_⟩
      · change ((idx (ix2 e 0)).toInt + ((0 : Nat) : ℤ)).toNat = n.val at e0
        omega
      · change ((0 : ℤ) + (j'.val : ℤ)).toNat = j.val at e1
        omega
    · rintro ⟨hn, rfl⟩
      funext a; refine Fin.ext ?_
      match a with
      | ⟨0, _⟩ =>
        show (d.start (ix2 e j') idx 0 + (d.window (ix2 e j') 0 : ℤ)).toNat = n.val
        rw [hs0, hw0]; omega
      | ⟨1, _⟩ =>
        show (d.start (ix2 e j') idx 1 + (d.window (ix2 e j') 1 : ℤ)).toNat = j'.val
        rw [hs1, hw1]; omega
  · constructor
    · intro hf; exact absurd hf (by simp)
    · rintro ⟨hn, rfl⟩
      exfalso; apply h
      intro a
      match a with
      | ⟨0, _⟩ =>
        show 0 ≤ d.start (ix2 e j') idx 0 + (d.window (ix2 e j') 0 : ℤ) ∧
          d.start (ix2 e j') idx 0 + (d.window (ix2 e j') 0 : ℤ) < (N : ℤ)
        rw [hs0, hw0]; have := n.isLt; omega
      | ⟨1, _⟩ =>
        show 0 ≤ d.start (ix2 e j') idx 1 + (d.window (ix2 e j') 1 : ℤ) ∧
          d.start (ix2 e j') idx 1 + (d.window (ix2 e j') 1 : ℤ) < (C : ℤ)
        rw [hs1, hw1]; have := j'.isLt; omega

/-- Row scatter, summed over the updates that land on (n, j): the sum over the edges whose scatter index is n of the
    update's element in column j. -/
theorem scatter2_sum {M : Type*} [AddCommMonoid M]
    (d : ScatterDims ⟨2, ![N, C]⟩ ⟨2, ![E, 1]⟩ ⟨2, ![E, C]⟩)
    (huw : d.updateWindowDims = [1]) (hiw : d.insertedWindowDims = [0])
    (hsd : d.scatterDimsToOperandDims = [0]) (hiv : d.indexVectorDim = 1)
    (idx : IVec ⟨2, ![E, 1]⟩ w) (upd : (⟨2, ![E, C]⟩ : Shape).Idx → M) (n : Fin N) (j : Fin C)
    [DecidablePred fun u : (⟨2, ![E, C]⟩ : Shape).Idx => d.resultIdx? u idx = some (ix2 n j)] :
    ∑ u ∈ Finset.univ.filter (fun u : (⟨2, ![E, C]⟩ : Shape).Idx => d.resultIdx? u idx = some (ix2 n j)), upd u
      = ∑ e ∈ Finset.univ.filter (fun e : Fin E => (idx (ix2 e 0)).toInt = (n : ℤ)), upd (ix2 e j) := by
  symm
  refine Finset.sum_bij (fun e _ => ix2 e j) ?_ ?_ ?_ ?_
  · intro e he
    rw [Finset.mem_filter] at he ⊢
    exact ⟨Finset.mem_univ _, (scatter2_resultIdx_iff d huw hiw hsd hiv idx e j n j).2 ⟨he.2, rfl⟩⟩
  · intro e _ e' _ h
    exact congrFun h 0
  · intro u hu
    rw [Finset.mem_filter] at hu
    have hu' : d.resultIdx? (ix2 (u 0) (u 1)) idx = some (ix2 n j) := by
      have h := hu.2; rw [eq_ix2 u] at h; exact h
    obtain ⟨h1, h2⟩ := (scatter2_resultIdx_iff d huw hiw hsd hiv idx (u 0) (u 1) n j).1 hu'
    refine ⟨u 0, Finset.mem_filter.2 ⟨Finset.mem_univ _, h1⟩, ?_⟩
    rw [← h2]; exact (eq_ix2 u).symm
  · intro e _; rfl

/-- THE ROW SCATTER-ADD READ AT (n, j): the operand's element plus the sum, over the edges whose scatter index is n,
    of the update's element in column j. -/
theorem hostScatterAdd2_apply
    (d : ScatterDims ⟨2, ![N, C]⟩ ⟨2, ![E, 1]⟩ ⟨2, ![E, C]⟩)
    (huw : d.updateWindowDims = [1]) (hiw : d.insertedWindowDims = [0])
    (hsd : d.scatterDimsToOperandDims = [0]) (hiv : d.indexVectorDim = 1)
    (x : (⟨2, ![N, C]⟩ : Shape).Idx → EReal) (idx : IVec ⟨2, ![E, 1]⟩ w)
    (upd : (⟨2, ![E, C]⟩ : Shape).Idx → EReal) (n : Fin N) (j : Fin C) :
    Ideal.hostScatterAdd d x idx upd (ix2 n j)
      = x (ix2 n j) + ∑ e ∈ Finset.univ.filter (fun e : Fin E => (idx (ix2 e 0)).toInt = (n : ℤ)), upd (ix2 e j) := by
  unfold Ideal.hostScatterAdd
  congr 1
  exact scatter2_sum d huw hiw hsd hiv idx upd n j

end Scatter2

/-! ## The scatter of scalars: operand N, scatter indices E x 1, updates E -/

section Scatter1
variable {N E w : Nat}

/-- Scalar scatter: update element e lands on operand element n exactly when the e-th scatter index, read signed,
    is n. -/
theorem scatter1_resultIdx_iff
    (d : ScatterDims ⟨1, ![N]⟩ ⟨2, ![E, 1]⟩ ⟨1, ![E]⟩)
    (huw : d.updateWindowDims = []) (hiw : d.insertedWindowDims = [0])
    (hsd : d.scatterDimsToOperandDims = [0]) (hiv : d.indexVectorDim = 1)
    (idx : IVec ⟨2, ![E, 1]⟩ w) (e : Fin E) (n : Fin N) :
    d.resultIdx? (ix1 e) idx = some (ix1 n) ↔ (idx (ix2 e 0)).toInt = (n : ℤ) := by
  obtain ⟨uw, iw, sd, iv, wf⟩ := d
  simp only at huw hiw hsd hiv
  subst huw hiw hsd hiv
  generalize hd : (⟨[], [0], [0], 1, wf⟩ : ScatterDims ⟨1, ![N]⟩ ⟨2, ![E, 1]⟩ ⟨1, ![E]⟩) = d
  have hs0 : d.start (ix1 e) idx 0 = (idx (ix2 e 0)).toInt := by
    subst hd
    unfold ScatterDims.start
    rw [dif_pos (List.mem_singleton.mpr rfl)]
    congr 2
    funext b; refine Fin.ext ?_
    match b with
    | ⟨0, _⟩ => rfl
    | ⟨1, _⟩ => rfl
  have hw0 : d.window (ix1 e) 0 = 0 := by
    subst hd
    have hm : (0 : Fin 1) ∉ (⟨[], [0], [0], 1, wf⟩ : ScatterDims ⟨1, ![N]⟩ ⟨2, ![E, 1]⟩ ⟨1, ![E]⟩).sKept :=
      show (0 : Fin 1) ∉ (List.finRange 1).filter (fun a : Fin 1 => a ∉ [(0 : Fin 1)]) by decide
    unfold ScatterDims.window
    rw [dif_neg hm]
  unfold ScatterDims.resultIdx?
  split_ifs with h
  · rw [Option.some.injEq]
    have h0 := (h 0).1
    rw [hs0, hw0] at h0
    constructor
    · intro hf
      have e0 := congrArg Fin.val (congrFun hf 0)
      simp only [hs0, hw0] at e0
      change ((idx (ix2 e 0)).toInt + ((0 : Nat) : ℤ)).toNat = n.val at e0
      omega
    · intro hn
      funext a; refine Fin.ext ?_
      match a with
      | ⟨0, _⟩ =>
        show (d.start (ix1 e) idx 0 + (d.window (ix1 e) 0 : ℤ)).toNat = n.val
        rw [hs0, hw0]; omega
  · constructor
    · intro hf; exact absurd hf (by simp)
    · intro hn
      exfalso; apply h
      intro a
      match a with
      | ⟨0, _⟩ =>
        show 0 ≤ d.start (ix1 e) idx 0 + (d.window (ix1 e) 0 : ℤ) ∧
          d.start (ix1 e) idx 0 + (d.window (ix1 e) 0 : ℤ) < (N : ℤ)
        rw [hs0, hw0]; have := n.isLt; omega

/-- Scalar scatter, summed over the updates that land on n: the sum over the edges whose scatter index is n. -/
theorem scatter1_sum {M : Type*} [AddCommMonoid M]
    (d : ScatterDims ⟨1, ![N]⟩ ⟨2, ![E, 1]⟩ ⟨1, ![E]⟩)
    (huw : d.updateWindowDims = []) (hiw : d.insertedWindowDims = [0])
    (hsd : d.scatterDimsToOperandDims = [0]) (hiv : d.indexVectorDim = 1)
    (idx : IVec ⟨2, ![E, 1]⟩ w) (upd : (⟨1, ![E]⟩ : Shape).Idx → M) (n : Fin N)
    [DecidablePred fun u : (⟨1, ![E]⟩ : Shape).Idx => d.resultIdx? u idx = some (ix1 n)] :
    ∑ u ∈ Finset.univ.filter (fun u : (⟨1, ![E]⟩ : Shape).Idx => d.resultIdx? u idx = some (ix1 n)), upd u
      = ∑ e ∈ Finset.univ.filter (fun e : Fin E => (idx (ix2 e 0)).toInt = (n : ℤ)), upd (ix1 e) := by
  symm
  refine Finset.sum_bij (fun e _ => ix1 e) ?_ ?_ ?_ ?_
  · intro e he
    rw [Finset.mem_filter] at he ⊢
    exact ⟨Finset.mem_univ _, (scatter1_resultIdx_iff d huw hiw hsd hiv idx e n).2 he.2⟩
  · intro e _ e' _ h
    exact congrFun h 0
  · intro u hu
    rw [Finset.mem_filter] at hu
    have hu' : d.resultIdx? (ix1 (u 0)) idx = some (ix1 n) := by
      have h := hu.2; rw [eq_ix1 u] at h; exact h
    have h1 := (scatter1_resultIdx_iff d huw hiw hsd hiv idx (u 0) n).1 hu'
    exact ⟨u 0, Finset.mem_filter.2 ⟨Finset.mem_univ _, h1⟩, (eq_ix1 u).symm⟩
  · intro e _; rfl

/-- THE SCALAR SCATTER-ADD READ AT n: the operand's element plus the sum, over the edges whose scatter index is n, of
    the update's element. -/
theorem hostScatterAdd1_apply
    (d : ScatterDims ⟨1, ![N]⟩ ⟨2, ![E, 1]⟩ ⟨1, ![E]⟩)
    (huw : d.updateWindowDims = []) (hiw : d.insertedWindowDims = [0])
    (hsd : d.scatterDimsToOperandDims = [0]) (hiv : d.indexVectorDim = 1)
    (x : (⟨1, ![N]⟩ : Shape).Idx → EReal) (idx : IVec ⟨2, ![E, 1]⟩ w)
    (upd : (⟨1, ![E]⟩ : Shape).Idx → EReal) (n : Fin N) :
    Ideal.hostScatterAdd d x idx upd (ix1 n)
      = x (ix1 n) + ∑ e ∈ Finset.univ.filter (fun e : Fin E => (idx (ix2 e 0)).toInt = (n : ℤ)), upd (ix1 e) := by
  unfold Ideal.hostScatterAdd
  congr 1
  exact scatter1_sum d huw hiw hsd hiv idx upd n

end Scatter1

/-! ## The gather of rows: operand N x C, start indices E x 1, result E x C -/

section Gather2
variable {α : Type} {N E C w : Nat}

/-- THE ROW GATHER READ AT (e, j): the operand's row at the e-th start index, read signed and clamped into
    [0, N - 1], in column j. -/
theorem gather2_apply (hN : 0 < N)
    (d : GatherDims ⟨2, ![N, C]⟩ ⟨2, ![E, 1]⟩ ⟨2, ![E, C]⟩)
    (hod : d.offsetDims = [1]) (hcd : d.collapsedSliceDims = [0]) (hob : d.operandBatchingDims = [])
    (hsb : d.startIndicesBatchingDims = []) (hsm : d.startIndexMap = [0]) (hiv : d.indexVectorDim = 1)
    (hss : d.sliceSizes = ![1, C])
    (x : (⟨2, ![N, C]⟩ : Shape).Idx → α) (idx : IVec ⟨2, ![E, 1]⟩ w) (e : Fin E) (j : Fin C) :
    Host.gather d x idx (ix2 e j) = x (ix2 ⟨min (idx (ix2 e 0)).toInt.toNat (N - 1), by omega⟩ j) := by
  obtain ⟨od, cd, ob, sb, sm, iv, ss, wf⟩ := d
  simp only at hod hcd hob hsb hsm hiv hss
  subst hod hcd hob hsb hsm hiv hss
  generalize hd : (⟨[1], [0], [], [], [0], 1, ![1, C], wf⟩ : GatherDims ⟨2, ![N, C]⟩ ⟨2, ![E, 1]⟩ ⟨2, ![E, C]⟩) = d
  have hb : ∀ a, d.batchCoord (ix2 e j) a = 0 := by
    subst hd; intro a
    exact GatherDims.batchCoord_eq_zero _ _ _ List.not_mem_nil
  have hs0 : d.start (ix2 e j) idx 0 = min (idx (ix2 e 0)).toInt.toNat (N - 1) := by
    subst hd
    unfold GatherDims.start
    rw [dif_pos (List.mem_singleton.mpr rfl)]
    congr 4
    funext b; refine Fin.ext ?_
    match b with
    | ⟨0, _⟩ => rfl
    | ⟨1, _⟩ => rfl
  have hs1 : d.start (ix2 e j) idx 1 = 0 := by
    subst hd
    unfold GatherDims.start
    rw [dif_neg (show (1 : Fin 2) ∉ [(0 : Fin 2)] by decide)]
  have ho0 : d.offCoord (ix2 e j) 0 = 0 := by
    subst hd
    exact GatherDims.offCoord_eq_zero _ _ _
      (fun h => ((GatherDims.mem_sKept _ _).mp h).1 (List.mem_singleton.mpr rfl))
  have ho1 : d.offCoord (ix2 e j) 1 = j.val := by
    subst hd
    have hm : (1 : Fin 2) ∈ (⟨[1], [0], [], [], [0], 1, ![1, C], wf⟩ :
        GatherDims ⟨2, ![N, C]⟩ ⟨2, ![E, 1]⟩ ⟨2, ![E, C]⟩).sKept :=
      show (1 : Fin 2) ∈ (List.finRange 2).filter (fun a : Fin 2 => a ∉ [(0 : Fin 2)] ++ []) by decide
    unfold GatherDims.offCoord
    rw [dif_pos hm]
    rfl
  unfold Host.gather
  congr 1
  funext a; refine Fin.ext ?_
  match a with
  | ⟨0, _⟩ =>
    show d.start (ix2 e j) idx 0 + d.batchCoord (ix2 e j) 0 + d.offCoord (ix2 e j) 0 = _
    rw [hs0, hb, ho0]; rfl
  | ⟨1, _⟩ =>
    show d.start (ix2 e j) idx 1 + d.batchCoord (ix2 e j) 1 + d.offCoord (ix2 e j) 1 = _
    rw [hs1, hb, ho1]; simp

/-- The row gather at a start index that is a node number: the operand's row at that node. -/
theorem gather2_apply_of_toInt
    (d : GatherDims ⟨2, ![N, C]⟩ ⟨2, ![E, 1]⟩ ⟨2, ![E, C]⟩)
    (hod : d.offsetDims = [1]) (hcd : d.collapsedSliceDims = [0]) (hob : d.operandBatchingDims = [])
    (hsb : d.startIndicesBatchingDims = []) (hsm : d.startIndexMap = [0]) (hiv : d.indexVectorDim = 1)
    (hss : d.sliceSizes = ![1, C])
    (x : (⟨2, ![N, C]⟩ : Shape).Idx → α) (idx : IVec ⟨2, ![E, 1]⟩ w) (e : Fin E) (j : Fin C) (n : Fin N)
    (hn : (idx (ix2 e 0)).toInt = (n : ℤ)) :
    Host.gather d x idx (ix2 e j) = x (ix2 n j) := by
  rw [gather2_apply (Nat.pos_of_ne_zero fun h0 => by subst h0; exact n.elim0) d hod hcd hob hsb hsm hiv hss]
  congr 2
  refine Fin.ext ?_
  show min (idx (ix2 e 0)).toInt.toNat (N - 1) = n.val
  have := n.isLt
  omega

end Gather2

/-! ## The gather of scalars: operand N, start indices E x 1, result E -/

section Gather1
variable {α : Type} {N E w : Nat}

/-- THE SCALAR GATHER READ AT e: the operand at the e-th start index, read signed and clamped into [0, N - 1]. -/
theorem gather1_apply (hN : 0 < N)
    (d : GatherDims ⟨1, ![N]⟩ ⟨2, ![E, 1]⟩ ⟨1, ![E]⟩)
    (hod : d.offsetDims = []) (hcd : d.collapsedSliceDims = [0]) (hob : d.operandBatchingDims = [])
    (hsb : d.startIndicesBatchingDims = []) (hsm : d.startIndexMap = [0]) (hiv : d.indexVectorDim = 1)
    (hss : d.sliceSizes = ![1])
    (x : (⟨1, ![N]⟩ : Shape).Idx → α) (idx : IVec ⟨2, ![E, 1]⟩ w) (e : Fin E) :
    Host.gather d x idx (ix1 e) = x (ix1 ⟨min (idx (ix2 e 0)).toInt.toNat (N - 1), by omega⟩) := by
  obtain ⟨od, cd, ob, sb, sm, iv, ss, wf⟩ := d
  simp only at hod hcd hob hsb hsm hiv hss
  subst hod hcd hob hsb hsm hiv hss
  generalize hd : (⟨[], [0], [], [], [0], 1, ![1], wf⟩ : GatherDims ⟨1, ![N]⟩ ⟨2, ![E, 1]⟩ ⟨1, ![E]⟩) = d
  have hb : ∀ a, d.batchCoord (ix1 e) a = 0 := by
    subst hd; intro a
    exact GatherDims.batchCoord_eq_zero _ _ _ List.not_mem_nil
  have hs0 : d.start (ix1 e) idx 0 = min (idx (ix2 e 0)).toInt.toNat (N - 1) := by
    subst hd
    unfold GatherDims.start
    rw [dif_pos (List.mem_singleton.mpr rfl)]
    congr 4
    funext b; refine Fin.ext ?_
    match b with
    | ⟨0, _⟩ => rfl
    | ⟨1, _⟩ => rfl
  have ho0 : d.offCoord (ix1 e) 0 = 0 := by
    subst hd
    exact GatherDims.offCoord_eq_zero _ _ _
      (fun h => ((GatherDims.mem_sKept _ _).mp h).1 (List.mem_singleton.mpr rfl))
  unfold Host.gather
  congr 1
  funext a; refine Fin.ext ?_
  match a with
  | ⟨0, _⟩ =>
    show d.start (ix1 e) idx 0 + d.batchCoord (ix1 e) 0 + d.offCoord (ix1 e) 0 = _
    rw [hs0, hb, ho0]; rfl

/-- The scalar gather at a start index that is a node number: the operand at that node. -/
theorem gather1_apply_of_toInt
    (d : GatherDims ⟨1, ![N]⟩ ⟨2, ![E, 1]⟩ ⟨1, ![E]⟩)
    (hod : d.offsetDims = []) (hcd : d.collapsedSliceDims = [0]) (hob : d.operandBatchingDims = [])
    (hsb : d.startIndicesBatchingDims = []) (hsm : d.startIndexMap = [0]) (hiv : d.indexVectorDim = 1)
    (hss : d.sliceSizes = ![1])
    (x : (⟨1, ![N]⟩ : Shape).Idx → α) (idx : IVec ⟨2, ![E, 1]⟩ w) (e : Fin E) (n : Fin N)
    (hn : (idx (ix2 e 0)).toInt = (n : ℤ)) :
    Host.gather d x idx (ix1 e) = x (ix1 n) := by
  rw [gather1_apply (Nat.pos_of_ne_zero fun h0 => by subst h0; exact n.elim0) d hod hcd hob hsb hsm hiv hss]
  congr 2
  refine Fin.ext ?_
  show min (idx (ix2 e 0)).toInt.toNat (N - 1) = n.val
  have := n.isLt
  omega

end Gather1

/-! ## The index normalisation before a gather: a negative index counts from the end -/

section Normalise
variable {w : Nat}

/-- On a word that is non-negative read signed, "add K if negative" leaves the word alone. -/
theorem select_slt_zero_of_nonneg (v K : BitVec w) (h : 0 ≤ v.toInt) :
    Scalar.select (IntOp.cmpi .slt v 0#w) (IntOp.addi v K) v = v := by
  have hc : IntOp.cmpi .slt v 0#w = 0#1 := by
    show BitVec.ofBool (v.slt 0#w) = 0#1
    have : v.slt 0#w = false := by
      rw [BitVec.slt_eq_decide, BitVec.toInt_zero]
      exact decide_eq_false (by omega)
    rw [this]; rfl
  rw [hc]; exact select_zero _ _

/-- A word that reads, signed, as a node number n < N: the normalisation leaves it alone, so the normalised word
    still reads as n. -/
theorem toInt_select_slt_zero (v K : BitVec w) (n : ℕ) (h : v.toInt = (n : ℤ)) :
    (Scalar.select (IntOp.cmpi .slt v 0#w) (IntOp.addi v K) v).toInt = (n : ℤ) := by
  rw [select_slt_zero_of_nonneg v K (by omega), h]

/-- The clamp of a gather at a word that reads as a node number n < N is n. -/
theorem clamp_eq_of_toInt {N : ℕ} (v : BitVec w) (n : ℕ) (hn : n < N) (h : v.toInt = (n : ℤ)) :
    min v.toInt.toNat (N - 1) = n := by
  omega

end Normalise

end GcnLib

end
-- ==== Proof.LibGcnSum.lean ====
/-
  Sums of real-valued extended reals: the distributive law a graph convolution's two scalings need, closure of
  "is a real number" under the operations of a dense layer (sums, products, maxima, matrix products, scatter-adds),
  and the node degree with its reciprocal square root.
-/
import Idealize.ShloMosaic.PureOps.Ideal
import Idealize.ShloMosaic.Lib.ValueIdx

noncomputable section

open scoped BigOperators

namespace GcnLib

open Idealize.ShloMosaic

/-- An extended real that is a real number. -/
abbrev IsReal (x : EReal) : Prop := ∃ r : ℝ, x = (r : EReal)

/-! ## Closure -/

/-- A real number, read as an extended real, is real-valued. -/
theorem isReal_coe (r : ℝ) : IsReal (r : EReal) := ⟨r, rfl⟩
/-- Zero is real-valued. -/
theorem isReal_zero : IsReal (0 : EReal) := ⟨0, rfl⟩
/-- One is real-valued. -/
theorem isReal_one : IsReal (1 : EReal) := ⟨1, rfl⟩
/-- A natural number is real-valued. -/
theorem isReal_natCast (n : ℕ) : IsReal ((n : ℕ) : EReal) := ⟨(n : ℝ), by norm_cast⟩
/-- The sum of two real-valued extended reals is real-valued. -/
theorem isReal_add {x y : EReal} (hx : IsReal x) (hy : IsReal y) : IsReal (x + y) := by
  obtain ⟨a, rfl⟩ := hx; obtain ⟨b, rfl⟩ := hy; exact ⟨a + b, (EReal.coe_add a b).symm⟩
/-- The product of two real-valued extended reals is real-valued. -/
theorem isReal_mul {x y : EReal} (hx : IsReal x) (hy : IsReal y) : IsReal (x * y) := by
  obtain ⟨a, rfl⟩ := hx; obtain ⟨b, rfl⟩ := hy; exact ⟨a * b, (EReal.coe_mul a b).symm⟩
/-- The negative of a real-valued extended real is real-valued. -/
theorem isReal_neg {x : EReal} (hx : IsReal x) : IsReal (-x) := by
  obtain ⟨a, rfl⟩ := hx; exact ⟨-a, (EReal.coe_neg a).symm⟩
/-- The maximum of two real-valued extended reals is real-valued. -/
theorem isReal_max {x y : EReal} (hx : IsReal x) (hy : IsReal y) : IsReal (max x y) := by
  rcases max_choice x y with h | h <;> rw [h] <;> assumption
/-- The minimum of two real-valued extended reals is real-valued. -/
theorem isReal_min {x y : EReal} (hx : IsReal x) (hy : IsReal y) : IsReal (min x y) := by
  rcases min_choice x y with h | h <;> rw [h] <;> assumption
/-- The rectifier max(x, 0) of a real-valued extended real is real-valued. -/
theorem isReal_relu {x : EReal} (hx : IsReal x) : IsReal (max x 0) := isReal_max hx isReal_zero

section Sums
variable {ι : Type*}

/-- A finite sum of reals, read in the extended reals, is the extended-real sum. -/
theorem coe_finset_sum (s : Finset ι) (f : ι → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A finite sum of real-valued extended reals is real-valued. -/
theorem isReal_finset_sum (s : Finset ι) (f : ι → EReal) (hf : ∀ k ∈ s, IsReal (f k)) : IsReal (∑ k ∈ s, f k) := by
  classical
  induction s using Finset.induction_on with
  | empty => exact ⟨0, by simp⟩
  | insert a s ha ih =>
    rw [Finset.sum_insert ha]
    exact isReal_add (hf a (Finset.mem_insert_self a s)) (ih fun k hk => hf k (Finset.mem_insert_of_mem hk))

/-- A finite sum of products of real-valued extended reals (one entry of a matrix product) is real-valued. -/
theorem isReal_sum_mul (s : Finset ι) (f g : ι → EReal) (hf : ∀ k, IsReal (f k)) (hg : ∀ k, IsReal (g k)) :
    IsReal (∑ k ∈ s, f k * g k) :=
  isReal_finset_sum s _ fun k _ => isReal_mul (hf k) (hg k)

/-- THE DISTRIBUTIVE LAW: scaling each summand h k by ds k before the sum and the sum by dn after it is the sum of the
    summands scaled by the products ds k * dn. In the extended reals this needs every factor to be a real number. -/
theorem mul_sum_mul_eq (s : Finset ι) (dn : EReal) (h ds : ι → EReal) (hdn : IsReal dn)
    (hh : ∀ k, IsReal (h k)) (hds : ∀ k, IsReal (ds k)) :
    dn * ∑ k ∈ s, (h k * ds k) = ∑ k ∈ s, h k * (ds k * dn) := by
  obtain ⟨a, rfl⟩ := hdn
  choose hr hhr using hh
  choose dr hdr using hds
  simp only [hhr, hdr, ← EReal.coe_mul, ← coe_finset_sum]
  congr 1
  rw [Finset.mul_sum]
  exact Finset.sum_congr rfl fun k _ => by ring

/-- The distributive law with the outer factor read per summand: dd k is dn for every k of the summation set (an
    edge's target-node factor, on the edges whose target is the node summed at). -/
theorem mul_sum_mul_eq_of_eq (s : Finset ι) (dn : EReal) (h ds dd : ι → EReal) (hdn : IsReal dn)
    (hh : ∀ k, IsReal (h k)) (hds : ∀ k, IsReal (ds k)) (hdd : ∀ k ∈ s, dd k = dn) :
    dn * ∑ k ∈ s, (h k * ds k) = ∑ k ∈ s, h k * (ds k * dd k) := by
  rw [mul_sum_mul_eq s dn h ds hdn hh hds]
  exact Finset.sum_congr rfl fun k hk => by rw [hdd k hk]

/-- The law as the two programs meet it, each scatter-add started from a zero operand element: the target node's
    factor times (zero plus the sum of the pre-scaled rows) is zero plus the sum of the rows scaled per edge. -/
theorem mul_zero_add_sum_eq (s : Finset ι) (dn : EReal) (h ds dd : ι → EReal) (hdn : IsReal dn)
    (hh : ∀ k, IsReal (h k)) (hds : ∀ k, IsReal (ds k)) (hdd : ∀ k ∈ s, dd k = dn) :
    dn * (0 + ∑ k ∈ s, (h k * ds k)) = 0 + ∑ k ∈ s, h k * (ds k * dd k) := by
  rw [zero_add, zero_add]
  exact mul_sum_mul_eq_of_eq s dn h ds dd hdn hh hds hdd

/-- The same law with the factors in the order (ds k * h k) * dn on the left. -/
theorem sum_mul_mul_eq (s : Finset ι) (dn : EReal) (h ds : ι → EReal) (hdn : IsReal dn)
    (hh : ∀ k, IsReal (h k)) (hds : ∀ k, IsReal (ds k)) :
    (∑ k ∈ s, (ds k * h k)) * dn = ∑ k ∈ s, (ds k * dn) * h k := by
  obtain ⟨a, rfl⟩ := hdn
  choose hr hhr using hh
  choose dr hdr using hds
  simp only [hhr, hdr, ← EReal.coe_mul, ← coe_finset_sum]
  congr 1
  rw [Finset.sum_mul]
  exact Finset.sum_congr rfl fun k _ => by ring

end Sums

/-! ## The operations of a layer -/

/-- A matrix product with a real-valued accumulator and real-valued operands is real-valued at every index. -/
theorem isReal_matmul {sl sr so : Shape} (d : DotDims sl sr so) (lhs : sl.Idx → EReal) (rhs : sr.Idx → EReal)
    (acc : so.Idx → EReal) (hl : ∀ i, IsReal (lhs i)) (hr : ∀ i, IsReal (rhs i)) (ha : ∀ i, IsReal (acc i))
    (j : so.Idx) : IsReal (Ideal.matmul d lhs rhs acc j) :=
  isReal_add (ha j) (isReal_finset_sum _ _ fun k _ => isReal_mul (hl _) (hr _))

/-- A scatter-add of real-valued updates into a real-valued operand is real-valued at every index. -/
theorem isReal_hostScatterAdd {s si su : Shape} (d : ScatterDims s si su) {w : Nat} (x : s.Idx → EReal)
    (idx : IVec si w) (upd : su.Idx → EReal) (hx : ∀ i, IsReal (x i)) (hu : ∀ j, IsReal (upd j)) (i : s.Idx) :
    IsReal (Ideal.hostScatterAdd d x idx upd i) :=
  isReal_add (hx i) (isReal_finset_sum _ _ fun j _ => hu j)

/-! ## The degree and its reciprocal square root -/

/-- Counting: zero plus a one for every element of a finite set is the set's cardinality, a real number. -/
theorem zero_add_sum_one {ι : Type*} (s : Finset ι) :
    (0 : EReal) + ∑ _j ∈ s, (1 : EReal) = ((s.card : ℝ) : EReal) := by
  rw [zero_add]
  have := coe_finset_sum s (fun _ => (1 : ℝ))
  simp only [Finset.sum_const, nsmul_eq_mul, mul_one] at this
  rw [this]
  simp

/-- The degree is real-valued. -/
theorem isReal_zero_add_sum_one {ι : Type*} (s : Finset ι) : IsReal ((0 : EReal) + ∑ _j ∈ s, (1 : EReal)) :=
  ⟨_, zero_add_sum_one s⟩

/-- The normaliser of a real degree r: the reciprocal square root where r is positive, zero elsewhere. -/
theorem select_rsqrt_coe (r : ℝ) :
    Scalar.select (Ideal.cmp .ogt (r : EReal) 0) (Ideal.rsqrt (r : EReal)) (0 : EReal)
      = ((if 0 < r then (Real.sqrt r)⁻¹ else 0 : ℝ) : EReal) := by
  by_cases h : 0 < r
  · have hc : Ideal.cmp .ogt (r : EReal) 0 = 1#1 := by
      unfold Ideal.cmp
      have : (0 : EReal) < (r : EReal) := by exact_mod_cast h
      simp [this]
    rw [hc, ValueIdx.select_one, if_pos h, Ideal.rsqrt_coe, if_neg (not_lt.mpr h.le), if_neg h.ne']
  · have hc : Ideal.cmp .ogt (r : EReal) 0 = 0#1 := by
      unfold Ideal.cmp
      have : ¬ (0 : EReal) < (r : EReal) := by exact_mod_cast h
      simp [this]
    rw [hc, ValueIdx.select_zero, if_neg h]
    simp

/-- For a real-valued degree the normaliser (reciprocal square root where positive, else zero) is real-valued. -/
theorem isReal_select_rsqrt {deg : EReal} (h : IsReal deg) :
    IsReal (Scalar.select (Ideal.cmp .ogt deg 0) (Ideal.rsqrt deg) (0 : EReal)) := by
  obtain ⟨r, rfl⟩ := h
  exact ⟨_, select_rsqrt_coe r⟩

/-- The normaliser as a program computes it on vectors — the select, on "degree greater than a zero vector", between
    the host's reciprocal square root of the degree and a zero vector — read at an index. -/
theorem select_cmpf_rsqrt_apply {s : Shape} {φ : FTy} (deg z z' : FVec Ideal s φ) (i : s.Idx)
    (hz : z i = 0) (hz' : z' i = 0) :
    select (cmpf .ogt deg z) (Host.rsqrt deg) z' i
      = Scalar.select (Ideal.cmp .ogt (deg i) 0) (Ideal.rsqrt (deg i)) (0 : EReal) := by
  show Scalar.select (FloatOps.cmpf .ogt (deg i) (z i)) (FloatOps.hostUnary .rsqrt (deg i)) (z' i) = _
  rw [hz, hz']; rfl

/-- That vector normaliser is real-valued wherever the degree is. -/
theorem isReal_select_cmpf_rsqrt {s : Shape} {φ : FTy} (deg z z' : FVec Ideal s φ) (i : s.Idx)
    (hz : z i = 0) (hz' : z' i = 0) (h : IsReal (deg i)) :
    IsReal (select (cmpf .ogt deg z) (Host.rsqrt deg) z' i) := by
  rw [select_cmpf_rsqrt_apply deg z z' i hz hz']
  exact isReal_select_rsqrt h

/-- The f32 pattern of all zero bits is the extended real zero. -/
theorem ofBits_zero_f32 : Ideal.ofBits .f32 0x00000000#32 = 0 := by simp [Ideal.ofBits, Ideal.ieee]

end GcnLib

end
-- ==== Proof.LibGcnLayer.lean ====
/-
  One graph-convolution layer's aggregation, pointwise: scaling node rows before the gather and the aggregated rows
  after the scatter-add is scaling each gathered row by the product of its edge's two node factors. Generic in the
  extents (N nodes, E edges, C columns) and independent of how the update arrays are spelt: they enter through their
  values at an index.
-/
import proofs.«173932_j1915555414201_2_alg».proof.Proof.LibGcnIdx
import proofs.«173932_j1915555414201_2_alg».proof.Proof.LibGcnSum

noncomputable section

open scoped BigOperators

namespace GcnLib

open Idealize.ShloMosaic Idealize.ShloMosaic.ValueIdx

section Layer
variable {N E C : ℕ}

/-- THE LAYER: with Z, Z' zero operands, dstB the edges' destination nodes, r e the row edge e gathers from and r' e the
    row its destination's factor is read at (the destination itself on every edge that lands on a node), dv the
    real-valued per-node factor and h the real-valued unscaled features: the factor of node n times the scatter-add of
    the pre-scaled rows h[r e] * dv (r e) is the scatter-add of the rows scaled per edge, h[r e] * (dv (r e) * dv (r' e)). -/
theorem layer_eq (sd sd' : ScatterDims ⟨2, ![N, C]⟩ ⟨2, ![E, 1]⟩ ⟨2, ![E, C]⟩)
    (huw : sd.updateWindowDims = [1]) (hiw : sd.insertedWindowDims = [0])
    (hsd : sd.scatterDimsToOperandDims = [0]) (hiv : sd.indexVectorDim = 1)
    (huw' : sd'.updateWindowDims = [1]) (hiw' : sd'.insertedWindowDims = [0])
    (hsd' : sd'.scatterDimsToOperandDims = [0]) (hiv' : sd'.indexVectorDim = 1)
    (Z Z' : (⟨2, ![N, C]⟩ : Shape).Idx → EReal) (hZ : ∀ i, Z i = 0) (hZ' : ∀ i, Z' i = 0)
    (dstB : IVec ⟨2, ![E, 1]⟩ 32)
    (r r' : Fin E → Fin N)
    (hhit : ∀ (e : Fin E) (n : Fin N), (dstB (ix2 e (0 : Fin 1))).toInt = (n.val : ℤ) → r' e = n)
    (dv : Fin N → EReal) (hdv : ∀ n, IsReal (dv n))
    (h : (⟨2, ![N, C]⟩ : Shape).Idx → EReal) (hh : ∀ i, IsReal (h i))
    (U U' : (⟨2, ![E, C]⟩ : Shape).Idx → EReal)
    (hU : ∀ (e : Fin E) (j : Fin C), U (ix2 e j) = h (ix2 (r e) j) * dv (r e))
    (hU' : ∀ (e : Fin E) (j : Fin C), U' (ix2 e j) = h (ix2 (r e) j) * (dv (r e) * dv (r' e)))
    (n : Fin N) (j : Fin C) :
    dv n * Ideal.hostScatterAdd sd Z dstB U (ix2 n j) = Ideal.hostScatterAdd sd' Z' dstB U' (ix2 n j) := by
  rw [hostScatterAdd2_apply sd huw hiw hsd hiv Z dstB U n j,
    hostScatterAdd2_apply sd' huw' hiw' hsd' hiv' Z' dstB U' n j, hZ, hZ']
  simp only [hU, hU']
  exact mul_zero_add_sum_eq _ (dv n) (fun e => h (ix2 (r e) j)) (fun e => dv (r e)) (fun e => dv (r' e)) (hdv n)
    (fun e => hh _) (fun e => hdv _) (fun e he => by rw [hhit e n (Finset.mem_filter.1 he).2])

/-- The scatter-add of the rows scaled per edge is real-valued at every index. -/
theorem isReal_layer (sd' : ScatterDims ⟨2, ![N, C]⟩ ⟨2, ![E, 1]⟩ ⟨2, ![E, C]⟩)
    (Z' : (⟨2, ![N, C]⟩ : Shape).Idx → EReal) (hZ' : ∀ i, Z' i = 0)
    (dstB : IVec ⟨2, ![E, 1]⟩ 32) (r r' : Fin E → Fin N)
    (dv : Fin N → EReal) (hdv : ∀ n, IsReal (dv n))
    (h : (⟨2, ![N, C]⟩ : Shape).Idx → EReal) (hh : ∀ i, IsReal (h i))
    (U' : (⟨2, ![E, C]⟩ : Shape).Idx → EReal)
    (hU' : ∀ (e : Fin E) (j : Fin C), U' (ix2 e j) = h (ix2 (r e) j) * (dv (r e) * dv (r' e)))
    (n : Fin N) (j : Fin C) :
    IsReal (Ideal.hostScatterAdd sd' Z' dstB U' (ix2 n j)) := by
  refine isReal_hostScatterAdd sd' Z' dstB U' (fun i => by rw [hZ' i]; exact isReal_zero) (fun u => ?_) _
  have e1 : u = (ix2 (u 0) (u 1) : (⟨2, ![E, C]⟩ : Shape).Idx) := eq_ix2 u
  have hu : IsReal (U' (ix2 (u 0) (u 1))) := by
    rw [hU' (u 0) (u 1)]
    exact isReal_mul (hh _) (isReal_mul (hdv _) (hdv _))
  rw [e1]; exact hu

/-- The scatter-add of the pre-scaled rows is real-valued at every index. -/
theorem isReal_layer_pre (sd : ScatterDims ⟨2, ![N, C]⟩ ⟨2, ![E, 1]⟩ ⟨2, ![E, C]⟩)
    (Z : (⟨2, ![N, C]⟩ : Shape).Idx → EReal) (hZ : ∀ i, Z i = 0)
    (dstB : IVec ⟨2, ![E, 1]⟩ 32) (r : Fin E → Fin N)
    (dv : Fin N → EReal) (hdv : ∀ n, IsReal (dv n))
    (h : (⟨2, ![N, C]⟩ : Shape).Idx → EReal) (hh : ∀ i, IsReal (h i))
    (U : (⟨2, ![E, C]⟩ : Shape).Idx → EReal)
    (hU : ∀ (e : Fin E) (j : Fin C), U (ix2 e j) = h (ix2 (r e) j) * dv (r e))
    (n : Fin N) (j : Fin C) :
    IsReal (Ideal.hostScatterAdd sd Z dstB U (ix2 n j)) := by
  refine isReal_hostScatterAdd sd Z dstB U (fun i => by rw [hZ i]; exact isReal_zero) (fun u => ?_) _
  have e1 : u = (ix2 (u 0) (u 1) : (⟨2, ![E, C]⟩ : Shape).Idx) := eq_ix2 u
  have hu : IsReal (U (ix2 (u 0) (u 1))) := by
    rw [hU (u 0) (u 1)]
    exact isReal_mul (hh _) (hdv _)
  rw [e1]; exact hu

end Layer

/-- THE DEGREE IS REAL: a scalar scatter-add of ones into a zero operand (any dimension numbers) is real-valued at every
    index. -/
theorem isReal_degree {N E w : ℕ} (sd1 : ScatterDims ⟨1, ![N]⟩ ⟨2, ![E, 1]⟩ ⟨1, ![E]⟩)
    (x : (⟨1, ![N]⟩ : Shape).Idx → EReal) (hx : ∀ i, x i = 0) (idx : IVec ⟨2, ![E, 1]⟩ w)
    (upd : (⟨1, ![E]⟩ : Shape).Idx → EReal) (hupd : ∀ j, upd j = 1) (i : (⟨1, ![N]⟩ : Shape).Idx) :
    IsReal (Ideal.hostScatterAdd sd1 x idx upd i) :=
  isReal_hostScatterAdd sd1 x idx upd (fun i => by rw [hx i]; exact isReal_zero)
    (fun j => by rw [hupd j]; exact isReal_one) i

/-- The index normalisation as a program computes it on vectors — select, on "index less than a zero vector, signed",
    between the index plus a constant vector and the index — read at an index whose word is non-negative read signed:
    the word itself. -/
theorem select_cmpi_slt_addi_apply {s : Shape} {w : ℕ} (v z k : IVec s w) (i : s.Idx) (hz : z i = 0#w)
    (h : 0 ≤ (v i).toInt) : select (cmpi .slt v z) (addi v k) v i = v i := by
  show Scalar.select (IntOp.cmpi .slt (v i) (z i)) (IntOp.addi (v i) (k i)) (v i) = v i
  rw [hz]; exact select_slt_zero_of_nonneg _ _ h

end GcnLib

end
-- ==== Proof.BridgeStages.lean ====
/-
  The stages the two programs share, identified, and the reference's arrays read at an index: the edge lists, the
  degrees and their inverse square roots, the normalised gather indices, the per-edge scale, the bias rows.
-/
import proofs.«173932_j1915555414201_2_alg».proof.Proof.KI.HostFns
import proofs.«173932_j1915555414201_2_alg».proof.Proof.RefReadP
import proofs.«173932_j1915555414201_2_alg».proof.Proof.Spec
import proofs.«173932_j1915555414201_2_alg».proof.Proof.LibDot
import proofs.«173932_j1915555414201_2_alg».proof.Proof.LibColumn
import proofs.«173932_j1915555414201_2_alg».proof.Proof.LibGcnIdx
import proofs.«173932_j1915555414201_2_alg».proof.Proof.LibGcnSum
import proofs.«173932_j1915555414201_2_alg».proof.Proof.LibGcnLayer
import Idealize.ShloMosaic.Lib.ValueLayout
import Idealize.ShloMosaic.Lib.Pipeline.Value
import Idealize.ShloMosaic.Lib.ValueIdx
import Idealize.ShloMosaic.Lib.IdealHost
import Idealize.ShloMosaic.PureOps.Ideal.Laws

noncomputable section

open scoped BigOperators

namespace Cert.Bridge

open Idealize.ShloMosaic Idealize.ShloMosaic.ValueIdx GcnLib
open Cert.KernelIdeal (S_ S50000 S550000 S550000x1 S50000x1 S50000x256 S550000x256 S2x500000 S50000x128 S128x256 S256 S1x256 S256x256)
open Cert.KernelIdeal.Hst Cert.ReferenceIdeal.ReadP

variable [Cert.KernelIdeal.Facts] [Cert.ReferenceIdeal.Facts]

/-! ## The shared stages are the same arrays -/

/-- The reference's source nodes are the kernel program's. -/
theorem v3_eq (ei : IVec S2x500000 32) : val_main_v3 (F := Ideal) ei = srcOf ei := rfl

/-- The reference's destination nodes are the kernel program's. -/
theorem v6_eq (ei : IVec S2x500000 32) : val_main_v6 (F := Ideal) ei = dstOf ei := rfl

/-- The reference's degrees are the kernel program's. -/
theorem v10_eq (ei : IVec S2x500000 32) : val_main_v10 (F := Ideal) ei = degOf (F := Ideal) (dstOf ei) := rfl

/-- The reference's inverse square roots of the degrees are the kernel program's. -/
theorem v14_eq (ei : IVec S2x500000 32) : val_main_v14 (F := Ideal) ei = dinvOf (F := Ideal) (degOf (F := Ideal) (dstOf ei)) := rfl

/-- The reference's normalised source indices (each of their three spellings) are the kernel program's. -/
theorem v20_eq (ei : IVec S2x500000 32) : val_main_v20 (F := Ideal) ei = normIdx (srcOf ei) := rfl
theorem v36_eq (ei : IVec S2x500000 32) : val_main_v36 (F := Ideal) ei = normIdx (srcOf ei) := rfl
theorem v54_eq (ei : IVec S2x500000 32) : val_main_v54 (F := Ideal) ei = normIdx (srcOf ei) := rfl

/-- The reference's normalised destination indices are the kernel program's normalisation of the destinations. -/
theorem v27_eq (ei : IVec S2x500000 32) : val_main_v27 (F := Ideal) ei = normIdx (dstOf ei) := rfl

/-! ## The degrees and their inverse square roots are real numbers -/

/-- The host's scatter-add at the extended reals is the exact sum. -/
theorem scatterAdd_ideal {s si su : Shape} {φ : FTy} (d : ScatterDims s si su) {w : ℕ} (x : FVec Ideal s φ) (idx : IVec si w)
    (upd : FVec Ideal su φ) : Host.scatterAdd (F := Ideal) d x idx upd = Ideal.hostScatterAdd d x idx upd := rfl

/-- The scalar zero constant broadcast to any shape reads zero everywhere. -/
theorem bzero_apply {T : Shape} (h : (S_ : Shape).BroadcastsInDim T ![]) (j : T.Idx) :
    broadcastInDim T ![] h (constant (F := Ideal) S_ .f32 0x00000000#32) j = (0 : EReal) := by
  rw [broadcastInDim_scalar_apply, constant_apply, ofBits_zero_f32]

/-- The scalar one constant broadcast to any shape reads one everywhere. -/
theorem bone_apply {T : Shape} (h : (S_ : Shape).BroadcastsInDim T ![]) (j : T.Idx) :
    broadcastInDim T ![] h (constant (F := Ideal) S_ .f32 0x3F800000#32) j = (1 : EReal) := by
  rw [broadcastInDim_scalar_apply, constant_apply, Ideal.ofBits_one_f32]

/-- Every degree is a real number. -/
theorem isReal_deg (dstv : IVec S550000 32) (i : S50000.Idx) : IsReal (degOf (F := Ideal) dstv i) := by
  unfold degOf
  rw [scatterAdd_ideal]
  apply isReal_degree
  · intro i; exact bzero_apply _ i
  · intro j; exact bone_apply _ j

/-- Every inverse square root of a degree (zero where the degree is not positive) is a real number. -/
theorem isReal_dinv (dstv : IVec S550000 32) (i : S50000.Idx) :
    IsReal (dinvOf (F := Ideal) (degOf (F := Ideal) dstv) i) := by
  unfold dinvOf
  apply isReal_select_cmpf_rsqrt
  · exact bzero_apply _ i
  · exact bzero_apply _ i
  · exact isReal_deg dstv i

/-! ## Index columns read at an edge -/

/-- A vector over the edges as a column reads, at edge e, the vector at e. -/
theorem bcol_apply {α : Type} (v : S550000.Idx → α) (e : Fin 550000) (u : Fin 1) :
    broadcastInDim S550000x1 ![0] Cert.KernelIdeal.Facts₀.bcast_S550000_S550000x1_0 v (ix2 e u) = v (ix1 e) :=
  broadcastInDim_apply _ _ v (ix2 e u) (ix1 e) (fun a => match a with
    | ⟨0, _⟩ => by show e.val = if (550000 : Nat) = 1 then 0 else e.val; rw [if_neg (by decide)])

/-- The normalised index column at edge e, when the raw word reads as a non-negative number: the raw word. -/
theorem normIdx_apply_of_nonneg (v : IVec S550000 32) (e : Fin 550000) (h : 0 ≤ (v (ix1 e)).toInt) :
    normIdx v (ix2 e (0 : Fin 1)) = v (ix1 e) := by
  unfold normIdx
  rw [bcol_apply]
  exact select_cmpi_slt_addi_apply _ _ _ _ ((broadcastInDim_scalar_apply _ _ _).trans rfl) h

/-- The row a gather whose start-index column is the normalisation of v reads for edge e: the start index read
    signed and clamped to the node range. -/
def rowOf (v : IVec S550000 32) (e : Fin 550000) : Fin 50000 :=
  ⟨min (normIdx v (ix2 e (0 : Fin 1))).toInt.toNat (50000 - 1), by omega⟩

/-- An edge whose raw destination word reads as node n gathers, through the normalised destination column, row n. -/
theorem rowOf_of_hit (v : IVec S550000 32) (e : Fin 550000) (n : Fin 50000)
    (h : (broadcastInDim S550000x1 ![0] Cert.KernelIdeal.Facts₀.bcast_S550000_S550000x1_0 v (ix2 e (0 : Fin 1))).toInt
      = (n.val : ℤ)) : rowOf v e = n := by
  rw [bcol_apply] at h
  apply Fin.ext
  show min (normIdx v (ix2 e (0 : Fin 1))).toInt.toNat (50000 - 1) = n.val
  rw [normIdx_apply_of_nonneg v e (by omega)]
  have := n.isLt
  omega

/-! ## The gathers read at an edge -/

/-- The kernel program's row gather at (e, j): the operand's row rowOf v e. -/
theorem gatherK_apply {α : Type} (x : S50000x256.Idx → α) (v : IVec S550000 32) (e : Fin 550000) (j : Fin 256) :
    Host.gather Cert.KernelIdeal.gather_S50000x256_S550000x1_S550000x256_1_0_n_n_0_1_1256 x (normIdx v) (ix2 e j)
      = x (ix2 (rowOf v e) j) :=
  gather2_apply (by decide) _ rfl rfl rfl rfl rfl rfl rfl x (normIdx v) e j

/-- The reference's row gather at (e, j): the operand's row rowOf v e. -/
theorem gatherR_apply {α : Type} (x : S50000x256.Idx → α) (v : IVec S550000 32) (e : Fin 550000) (j : Fin 256) :
    Host.gather Cert.ReferenceIdeal.gather_S50000x256_S550000x1_S550000x256_1_0_n_n_0_1_1256 x (normIdx v) (ix2 e j)
      = x (ix2 (rowOf v e) j) :=
  gather2_apply (by decide) _ rfl rfl rfl rfl rfl rfl rfl x (normIdx v) e j

/-- The reference's scalar gather at e: the operand at node rowOf v e. -/
theorem gather1R_apply {α : Type} (x : S50000.Idx → α) (v : IVec S550000 32) (e : Fin 550000) :
    Host.gather Cert.ReferenceIdeal.gather_S50000_S550000x1_S550000_n_0_n_n_0_1_1 x (normIdx v) (ix1 e)
      = x (ix1 (rowOf v e)) :=
  gather1_apply (by decide) _ rfl rfl rfl rfl rfl rfl rfl x (normIdx v) e

/-- THE PER-EDGE SCALE of the reference, read at (e, j): the product of the inverse square roots at the edge's gathered
    source row and at its destination's row. -/
theorem v39_apply' (ei : IVec S2x500000 32) (e : Fin 550000) (j : Fin 256) :
    val_main_v39 (F := Ideal) ei (ix2 e j)
      = dinvOf (F := Ideal) (degOf (F := Ideal) (dstOf ei)) (ix1 (rowOf (srcOf ei) e))
        * dinvOf (F := Ideal) (degOf (F := Ideal) (dstOf ei)) (ix1 (rowOf (dstOf ei) e)) := by
  rw [val_main_v39_apply, val_main_v38_apply, val_main_v29_apply]
  have hi : idx_main_v38 (idx_main_v39 (ix2 e j)) = ix1 e := by
    funext a
    match a with
    | ⟨0, _⟩ => rfl
  rw [hi]
  show val_main_v21 (F := Ideal) ei (ix1 e) * val_main_v28 (F := Ideal) ei (ix1 e) = _
  unfold val_main_v21 val_main_v28
  rw [v14_eq, v20_eq, v27_eq, gather1R_apply, gather1R_apply]

end Cert.Bridge

end
-- ==== Proof.BridgeBias.lean ====
/-
  The readings, at an index, of the bias rows, the zero splats and the column of scales.
-/
import proofs.«173932_j1915555414201_2_alg».proof.Proof.KI.HostFns
import proofs.«173932_j1915555414201_2_alg».proof.Proof.RefReadP
import proofs.«173932_j1915555414201_2_alg».proof.Proof.Spec
import proofs.«173932_j1915555414201_2_alg».proof.Proof.LibDot
import proofs.«173932_j1915555414201_2_alg».proof.Proof.LibColumn
import proofs.«173932_j1915555414201_2_alg».proof.Proof.LibGcnIdx
import proofs.«173932_j1915555414201_2_alg».proof.Proof.LibGcnSum
import proofs.«173932_j1915555414201_2_alg».proof.Proof.LibGcnLayer
import Idealize.ShloMosaic.Lib.ValueLayout
import Idealize.ShloMosaic.Lib.Pipeline.Value
import Idealize.ShloMosaic.Lib.ValueIdx
import Idealize.ShloMosaic.Lib.IdealHost
import Idealize.ShloMosaic.PureOps.Ideal.Laws

noncomputable section

open scoped BigOperators

namespace Cert.Bridge

open Idealize.ShloMosaic Idealize.ShloMosaic.ValueIdx GcnLib
open Cert.KernelIdeal (S_ S50000 S550000 S550000x1 S50000x1 S50000x256 S550000x256 S2x500000 S50000x128 S128x256 S256 S1x256 S256x256)
open Cert.KernelIdeal.Hst Cert.ReferenceIdeal.ReadP

variable [Cert.KernelIdeal.Facts] [Cert.ReferenceIdeal.Facts]

/-! ## The bias rows -/

/-- The bias as a row reads, at `(0, k)`, the bias at `k`. -/
theorem brow_apply (b : FVec Ideal S256 .f32) (k : Fin 256) : browOf (F := Ideal) b (ix2 (0 : Fin 1) k) = b (ix1 k) := by
  unfold browOf
  exact shapeCast_a_1a_apply b _ 0 k

/-- The first bias broadcast over the rows reads, at `(p, k)`, the bias at `k`. -/
theorem v45_apply' (b : FVec Ideal S256 .f32) (p : Fin 50000) (k : Fin 256) : val_main_v45 (F := Ideal) b (ix2 p k) = b (ix1 k) := by
  rw [val_main_v45_apply, val_main_v44_apply]
  exact congrArg b (funext fun a => match a with | ⟨0, _⟩ => rfl)

/-- The second bias is broadcast by the same operations as the first. -/
theorem v63_eq_v45 (b : FVec Ideal S256 .f32) : val_main_v63 (F := Ideal) b = val_main_v45 (F := Ideal) b := rfl

/-! ## The zero splats -/

/-- The first clip's zero splat is zero everywhere. -/
theorem call1_v0_zero (i : S50000x256.Idx) : val_main_call1_v0 (F := Ideal) i = (0 : EReal) :=
  (val_main_call1_v0_apply i).trans GcnLib.ofBits_zero_f32

/-- The second clip's zero splat is zero everywhere. -/
theorem call2_v0_zero (i : S50000x256.Idx) : val_main_call2_v0 (F := Ideal) i = (0 : EReal) :=
  (val_main_call2_v0_apply i).trans GcnLib.ofBits_zero_f32

/-- The first aggregation's initial array is zero everywhere. -/
theorem v41_zero (i : S50000x256.Idx) : val_main_v41 (F := Ideal) i = (0 : EReal) :=
  (val_main_v41_apply i).trans GcnLib.ofBits_zero_f32

/-- The second aggregation's initial array is the first's. -/
theorem v59_eq_v41 : val_main_v59 (F := Ideal) = val_main_v41 (F := Ideal) := rfl

/-- The second aggregation's destination column is the first's. -/
theorem v60_eq_v42 (ei : IVec S2x500000 32) : val_main_v60 (F := Ideal) ei = val_main_v42 (F := Ideal) ei := rfl

/-- The second aggregation's per-edge scale, broadcast over the columns, is the first's. -/
theorem v57_eq_v39 (ei : IVec S2x500000 32) : val_main_v57 (F := Ideal) ei = val_main_v39 (F := Ideal) ei := rfl

/-- The destination column is the destination nodes broadcast to a column. -/
theorem v42_eq (ei : IVec S2x500000 32) :
    val_main_v42 (F := Ideal) ei = broadcastInDim S550000x1 ![0] Cert.KernelIdeal.Facts₀.bcast_S550000_S550000x1_0 (dstOf ei) := rfl

/-- The zero scalar broadcast to the whole array is zero everywhere. -/
theorem aggZ_zero (i : S50000x256.Idx) :
    broadcastInDim S50000x256 ![] Cert.KernelIdeal.Facts₀.bcast_S_S50000x256 (constant (F := Ideal) S_ .f32 0x00000000#32) i = (0 : EReal) :=
  (broadcastInDim_scalar_apply _ _ i).trans GcnLib.ofBits_zero_f32

/-! ## The column of scales -/

/-- The scales as a column read, at `(p, 0)`, the scale of row `p`. -/
theorem dcol_apply (dinv : FVec Ideal S50000 .f32) (p : Fin 50000) : dcolOf (F := Ideal) dinv (ix2 p (0 : Fin 1)) = dinv (ix1 p) := by
  unfold dcolOf
  exact Cert.LibColumn.shapeCast_a_a1_apply dinv _ p 0

end Cert.Bridge

end
-- ==== Proof.Bridge.lean ====
/-
  The kernel program's whole result is the reference's: each layer's aggregation of pre-scaled rows, scaled again at
  the destination, is the reference's aggregation of rows scaled per edge; the bias, the clip at zero and the second
  layer follow entry by entry.
-/
import proofs.«173932_j1915555414201_2_alg».proof.Proof.BridgeStages
import proofs.«173932_j1915555414201_2_alg».proof.Proof.BridgeBias

noncomputable section

open scoped BigOperators

namespace Cert.Bridge

open Idealize.ShloMosaic Idealize.ShloMosaic.ValueIdx GcnLib
open Cert.KernelIdeal (S_ S50000 S550000 S550000x1 S50000x1 S50000x256 S550000x256 S2x500000 S50000x128 S128x256 S256 S1x256 S256x256)
open Cert.KernelIdeal.Hst Cert.ReferenceIdeal.ReadP

variable [Cert.KernelIdeal.Facts] [Cert.ReferenceIdeal.Facts]

/-! ## One layer -/

section Layer
variable {K : ℕ}

/-- The plain matrix product a · w, entry by entry. -/
def prod (a : (Gcn.Sh 50000 K).Idx → EReal) (w : (Gcn.Sh K 256).Idx → EReal) : (Gcn.Sh 50000 256).Idx → EReal :=
  fun i => ∑ k : Fin K, a (ix2 ⟨(i 0).val, idx2_lt0 i⟩ k) * w (ix2 k ⟨(i 1).val, idx2_lt1 i⟩)

/-- Entry (p, q) of the product is the sum over the contracted extent. -/
theorem prod_ix2 (a : (Gcn.Sh 50000 K).Idx → EReal) (w : (Gcn.Sh K 256).Idx → EReal) (p : Fin 50000) (q : Fin 256) :
    prod a w (ix2 p q) = ∑ k : Fin K, a (ix2 p k) * w (ix2 k q) := rfl

/-- A product of real-valued matrices is real-valued. -/
theorem isReal_prod (a : (Gcn.Sh 50000 K).Idx → EReal) (w : (Gcn.Sh K 256).Idx → EReal)
    (ha : ∀ i, IsReal (a i)) (hw : ∀ i, IsReal (w i)) (i : (Gcn.Sh 50000 256).Idx) : IsReal (prod a w i) :=
  isReal_sum_mul Finset.univ _ _ (fun _ => ha _) (fun _ => hw _)

/-- The reference's aggregation over the product a · w: the product's rows gathered at the edges' sources, each scaled
    by the edge's scale, added up at the edges' destinations. -/
def refAgg (ei : IVec S2x500000 32) (dotR : DotDims (Gcn.Sh 50000 K) (Gcn.Sh K 256) (Gcn.Sh 50000 256))
    (a : (Gcn.Sh 50000 K).Idx → EReal) (w : (Gcn.Sh K 256).Idx → EReal) : S50000x256.Idx → EReal :=
  Ideal.hostScatterAdd Cert.ReferenceIdeal.scatter_S50000x256_S550000x1_S550000x256_1_0_0_1 (val_main_v41 (F := Ideal))
    (broadcastInDim S550000x1 ![0] Cert.KernelIdeal.Facts₀.bcast_S550000_S550000x1_0 (dstOf ei))
    (mulf (F := Ideal) (φ := .f32)
      (Host.gather Cert.ReferenceIdeal.gather_S50000x256_S550000x1_S550000x256_1_0_n_n_0_1_1256
        (Host.dotGeneral (F := Ideal) (φ₁ := .f32) (φ₂ := .f32) dotR none a w) (normIdx (srcOf ei)))
      (val_main_v39 (F := Ideal) ei))

variable (ei : IVec S2x500000 32) (dotR : DotDims (Gcn.Sh 50000 K) (Gcn.Sh K 256) (Gcn.Sh 50000 256))
  (hlc : dotR.lhsContracting = [1]) (hrc : dotR.rhsContracting = [0]) (hlb : dotR.lhsBatch = []) (hrb : dotR.rhsBatch = [])
  (hln : dotR.lhsNonContracting = [0]) (hrn : dotR.rhsNonContracting = [1])
  (a : (Gcn.Sh 50000 K).Idx → EReal) (w : (Gcn.Sh K 256).Idx → EReal)

/-- The kernel program's gathered, pre-scaled rows at (e, j). -/
theorem updK_apply (e : Fin 550000) (j : Fin 256) :
    extf (F := Ideal) .f32 (Host.gather Cert.KernelIdeal.gather_S50000x256_S550000x1_S550000x256_1_0_n_n_0_1_1256
        (Gcn.scaledProduct a w (dcolOf (F := Ideal) (dinvOf (F := Ideal) (degOf (F := Ideal) (dstOf ei))))) (normIdx (srcOf ei)))
        Cert.KernelIdeal.Facts₀.bitsLt_bf16_f32 (ix2 e j)
      = prod a w (ix2 (rowOf (srcOf ei) e) j)
        * dinvOf (F := Ideal) (degOf (F := Ideal) (dstOf ei)) (ix1 (rowOf (srcOf ei) e)) := by
  rw [extf_apply, gatherK_apply, Gcn.scaledProduct_ix2]
  unfold Gcn.sp
  rw [dcol_apply, prod_ix2]

include hlc hrc hlb hrb hln hrn in
/-- The reference's gathered rows, scaled per edge, at (e, j). -/
theorem updR_apply (e : Fin 550000) (j : Fin 256) :
    mulf (F := Ideal) (φ := .f32)
      (Host.gather Cert.ReferenceIdeal.gather_S50000x256_S550000x1_S550000x256_1_0_n_n_0_1_1256
        (Host.dotGeneral (F := Ideal) (φ₁ := .f32) (φ₂ := .f32) dotR none a w) (normIdx (srcOf ei)))
      (val_main_v39 (F := Ideal) ei) (ix2 e j)
      = prod a w (ix2 (rowOf (srcOf ei) e) j)
        * (dinvOf (F := Ideal) (degOf (F := Ideal) (dstOf ei)) (ix1 (rowOf (srcOf ei) e))
          * dinvOf (F := Ideal) (degOf (F := Ideal) (dstOf ei)) (ix1 (rowOf (dstOf ei) e))) := by
  rw [mulf_apply, gatherR_apply, v39_apply', LibDot.dotGeneral_plain dotR hlc hrc hlb hrb hln hrn, prod_ix2]

local notation "sdK" => Cert.KernelIdeal.scatter_S50000x256_S550000x1_S550000x256_1_0_0_1
local notation "sdR" => Cert.ReferenceIdeal.scatter_S50000x256_S550000x1_S550000x256_1_0_0_1
local notation "gdK" => Cert.KernelIdeal.gather_S50000x256_S550000x1_S550000x256_1_0_n_n_0_1_1256
local notation "gdR" => Cert.ReferenceIdeal.gather_S50000x256_S550000x1_S550000x256_1_0_n_n_0_1_1256

include hlc hrc hlb hrb hln hrn in
/-- THE LAYER: the destination's scale times the kernel program's aggregation of the pre-scaled product rows is the
    reference's aggregation of the product rows scaled per edge. -/
theorem layer_bridge (ha : ∀ i, IsReal (a i)) (hw : ∀ i, IsReal (w i)) (n : Fin 50000) (j : Fin 256) :
    dcolOf (F := Ideal) (dinvOf (F := Ideal) (degOf (F := Ideal) (dstOf ei))) (ix2 n (0 : Fin 1))
        * aggOf (F := Ideal) (srcOf ei) (dstOf ei)
            (Gcn.scaledProduct a w (dcolOf (F := Ideal) (dinvOf (F := Ideal) (degOf (F := Ideal) (dstOf ei))))) (ix2 n j)
      = refAgg ei dotR a w (ix2 n j) := by
  unfold aggOf refAgg
  rw [dcol_apply, scatterAdd_ideal]
  have key := layer_eq (N := 50000) (E := 550000) (C := 256) sdK sdR rfl rfl rfl rfl rfl rfl rfl rfl
    (broadcastInDim S50000x256 ![] Cert.KernelIdeal.Facts₀.bcast_S_S50000x256 (constant (F := Ideal) S_ .f32 0x00000000#32))
    (val_main_v41 (F := Ideal)) aggZ_zero v41_zero
    (broadcastInDim S550000x1 ![0] Cert.KernelIdeal.Facts₀.bcast_S550000_S550000x1_0 (dstOf ei))
    (rowOf (srcOf ei)) (rowOf (dstOf ei)) (fun e n h => by exact rowOf_of_hit (dstOf ei) e n h)
    (fun n => dinvOf (F := Ideal) (degOf (F := Ideal) (dstOf ei)) (ix1 n)) (fun n => isReal_dinv (dstOf ei) (ix1 n))
    (prod a w) (isReal_prod a w ha hw)
    (extf (F := Ideal) .f32 (Host.gather gdK
      (Gcn.scaledProduct a w (dcolOf (F := Ideal) (dinvOf (F := Ideal) (degOf (F := Ideal) (dstOf ei))))) (normIdx (srcOf ei)))
      Cert.KernelIdeal.Facts₀.bitsLt_bf16_f32)
    (mulf (F := Ideal) (φ := .f32)
      (Host.gather gdR (Host.dotGeneral (F := Ideal) (φ₁ := .f32) (φ₂ := .f32) dotR none a w) (normIdx (srcOf ei)))
      (val_main_v39 (F := Ideal) ei))
    (updK_apply ei a w) (updR_apply ei dotR hlc hrc hlb hrb hln hrn a w) n j
  exact key

include hlc hrc hlb hrb hln hrn in
/-- The reference's aggregation is real-valued. -/
theorem isReal_refAgg (ha : ∀ i, IsReal (a i)) (hw : ∀ i, IsReal (w i)) (i : S50000x256.Idx) :
    IsReal (refAgg ei dotR a w i) := by
  obtain ⟨n, j, rfl⟩ : ∃ (n : Fin 50000) (j : Fin 256), i = ix2 n j := ⟨i 0, i 1, eq_ix2 i⟩
  have key := isReal_layer (N := 50000) (E := 550000) (C := 256) sdR (val_main_v41 (F := Ideal)) v41_zero
    (broadcastInDim S550000x1 ![0] Cert.KernelIdeal.Facts₀.bcast_S550000_S550000x1_0 (dstOf ei))
    (rowOf (srcOf ei)) (rowOf (dstOf ei))
    (fun n => dinvOf (F := Ideal) (degOf (F := Ideal) (dstOf ei)) (ix1 n)) (fun n => isReal_dinv (dstOf ei) (ix1 n))
    (prod a w) (isReal_prod a w ha hw)
    (mulf (F := Ideal) (φ := .f32)
      (Host.gather gdR (Host.dotGeneral (F := Ideal) (φ₁ := .f32) (φ₂ := .f32) dotR none a w) (normIdx (srcOf ei)))
      (val_main_v39 (F := Ideal) ei))
    (updR_apply ei dotR hlc hrc hlb hrb hln hrn a w) n j
  unfold refAgg
  exact key

include hlc hrc hlb hrb hln hrn in
/-- The kernel program's scaled, shifted, clipped aggregation at (p, k), over the reference's aggregation. -/
theorem act_bridge (ha : ∀ i, IsReal (a i)) (hw : ∀ i, IsReal (w i)) (b : FVec Ideal S256 .f32) (p : Fin 50000) (k : Fin 256) :
    Gcn.activation
        (aggOf (F := Ideal) (srcOf ei) (dstOf ei)
          (Gcn.scaledProduct a w (dcolOf (F := Ideal) (dinvOf (F := Ideal) (degOf (F := Ideal) (dstOf ei))))))
        (dcolOf (F := Ideal) (dinvOf (F := Ideal) (degOf (F := Ideal) (dstOf ei)))) (browOf (F := Ideal) b) (ix2 p k)
      = max (refAgg ei dotR a w (ix2 p k) + b (ix1 k)) 0 := by
  rw [Gcn.activation_ix2]
  unfold Gcn.act
  rw [layer_bridge ei dotR hlc hrc hlb hrb hln hrn a w ha hw p k, brow_apply]

end Layer

/-! ## The two layers -/

local notation "d1R" => Cert.ReferenceIdeal.dot_S50000x128_S128x256_S50000x256_1_0_0_1_n_n
local notation "d2R" => Cert.ReferenceIdeal.dot_S50000x256_S256x256_S50000x256_1_0_0_1_n_n

section Whole
variable (x : FVec Ideal S50000x128 .f32) (ei : IVec S2x500000 32) (w1 : FVec Ideal S128x256 .f32) (b1 : FVec Ideal S256 .f32)
  (w2 : FVec Ideal S256x256 .f32) (b2 : FVec Ideal S256 .f32)

/-- The reference's first aggregation is the aggregation over x · w1. -/
theorem v43_eq : val_main_v43 (F := Ideal) x ei w1 = refAgg ei d1R x w1 := by
  unfold val_main_v43 val_main_v40 val_main_v37 val_main_v30 refAgg
  rw [v42_eq, v36_eq, scatterAdd_ideal]

/-- The reference's first layer at (p, k). -/
theorem v47_apply' (p : Fin 50000) (k : Fin 256) :
    val_main_v47 (F := Ideal) x ei w1 b1 (ix2 p k) = max (refAgg ei d1R x w1 (ix2 p k) + b1 (ix1 k)) 0 := by
  rw [val_main_v47_apply, val_main_v46_apply, call1_v0_zero, v43_eq, v45_apply']
  rfl

/-- The kernel program's first layer is the reference's, as arrays. -/
theorem act1_eq (hx : ∀ i, IsReal (x i)) (hw1 : ∀ i, IsReal (w1 i)) :
    Gcn.activation
        (aggOf (F := Ideal) (srcOf ei) (dstOf ei)
          (Gcn.scaledProduct x w1 (dcolOf (F := Ideal) (dinvOf (F := Ideal) (degOf (F := Ideal) (dstOf ei))))))
        (dcolOf (F := Ideal) (dinvOf (F := Ideal) (degOf (F := Ideal) (dstOf ei)))) (browOf (F := Ideal) b1)
      = val_main_v47 (F := Ideal) x ei w1 b1 := by
  funext i
  obtain ⟨p, k, rfl⟩ : ∃ (p : Fin 50000) (k : Fin 256), i = ix2 p k := ⟨i 0, i 1, eq_ix2 i⟩
  rw [act_bridge ei d1R rfl rfl rfl rfl rfl rfl x w1 hx hw1 b1 p k, v47_apply']

/-- The first layer's result is real-valued. -/
theorem isReal_v47 (hx : ∀ i, IsReal (x i)) (hw1 : ∀ i, IsReal (w1 i)) (hb1 : ∀ i, IsReal (b1 i)) (i : S50000x256.Idx) :
    IsReal (val_main_v47 (F := Ideal) x ei w1 b1 i) := by
  obtain ⟨p, k, rfl⟩ : ∃ (p : Fin 50000) (k : Fin 256), i = ix2 p k := ⟨i 0, i 1, eq_ix2 i⟩
  rw [v47_apply']
  exact isReal_relu (isReal_add (isReal_refAgg ei d1R rfl rfl rfl rfl rfl rfl x w1 hx hw1 _) (hb1 _))

/-- The reference's second aggregation is the aggregation over (first layer) · w2. -/
theorem v61_eq : val_main_v61 (F := Ideal) x ei w1 b1 w2 = refAgg ei d2R (val_main_v47 (F := Ideal) x ei w1 b1) w2 := by
  unfold val_main_v61 val_main_v58 val_main_v55 val_main_v48 refAgg
  rw [v59_eq_v41, v60_eq_v42, v42_eq, v54_eq, v57_eq_v39, scatterAdd_ideal]

/-- THE BRIDGE: on real-valued features, weights and first bias the kernel program's result is the reference's. -/
theorem kout_eq_ref (hx : ∀ i, IsReal (x i)) (hw1 : ∀ i, IsReal (w1 i)) (hb1 : ∀ i, IsReal (b1 i)) (hw2 : ∀ i, IsReal (w2 i)) :
    kout x ei w1 b1 w2 b2 = val_main_v65 (F := Ideal) x ei w1 b1 w2 b2 := by
  unfold kout
  rw [act1_eq x ei w1 b1 hx hw1]
  funext i
  obtain ⟨p, k, rfl⟩ : ∃ (p : Fin 50000) (k : Fin 256), i = ix2 p k := ⟨i 0, i 1, eq_ix2 i⟩
  rw [act_bridge ei d2R rfl rfl rfl rfl rfl rfl (val_main_v47 (F := Ideal) x ei w1 b1) w2
      (isReal_v47 x ei w1 b1 hx hw1 hb1) hw2 b2 p k,
    val_main_v65_apply, val_main_v64_apply, call2_v0_zero, v61_eq, v63_eq_v45, v45_apply']
  rfl

end Whole

end Cert.Bridge

end
-- ==== Proof.PreReal.lean ====
/- The precondition of the claim, decoded at the extended reals. `finite_inputs` is the conjunction of five
   `all(|a| < +inf)`, one per float argument (the node features, the two weight matrices and the two biases; the
   integer edge list is not constrained). Each `all` is a reduction by `and` of the array of comparisons: it is 1
   only when every comparison is 1; a comparison `max a (-a) < ⊤` holds only when `a` is neither `⊤` nor `⊥`, that
   is, when `a` is a real number. -/
import proofs.«173932_j1915555414201_2_alg».proof.Pre_finite_inputs
import Idealize.ShloMosaic.Lib.ReduceAll
import Idealize.ShloMosaic.PureOps.Ideal
import Idealize.ShloMosaic.Lib.ValueIdx

set_option maxRecDepth 16384

noncomputable section

namespace Cert.PreReal

open Cert.Pre_finite_inputs
open Idealize.ShloMosaic

/-- A rank-0 array has one index. -/
instance : Subsingleton S_.Idx := ⟨fun a b => funext fun d => d.elim0⟩

/-- The pattern `0x7F800000` is `+inf`. -/
theorem ofBits_inf : Ideal.ofBits .f32 0x7F800000#32 = (⊤ : EReal) := by
  simp [Ideal.ofBits, Ideal.ieee]

/-- An extended real whose absolute value is below `+inf` is a real number. -/
theorem elt_real (a : EReal) (h : Ideal.cmp .olt (max a (-a)) (Ideal.ofBits .f32 0x7F800000#32) = 1#1) : ∃ r : ℝ, a = (r : EReal) := by
  rw [ofBits_inf] at h
  induction a using EReal.rec with
  | bot => exact absurd h (by simp [Ideal.cmp])
  | coe r => exact ⟨r, rfl⟩
  | top => exact absurd h (by simp [Ideal.cmp])

/-- THE PRECONDITION DECODED: every entry of every float argument is a real number. -/
theorem real_of_pre [Cert.Pre_finite_inputs.Facts]
    (x : FVec Ideal S50000x128 .f32) (ei : IVec S2x500000 32) (w1 : FVec Ideal S128x256 .f32) (b1 : FVec Ideal S256 .f32)
    (w2 : FVec Ideal S256x256 .f32) (b2 : FVec Ideal S256 .f32)
    (h : Cert.Pre_finite_inputs.fn (F := Ideal) x ei w1 b1 w2 b2 = fun _ => 1#1) :
    (∀ i, ∃ r : ℝ, x i = (r : EReal)) ∧ (∀ i, ∃ r : ℝ, w1 i = (r : EReal)) ∧ (∀ i, ∃ r : ℝ, b1 i = (r : EReal))
      ∧ (∀ i, ∃ r : ℝ, w2 i = (r : EReal)) ∧ (∀ i, ∃ r : ℝ, b2 i = (r : EReal)) := by
  have e := congrFun h ValueIdx.ix0
  dsimp only [fn, fn_part1] at e
  unfold andi at e
  simp only [IntOp.andi_eq_one] at e
  obtain ⟨⟨⟨⟨hx, hw1⟩, hb1⟩, hw2⟩, hb2⟩ := e
  exact ⟨fun i => elt_real _ (Host.reduce_andi_all _ _ _ _ _ hx i), fun i => elt_real _ (Host.reduce_andi_all _ _ _ _ _ hw1 i),
    fun i => elt_real _ (Host.reduce_andi_all _ _ _ _ _ hb1 i), fun i => elt_real _ (Host.reduce_andi_all _ _ _ _ _ hw2 i),
    fun i => elt_real _ (Host.reduce_andi_all _ _ _ _ _ hb2 i)⟩

end Cert.PreReal

end
-- ==== Proof.lean ====
/-
  A two-layer graph convolution: three kernels (a matrix product with its rows scaled by the inverse square roots of
  the node degrees; the same after a scaled, shifted, clipped first factor; the final scale, shift and clip) with a
  gather of source rows and a scatter-add at destination nodes between them, against the textbook form that scales
  every gathered row by the edge's norm dinv[src]·dinv[dst].

  The three frames: both kernel programs run as a chain of host stretches and kernel segments over the contents of
  every unscoped buffer (KI/Run.lean, K/Run.lean: the same text at the two value families); the reference is a straight
  line of host operations. The idealization rewrote nothing, so the second-to-last conjunct is trivial.

  The value claim, over the extended reals. The kernel program ends at `kout` of the argument arrays: each kernel's
  output array is one whole-array function of the arrays it found (KI/Val0, Val1, Val2), and the host stretches between
  them are read off the fold of buffer contents (KI/Host, KI/KValue). The reference ends at its last stage
  (RefRunP, RefReadP). The two are one function when the float arguments are real numbers (Bridge.lean): on the edges
  that land at node n the destination's scale is dinv[n], and
      dinv[n] · ∑_e (h[src e] · dinv[src e]) = ∑_e h[src e] · (dinv[src e] · dinv[n])
  is distributivity over a finite sum of reals — false at infinities, which is where the precondition (every float
  argument finite, PreReal.lean) is used; degrees are natural numbers (every node has its self loop among the edges),
  so their inverse square roots are real.
-/
import proofs.«173932_j1915555414201_2_alg».proof.Defs
import proofs.«173932_j1915555414201_2_alg».proof.Proof.Gen.Kernel
import proofs.«173932_j1915555414201_2_alg».proof.Proof.Gen.KernelIdeal
import proofs.«173932_j1915555414201_2_alg».proof.Proof.Gen.ReferenceIdeal
import proofs.«173932_j1915555414201_2_alg».proof.Proof.Gen.Pre_finite_inputs
import proofs.«173932_j1915555414201_2_alg».proof.Proof.K.Run
import proofs.«173932_j1915555414201_2_alg».proof.Proof.KI.Run
import proofs.«173932_j1915555414201_2_alg».proof.Proof.KI.HostFns
import proofs.«173932_j1915555414201_2_alg».proof.Proof.KI.KValue
import proofs.«173932_j1915555414201_2_alg».proof.Proof.Bridge
import proofs.«173932_j1915555414201_2_alg».proof.Proof.RefReadP
import proofs.«173932_j1915555414201_2_alg».proof.Proof.PreReal
import proofs.«173932_j1915555414201_2_alg».proof.Proof.LibGcnSum

noncomputable section

namespace Cert.Proof

open Idealize.ShloMosaic Idealize.SL.Sem

/-- The word-level program runs, faults nowhere and leaves its arguments alone. -/
theorem frame_k : Cert.frame_Kernel := fun m ρ _ => Cert.Kernel.Rg.frame m ρ

/-- The same program read over the extended reals. -/
theorem frame_ki : Cert.frame_KernelIdeal := fun m ρ _ => Cert.KernelIdeal.Rg.frame m ρ

/-- The reference is a straight line of host operations: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote nothing. -/
theorem preserves : Cert.preserves_Kernel_KernelIdeal := trivial

/-- Over the extended reals both programs end at one function of the arguments: the kernels' result is `kout` of the
    argument arrays (the run, the three whole-array values, the host stages between them), the reference's its last
    stage, and the two agree when the float arguments are real numbers — moving the destination's scale out of each
    node's sum is distributivity, which needs every summand finite. -/
theorem algebraic : Cert.algebraic_KernelIdeal_ReferenceIdeal := by
  intro m ρ m' ρ' hpre hagree
  refine ⟨fun c => Cert.KernelIdeal.Hst.kout
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Rg.kernel_value m ρ c), (h c).2⟩)
      (Cert.KernelIdeal.Rg.run_main (F := Ideal) m ρ)
  · refine (θ_run Cert.ReferenceIdeal.defs _ _).mono (fun _ h c => ⟨(h c).1.trans ?_, (h c).2⟩)
      (Cert.ReferenceIdeal.ValueP.run (F := Ideal) m' ρ')
    obtain ⟨hx, hw1, hb1, hw2, -⟩ := Cert.PreReal.real_of_pre _ _ _ _ _ _ (hpre c)
    rw [Cert.ReferenceIdeal.ReadP.val_main_v65_eq, (hagree c).1, (hagree c).2.1, (hagree c).2.2.1, (hagree c).2.2.2.1,
      (hagree c).2.2.2.2.1, (hagree c).2.2.2.2.2]
    exact (Cert.Bridge.kout_eq_ref _ _ _ _ _ _ hx hw1 hb1 hw2).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
